-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S5000 : Shape := ⟨1, ![5000]⟩

abbrev nBuf : Space → Nat
  | .hbm => 89
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S100000x128, .f32⟩
  | .hbm, ⟨55, _⟩ => ⟨S800000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S100000x128, .f32⟩
  | .hbm, ⟨70, _⟩ => ⟨S800000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S100000x128, .f32⟩
  | .hbm, ⟨85, _⟩ => ⟨S800000x1, .i32⟩
  | .hbm, ⟨86, _⟩ => ⟨S100000x128, .f32⟩
  | .hbm, ⟨87, _⟩ => ⟨S1x128, .f32⟩
  | .hbm, ⟨88, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S5000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v35) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S5000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S128x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S100000x128, .f32⟩
  | .hbm, ⟨76, _⟩ => ⟨S800000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S128x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S100000x128, .f32⟩
  | .hbm, ⟨104, _⟩ => ⟨S800000x1, .i32⟩
  | .hbm, ⟨105, _⟩ => ⟨S100000x128, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S100000, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S100000x128, .f32⟩
  | .hbm, ⟨126, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_cst : Ref sig .tc := ⟨.hbm, 89, rfl⟩
abbrev main_call2_v0 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_14 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  transposes_S128x128_S128x128_1_0 : S128x128.Transposes [1, 0] S128x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.Kernel.R0.lean ====
/-
  The first pallas_call (the projection x · Wᵀ) as one region of the program, at any contents V the
  TensorCore's buffers may hold when the region is entered. Its grid has 20 points; point t stages rows
  5000·t … 5000·t+4999 of the feature array (window 0), the whole transposed weight matrix (window 1, fetched
  once), and writes back the same rows of the result (window 2). The body loads its two input blocks, loads
  the output buffer (a value it never uses) and stores the product over the whole output block. So after the
  body the inputs' buffers hold what they held and the output's holds the product of the two input blocks.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether that point fetched it or not
    (a window fetched only once keeps its block index, so the block is the same). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 5000×128 block and the whole 128×128 matrix as rectangles: what the body loads and stores through. -/
abbrev rN0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output buffer after the body: its one store, of the product of the two loaded blocks. -/
def out0 (x0 : Vec F S5000x128 .f32) (x1 : Vec F S128x128 .f32) : Vec F S5000x128 .f32 :=
  View.canon [⟨rN0, k0_pay1 (View.ld x0 rN0) (View.ld x1 rW0)⟩]

/-- The one store covers the output block. -/
theorem cover0 (p0 : Vec F S5000x128 .f32) (y : S5000x128.Idx) :
    ∃ pc ∈ ([⟨rN0, p0⟩] : List (View.Piece (Elt F) S5000x128 .f32)), y ∈ pc.1.set :=
  View.cover_of_tiled [⟨rN0, p0⟩] S5000x128.size (by rfl) y

set_option maxHeartbeats 1000000 in
/-- The body on whole staging memrefs: the inputs' at contents x0, x1 and the output's at anything run to the
    inputs' unchanged and the output's at `out0 x0 x1`. -/
theorem body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x0 : Vec F S5000x128 .f32) (x1 : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out0 x0 x1)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The region's proof data on core c: arrays as found; after the body each input's buffer at its block and the
    output's at the product of the input blocks; the invariant keeps the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = out0 (blk0 V c 0 t) (blk0 V c 1 t) := by dsimp only [dat0]
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- What the body is called with at point t, the windows one by one, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem oblig0 (c : Dev nD) : BodyObligation (dat0 (F := F) V c) (defs₀ (F := F)) Variants.none () Set.univ := fun t => by
  rw [bigSep_W0, bigSep_W0]
  exact point0 V c t

end Cert.Kernel.Fr

end
-- ==== Proof.Kernel.R1.lean ====
/-
  The second pallas_call (a middle graph layer) as one region of the program, at any contents V the TensorCore's
  buffers may hold when the region is entered. Its grid has 20 points; point t stages rows 5000·t … 5000·t+4999 of
  the neighbour sums (window 0), of the reciprocal degrees as a column (window 1), of the node features (window 2)
  and of the residual (window 6), the two transposed weight matrices and the bias row whole (windows 3, 5 and 4,
  fetched once), and writes back the same rows of the result (window 7). The body loads its input blocks,
  loads the output buffer (a value it never uses) and stores, over the whole output block,
  max((agg·dinv)·Wl + b + h·Wr, 0) + residual. After the body the inputs' buffers hold what they held and the
  output's holds that arithmetic on the input blocks.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether that point fetched it or not
    (a window fetched only at the first point keeps its block index, so its block is the same at every point). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- The whole blocks as rectangles: what the body loads and stores through. -/
abbrev rN1 : Rect S5000x128 := Rect.unit (s := S5000x128) ![0, 0] S5000x128.size inb_S5000x128_S5000x128_0_0
abbrev rD1 : Rect S5000x1 := Rect.unit (s := S5000x1) ![0, 0] S5000x1.size inb_S5000x1_S5000x1_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output buffer after the body: its one store, of the layer's arithmetic on the loaded input blocks. -/
def out1 (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) : Vec F S5000x128 .f32 :=
  View.canon [⟨rN1, k1_pay1 (View.ld x0 rN1) (View.ld x1 rD1) (View.ld x3 rW1) (View.ld x4 rB1) (View.ld x2 rN1) (View.ld x5 rW1) (View.ld x6 rN1)⟩]

/-- The one store covers the output block. -/
theorem cover1 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole staging memrefs: the inputs' at given contents and the output's at anything run to the
    inputs' unchanged and the output's at `out1` of the inputs'. -/
theorem body1 (c : Dev nD) (E : Set ℕ) (i : grid1.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S5000x128 .f32) (h7 : a7.IsWhole)
    (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out1 x0 x1 x2 x3 x4 x5 x6)) -∗ K ⟨⟩))
      ⊢ wp frame (wpE (defs₀ (F := F)) Variants.none c none) E (cc1__sage_mid_kernel i a0 h0 a1 h1 a2 h2 a3 h3 a4 h4 a5 h5 a6 h6 a7 h7) K := by
  simp only [cc1__sage_mid_kernel_eq_skeleton]; unfold cc1__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover1 _)

/-- The region's proof data on core c: arrays as found; after the body each input's buffer at its block and the
    output's at the layer's arithmetic on the input blocks; the invariant keeps the scoped rest and the generator
    register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => out1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = out1 (blk1 V c 0 t) (blk1 V c 1 t) (blk1 V c 2 t) (blk1 V c 3 t) (blk1 V c 4 t) (blk1 V c 5 t) (blk1 V c 6 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d
theorem dat1_before6 (c : Dev nD) (t : Fin cfg1.N) (d) : (dat1 V c).before 6 t d = blk1 V c 6 t :=
  found1_6 V (dat1 V c) (dat1_A V c 6) (dat1_after6 V c) t d

/-- What the body is called with at point t, the windows one by one, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem oblig1 (c : Dev nD) : BodyObligation (dat1 (F := F) V c) (defs₀ (F := F)) Variants.none () Set.univ := fun t => by
  rw [bigSep_W1, bigSep_W1]
  exact point1 V c t

end Cert.Kernel.Fr

end
-- ==== Proof.Kernel.R2.lean ====
/-
  The third pallas_call (a middle graph layer) as one region of the program, at any contents V the TensorCore's
  buffers may hold when the region is entered. Its grid has 20 points; point t stages rows 5000·t … 5000·t+4999 of
  the neighbour sums (window 0), of the reciprocal degrees as a column (window 1), of the node features (window 2)
  and of the residual (window 6), the two transposed weight matrices and the bias row whole (windows 3, 5 and 4,
  fetched once), and writes back the same rows of the result (window 7). Here windows 2 and 6 read ONE array (the layer's input is also its residual), so the region holds that array half and half. The body loads its input blocks,
  loads the output buffer (a value it never uses) and stores, over the whole output block,
  max((agg·dinv)·Wl + b + h·Wr, 0) + residual. After the body the inputs' buffers hold what they held and the
  output's holds that arithmetic on the input blocks.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether that point fetched it or not
    (a window fetched only at the first point keeps its block index, so its block is the same at every point). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem found2_5 {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem found2_6 {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-- The whole blocks as rectangles: what the body loads and stores through. -/
abbrev rN2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output buffer after the body: its one store, of the layer's arithmetic on the loaded input blocks. -/
def out2 (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) : Vec F S5000x128 .f32 :=
  View.canon [⟨rN2, k2_pay1 (View.ld x0 rN2) (View.ld x1 rD2) (View.ld x3 rW2) (View.ld x4 rB2) (View.ld x2 rN2) (View.ld x5 rW2) (View.ld x6 rN2)⟩]

/-- The one store covers the output block. -/
theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The body on whole staging memrefs: the inputs' at given contents and the output's at anything run to the
    inputs' unchanged and the output's at `out2` of the inputs'. -/
theorem body2 (c : Dev nD) (E : Set ℕ) (i : grid2.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S5000x128 .f32) (h7 : a7.IsWhole)
    (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2 x0 x1 x2 x3 x4 x5 x6)) -∗ K ⟨⟩))
      ⊢ wp frame (wpE (defs₀ (F := F)) Variants.none c none) E (cc2__sage_mid_kernel i a0 h0 a1 h1 a2 h2 a3 h3 a4 h4 a5 h5 a6 h6 a7 h7) K := by
  simp only [cc2__sage_mid_kernel_eq_skeleton]; unfold cc2__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover2 _)

/-- The region's proof data on core c: arrays as found; after the body each input's buffer at its block and the
    output's at the layer's arithmetic on the input blocks; the invariant keeps the scoped rest and the generator
    register; nothing owed; the array two windows read is held half and half. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => out2 (blk2 V c 0 t) (blk2 V c 1 t) (blk2 V c 2 t) (blk2 V c 3 t) (blk2 V c 4 t) (blk2 V c 5 t) (blk2 V c 6 t)
  Φ _ := Pipeline.ΦA spec2 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) : (dat2 V c).after 5 t = blk2 V c 5 t := by dsimp only [dat2]
theorem dat2_after6 (c : Dev nD) (t : Fin cfg2.N) : (dat2 V c).after 6 t = blk2 V c 6 t := by dsimp only [dat2]
theorem dat2_after7 (c : Dev nD) (t : Fin cfg2.N) : (dat2 V c).after 7 t = out2 (blk2 V c 0 t) (blk2 V c 1 t) (blk2 V c 2 t) (blk2 V c 3 t) (blk2 V c 4 t) (blk2 V c 5 t) (blk2 V c 6 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_before4 (c : Dev nD) (t : Fin cfg2.N) (d) : (dat2 V c).before 4 t d = blk2 V c 4 t :=
  found2_4 V (dat2 V c) (dat2_A V c 4) (dat2_after4 V c) t d
theorem dat2_before5 (c : Dev nD) (t : Fin cfg2.N) (d) : (dat2 V c).before 5 t d = blk2 V c 5 t :=
  found2_5 V (dat2 V c) (dat2_A V c 5) (dat2_after5 V c) t d
theorem dat2_before6 (c : Dev nD) (t : Fin cfg2.N) (d) : (dat2 V c).before 6 t d = blk2 V c 6 t :=
  found2_6 V (dat2 V c) (dat2_A V c 6) (dat2_after6 V c) t d

/-- What the body is called with at point t, the windows one by one, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4, dat2_before5, dat2_before6]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5, dat2_after6, dat2_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body2 c Set.univ _ _ _ _ _ _ _ _ _ _ _ _ _ _ _ _ _ (blk2 V c 0 t) (blk2 V c 1 t) (blk2 V c 2 t) (blk2 V c 3 t) (blk2 V c 4 t) (blk2 V c 5 t) (blk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem oblig2 (c : Dev nD) : BodyObligation (dat2 (F := F) V c) (defs₀ (F := F)) Variants.none () Set.univ := fun t => by
  rw [bigSep_W2, bigSep_W2]
  exact point2 V c t

end Cert.Kernel.Fr

end
-- ==== Proof.Kernel.R3.lean ====
/-
  The fourth pallas_call (the last graph layer and the row normalisation) as one region of the program, at any
  contents V the TensorCore's buffers may hold when the region is entered. Its grid has 20 points; point t stages
  rows 5000·t … 5000·t+4999 of the neighbour sums (window 0), of the reciprocal degrees as a column (window 1) and
  of the node features (window 2), the two transposed weight matrices and the bias row whole (windows 3, 5 and 4,
  fetched once), and writes back the same rows of the result (window 6). The body loads its input blocks, loads
  the output buffer (a value it never uses) and stores, over the whole output block, s / max(‖s‖₂ per row, ε)
  with s = (agg·dinv)·Wl + b + h·Wr. After the body the inputs' buffers hold what they held and the output's holds
  that arithmetic on the input blocks.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether that point fetched it or not
    (a window fetched only at the first point keeps its block index, so its block is the same at every point). -/
theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem found3_3 {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem found3_4 {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem found3_5 {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The whole blocks as rectangles: what the body loads and stores through. -/
abbrev rN3 : Rect S5000x128 := Rect.unit (s := S5000x128) ![0, 0] S5000x128.size inb_S5000x128_S5000x128_0_0
abbrev rD3 : Rect S5000x1 := Rect.unit (s := S5000x1) ![0, 0] S5000x1.size inb_S5000x1_S5000x1_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

/-- The output buffer after the body: its one store, of the layer's arithmetic on the loaded input blocks. -/
def out3 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨rN3, k3_pay1 (View.ld x0 rN3) (View.ld x1 rD3) (View.ld x3 rW3) (View.ld x4 rB3) (View.ld x2 rN3) (View.ld x5 rW3)⟩]

/-- The one store covers the output block. -/
theorem cover3 (p0 : Vec F S5000x128 .f32) (y : S5000x128.Idx) :
    ∃ pc ∈ ([⟨rN3, p0⟩] : List (View.Piece (Elt F) S5000x128 .f32)), y ∈ pc.1.set :=
  View.cover_of_tiled [⟨rN3, p0⟩] S5000x128.size (by rfl) y

set_option maxHeartbeats 1000000 in
/-- The body on whole staging memrefs: the inputs' at given contents and the output's at anything run to the
    inputs' unchanged and the output's at `out3` of the inputs'. -/
theorem body3 (c : Dev nD) (E : Set ℕ) (i : grid3.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out3 x0 x1 x2 x3 x4 x5)) -∗ K ⟨⟩))
      ⊢ wp frame (wpE (defs₀ (F := F)) Variants.none c none) E (cc3__sage_final_kernel i a0 h0 a1 h1 a2 h2 a3 h3 a4 h4 a5 h5 a6 h6) K := by
  simp only [cc3__sage_final_kernel_eq_skeleton]; unfold cc3__sage_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover3 _)

/-- The region's proof data on core c: arrays as found; after the body each input's buffer at its block and the
    output's at the layer's arithmetic on the input blocks; the invariant keeps the scoped rest and the generator
    register; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => out3 (blk3 V c 0 t) (blk3 V c 1 t) (blk3 V c 2 t) (blk3 V c 3 t) (blk3 V c 4 t) (blk3 V c 5 t)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = out3 (blk3 V c 0 t) (blk3 V c 1 t) (blk3 V c 2 t) (blk3 V c 3 t) (blk3 V c 4 t) (blk3 V c 5 t) := by dsimp only [dat3]
theorem dat3_before0 (c : Dev nD) (t : Fin cfg3.N) (d) : (dat3 V c).before 0 t d = blk3 V c 0 t :=
  found3_0 V (dat3 V c) (dat3_A V c 0) (dat3_after0 V c) t d
theorem dat3_before1 (c : Dev nD) (t : Fin cfg3.N) (d) : (dat3 V c).before 1 t d = blk3 V c 1 t :=
  found3_1 V (dat3 V c) (dat3_A V c 1) (dat3_after1 V c) t d
theorem dat3_before2 (c : Dev nD) (t : Fin cfg3.N) (d) : (dat3 V c).before 2 t d = blk3 V c 2 t :=
  found3_2 V (dat3 V c) (dat3_A V c 2) (dat3_after2 V c) t d
theorem dat3_before3 (c : Dev nD) (t : Fin cfg3.N) (d) : (dat3 V c).before 3 t d = blk3 V c 3 t :=
  found3_3 V (dat3 V c) (dat3_A V c 3) (dat3_after3 V c) t d
theorem dat3_before4 (c : Dev nD) (t : Fin cfg3.N) (d) : (dat3 V c).before 4 t d = blk3 V c 4 t :=
  found3_4 V (dat3 V c) (dat3_A V c 4) (dat3_after4 V c) t d
theorem dat3_before5 (c : Dev nD) (t : Fin cfg3.N) (d) : (dat3 V c).before 5 t d = blk3 V c 5 t :=
  found3_5 V (dat3 V c) (dat3_A V c 5) (dat3_after5 V c) t d

/-- What the body is called with at point t, the windows one by one, and what it returns. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body3 c Set.univ _ _ _ _ _ _ _ _ _ _ _ _ _ _ _ (blk3 V c 0 t) (blk3 V c 1 t) (blk3 V c 2 t) (blk3 V c 3 t) (blk3 V c 4 t) (blk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem oblig3 (c : Dev nD) : BodyObligation (dat3 (F := F) V c) (defs₀ (F := F)) Variants.none () Set.univ := fun t => by
  rw [bigSep_W3, bigSep_W3]
  exact point3 V c t

end Cert.Kernel.Fr

end
-- ==== Proof.Kernel.Chain.lean ====
/-
  What the buffers that live across regions hold at each boundary of the program, core by core: the launch
  memory, then each host stretch applied, then each region's result array overwritten by what that region's
  write-backs leave (the fold of its twenty blocks), every other buffer untouched. The four regions' proof data
  are each stated at the contents their region is entered from.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.R0
import proofs.«157507_j81793357185798_2_alg».proof.Proof.Kernel.R1
import proofs.«157507_j81793357185798_2_alg».proof.Proof.Kernel.R2
import proofs.«157507_j81793357185798_2_alg».proof.Proof.Kernel.R3
import proofs.«157507_j81793357185798_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of the device's buffers read at the TensorCore's references. -/
abbrev atTc (X : Dev nD → Valuation τ sig (Elt F)) : (c : Dev nD) → (b : Ref sig .tc) → Buf (Elt F) ((c : Thread nD τ).loc b) :=
  fun c b => X c b

/-- What region 0 leaves in its result array. -/
def o4 (c : Dev nD) : Buf (Elt F) ((c : Thread nD τ).loc main_v23) := (dat0 (atTc (V3 m)) c).arrAt 2 cfg0.N
/-- After region 0. -/
def X4 (c : Dev nD) : Valuation τ sig (Elt F) := Function.update (V3 m c) main_v23 (o4 m c)
/-- After the host stretch between regions 0 and 1. -/
def X5 (c : Dev nD) : Valuation τ sig (Elt F) := StableHlo.after hostOps1 (X4 m c)
def o6 (c : Dev nD) : Buf (Elt F) ((c : Thread nD τ).loc main_v35) := (dat1 (atTc (X5 m)) c).arrAt 7 cfg1.N
def X6 (c : Dev nD) : Valuation τ sig (Elt F) := Function.update (X5 m c) main_v35 (o6 m c)
def X7 (c : Dev nD) : Valuation τ sig (Elt F) := StableHlo.after hostOps2 (X6 m c)
def o8 (c : Dev nD) : Buf (Elt F) ((c : Thread nD τ).loc main_v47) := (dat2 (atTc (X7 m)) c).arrAt 7 cfg2.N
def X8 (c : Dev nD) : Valuation τ sig (Elt F) := Function.update (X7 m c) main_v47 (o8 m c)
def X9 (c : Dev nD) : Valuation τ sig (Elt F) := StableHlo.after hostOps3 (X8 m c)
def o10 (c : Dev nD) : Buf (Elt F) ((c : Thread nD τ).loc main_v59) := (dat3 (atTc (X9 m)) c).arrAt 6 cfg3.N
def X10 (c : Dev nD) : Valuation τ sig (Elt F) := Function.update (X9 m c) main_v59 (o10 m c)

/-- The regions' results as the generated chain of valuations takes them. -/
def outs : Outs (F := F) := fun J r c =>
  if J = 4 then X4 m c r else if J = 6 then X6 m c r else if J = 8 then X8 m c r else X10 m c r

theorem X4_res (c : Dev nD) : X4 m c main_v23 = o4 m c := by unfold X4; exact Function.update_self ..
theorem X6_res (c : Dev nD) : X6 m c main_v35 = o6 m c := by unfold X6; exact Function.update_self ..
theorem X8_res (c : Dev nD) : X8 m c main_v47 = o8 m c := by unfold X8; exact Function.update_self ..
theorem X10_res (c : Dev nD) : X10 m c main_v59 = o10 m c := by unfold X10; exact Function.update_self ..
theorem X4_of (c : Dev nD) (r : Ref sig .tc) (h : r ≠ main_v23) : X4 m c r = V3 m c r := by
  unfold X4; exact Function.update_of_ne (StableHlo.devRef_ne_of_ne h) _ _
theorem X6_of (c : Dev nD) (r : Ref sig .tc) (h : r ≠ main_v35) : X6 m c r = X5 m c r := by
  unfold X6; exact Function.update_of_ne (StableHlo.devRef_ne_of_ne h) _ _
theorem X8_of (c : Dev nD) (r : Ref sig .tc) (h : r ≠ main_v47) : X8 m c r = X7 m c r := by
  unfold X8; exact Function.update_of_ne (StableHlo.devRef_ne_of_ne h) _ _
theorem X10_of (c : Dev nD) (r : Ref sig .tc) (h : r ≠ main_v59) : X10 m c r = X9 m c r := by
  unfold X10; exact Function.update_of_ne (StableHlo.devRef_ne_of_ne h) _ _

/-! The generated chain at these results is this chain. -/
theorem outs4 (r : Ref sig .tc) (c : Dev nD) : outs m 4 r c = X4 m c r := by unfold outs; rw [if_pos rfl]
theorem outs6 (r : Ref sig .tc) (c : Dev nD) : outs m 6 r c = X6 m c r := by
  unfold outs; rw [if_neg (by decide), if_pos rfl]
theorem outs8 (r : Ref sig .tc) (c : Dev nD) : outs m 8 r c = X8 m c r := by
  unfold outs; rw [if_neg (by decide), if_neg (by decide), if_pos rfl]
theorem outs10 (r : Ref sig .tc) (c : Dev nD) : outs m 10 r c = X10 m c r := by
  unfold outs; rw [if_neg (by decide), if_neg (by decide), if_neg (by decide)]
theorem V4_eq (c : Dev nD) : V4 m (outs m) c = X4 m c := by
  show Function.update (V3 m c) main_v23 (outs m 4 main_v23 c) = X4 m c
  rw [outs4, X4_res]; rfl
theorem V5_eq (c : Dev nD) : V5 m (outs m) c = X5 m c := by
  show StableHlo.after hostOps1 (V4 m (outs m) c) = _
  rw [V4_eq]; rfl
theorem V6_eq (c : Dev nD) : V6 m (outs m) c = X6 m c := by
  show Function.update (V5 m (outs m) c) main_v35 (outs m 6 main_v35 c) = X6 m c
  rw [outs6, V5_eq, X6_res]; rfl
theorem V7_eq (c : Dev nD) : V7 m (outs m) c = X7 m c := by
  show StableHlo.after hostOps2 (V6 m (outs m) c) = _
  rw [V6_eq]; rfl
theorem V8_eq (c : Dev nD) : V8 m (outs m) c = X8 m c := by
  show Function.update (V7 m (outs m) c) main_v47 (outs m 8 main_v47 c) = X8 m c
  rw [outs8, V7_eq, X8_res]; rfl
theorem V9_eq (c : Dev nD) : V9 m (outs m) c = X9 m c := by
  show StableHlo.after hostOps3 (V8 m (outs m) c) = _
  rw [V8_eq]; rfl
theorem V10_eq (c : Dev nD) : V10 m (outs m) c = X10 m c := by
  show Function.update (V9 m (outs m) c) main_v59 (outs m 10 main_v59 c) = X10 m c
  rw [outs10, V9_eq, X10_res]; rfl

/-- Every region's proof data, each at the contents its region is entered from. -/
def pd : (p : Fin 4) → (c : Dev nD) → Dat τ (Elt F) Unit ℕ (UR sig nD τ) ℕ (cfgs p) c
  | ⟨0, _⟩ => fun c => dat0 (atTc (V3 m)) c
  | ⟨1, _⟩ => fun c => dat1 (atTc (X5 m)) c
  | ⟨2, _⟩ => fun c => dat2 (atTc (X7 m)) c
  | ⟨3, _⟩ => fun c => dat3 (atTc (X9 m)) c

/-- No core owes another anything: no level is assigned. -/
abbrev Lz : GSem nD τ sig → Finset Unit := fun _ => ∅
abbrev lvz : GSem nD τ sig → Unit → ℕ := fun _ _ => 0
/-- What rides beside the buffers through every segment: the core's generator register at some state and its
    debts, which are none. -/
abbrev Rr (c : Dev nD) : sProp 𝕄 := iprop((∃ r, prngReg c r) ∗ ∃ W, owes (c : Thread nD τ) (0 : CellTallies nD τ sig Unit) W)

end Cert.Kernel.Fr

end
-- ==== Proof.Kernel.Seg0.lean ====
/-
  The first region placed in the program's run: what its arrays hold at its exit, and the region's record over
  the thread state "every buffer that lives across regions at the boundary's contents".
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn0 (c : Dev nD) (w : Fin cfg0.W) (hin : (cfg0.win w).isOut = false) (hne : Pipeline.arrRef spec0 w ≠ main_v23) :
    (pd m 0 c).arrAt w cfg0.N = atTc (X4 m) c (Pipeline.arrRef spec0 w) :=
  ((pd m 0 c).arrAt_in w hin _).trans ((dat0_A (atTc (V3 m)) c w).trans (X4_of m c _ hne).symm)
theorem exitArr0_0 (c : Dev nD) : (pd m 0 c).arrAt 0 cfg0.N = atTc (X4 m) c (Pipeline.arrRef spec0 0) :=
  exitIn0 m c 0 rfl (by decide)
theorem exitArr0_1 (c : Dev nD) : (pd m 0 c).arrAt 1 cfg0.N = atTc (X4 m) c (Pipeline.arrRef spec0 1) :=
  exitIn0 m c 1 rfl (by decide)
/-- The result array holds the fold of its blocks. -/
theorem exitArr0_2 (c : Dev nD) : (pd m 0 c).arrAt 2 cfg0.N = atTc (X4 m) c (Pipeline.arrRef spec0 2) :=
  (show (pd m 0 c).arrAt 2 cfg0.N = o4 m c from rfl).trans (X4_res m c).symm
/-- At the region's exit each of its arrays holds what the write-backs leave. -/
theorem exitArr0 (c : Dev nD) : ∀ w : Fin cfg0.W, (pd m 0 c).arrAt w cfg0.N = atTc (X4 m) c (Pipeline.arrRef spec0 w)
  | ⟨0, _⟩ => exitArr0_0 m c
  | ⟨1, _⟩ => exitArr0_1 m c
  | ⟨2, _⟩ => exitArr0_2 m c
/-- Every other buffer holds what it held at entry. -/
theorem exitRest0 (c : Dev nD) : ∀ b, b ∉ Finset.univ.image (Pipeline.arrRef spec0) → atTc (X4 m) c b = atTc (V3 m) c b :=
  fun b hb => X4_of m c b fun e => hb (by rw [e]; exact Finset.mem_image.mpr ⟨2, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg0 : Pipeline.RegionSeg (pcfgs (F := F)) adm (pd m) () defs₀ Variants.none Lz lvz 0 where
  win := launch0.win.to₀
  block_pos := launch0.block_pos
  stage_whole := launch0.stage_whole
  K := PEmpty
  osem k := k.elim
  ho := Pipeline.OwnSemFacts.none _
  hbody c := (oblig0 (atTc (V3 m)) c).loose
  hwaits := Pipeline.hwaits_of_owed_zero _ _ _ _ Lz lvz 0 fun _ _ => rfl
  pre c := iprop(StableHlo.held (c : Thread nD τ) (Pipeline.ucRefs τ sig) (V3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pd m) launch0.win launch0.arr_whole c
      ((pd m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (atTc (V3 m) c) (atTc (X4 m) c) ((pd m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.Kernel.Seg1.lean ====
/-
  The second region placed in the program's run: what its arrays hold at its exit, and the region's record over
  the thread state "every buffer that lives across regions at the boundary's contents".
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn1 (c : Dev nD) (w : Fin cfg1.W) (hin : (cfg1.win w).isOut = false) (hne : Pipeline.arrRef spec1 w ≠ main_v35) :
    (pd m 1 c).arrAt w cfg1.N = atTc (X6 m) c (Pipeline.arrRef spec1 w) :=
  ((pd m 1 c).arrAt_in w hin _).trans ((dat1_A (atTc (X5 m)) c w).trans (X6_of m c _ hne).symm)
theorem exitArr1_0 (c : Dev nD) : (pd m 1 c).arrAt 0 cfg1.N = atTc (X6 m) c (Pipeline.arrRef spec1 0) :=
  exitIn1 m c 0 rfl (by decide)
theorem exitArr1_1 (c : Dev nD) : (pd m 1 c).arrAt 1 cfg1.N = atTc (X6 m) c (Pipeline.arrRef spec1 1) :=
  exitIn1 m c 1 rfl (by decide)
theorem exitArr1_2 (c : Dev nD) : (pd m 1 c).arrAt 2 cfg1.N = atTc (X6 m) c (Pipeline.arrRef spec1 2) :=
  exitIn1 m c 2 rfl (by decide)
theorem exitArr1_3 (c : Dev nD) : (pd m 1 c).arrAt 3 cfg1.N = atTc (X6 m) c (Pipeline.arrRef spec1 3) :=
  exitIn1 m c 3 rfl (by decide)
theorem exitArr1_4 (c : Dev nD) : (pd m 1 c).arrAt 4 cfg1.N = atTc (X6 m) c (Pipeline.arrRef spec1 4) :=
  exitIn1 m c 4 rfl (by decide)
theorem exitArr1_5 (c : Dev nD) : (pd m 1 c).arrAt 5 cfg1.N = atTc (X6 m) c (Pipeline.arrRef spec1 5) :=
  exitIn1 m c 5 rfl (by decide)
theorem exitArr1_6 (c : Dev nD) : (pd m 1 c).arrAt 6 cfg1.N = atTc (X6 m) c (Pipeline.arrRef spec1 6) :=
  exitIn1 m c 6 rfl (by decide)
/-- The result array holds the fold of its blocks. -/
theorem exitArr1_7 (c : Dev nD) : (pd m 1 c).arrAt 7 cfg1.N = atTc (X6 m) c (Pipeline.arrRef spec1 7) :=
  (show (pd m 1 c).arrAt 7 cfg1.N = o6 m c from rfl).trans (X6_res m c).symm
/-- At the region's exit each of its arrays holds what the write-backs leave. -/
theorem exitArr1 (c : Dev nD) : ∀ w : Fin cfg1.W, (pd m 1 c).arrAt w cfg1.N = atTc (X6 m) c (Pipeline.arrRef spec1 w)
  | ⟨0, _⟩ => exitArr1_0 m c
  | ⟨1, _⟩ => exitArr1_1 m c
  | ⟨2, _⟩ => exitArr1_2 m c
  | ⟨3, _⟩ => exitArr1_3 m c
  | ⟨4, _⟩ => exitArr1_4 m c
  | ⟨5, _⟩ => exitArr1_5 m c
  | ⟨6, _⟩ => exitArr1_6 m c
  | ⟨7, _⟩ => exitArr1_7 m c
/-- Every other buffer holds what it held at entry. -/
theorem exitRest1 (c : Dev nD) : ∀ b, b ∉ Finset.univ.image (Pipeline.arrRef spec1) → atTc (X6 m) c b = atTc (X5 m) c b :=
  fun b hb => X6_of m c b fun e => hb (by rw [e]; exact Finset.mem_image.mpr ⟨7, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg1 : Pipeline.RegionSeg (pcfgs (F := F)) adm (pd m) () defs₀ Variants.none Lz lvz 1 where
  win := launch1.win.to₀
  block_pos := launch1.block_pos
  stage_whole := launch1.stage_whole
  K := PEmpty
  osem k := k.elim
  ho := Pipeline.OwnSemFacts.none _
  hbody c := (oblig1 (atTc (X5 m)) c).loose
  hwaits := Pipeline.hwaits_of_owed_zero _ _ _ _ Lz lvz 1 fun _ _ => rfl
  pre c := iprop(StableHlo.held (c : Thread nD τ) (Pipeline.ucRefs τ sig) (X5 m c) ∗ Rr c)
  post c := iprop(StableHlo.held (c : Thread nD τ) (Pipeline.ucRefs τ sig) (X6 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X5 m) c)
  hentry c := by
    rw [Pipeline.ownSems0_none]
    have hsplit := Pipeline.arrays_of_unscopedBufs (p := 1) (pcfgs (F := F)) adm (pd m) launch1.win launch1.arr_whole c
      ((pd m 1 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (atTc (X5 m) c) (atTc (X6 m) c) ((pd m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.Kernel.Share2.lean ====
/-
  The third region hands ONE array (the layer's input, which is also its residual) to two input windows. The
  region's arrays are then not the distinct buffers behind them each held whole: the shared buffer is held half
  by the one window and half by the other. This module deals the distinct buffers, each whole, into the
  windows' arrays at entry, and collects them back at exit: the two halves of the shared buffer agree on its
  contents and make the whole again.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- A buffer held whole is held half and half. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The seven distinct buffers behind the region's eight windows. -/
abbrev arrL2 : List (Ref sig .tc) := [main_v45, main_v15, main_v35, main_v19, main_v46, main_v20, main_v47]

/-- The distinct buffers, each whole at V, one by one. -/
theorem arrBufs2_eq (c : Dev nD) (V : (b : Ref sig .tc) → Buf (Elt F) ((c.tc : Thread nD τ).loc b)) :
    (Pipeline.arrBufs (Ix := Unit) (Name := ℕ) (U := UR sig nD τ) (Lvl := ℕ) spec2 c V : sProp 𝕄) = iprop(
      (((c.tc : Thread nD τ).loc main_v45) ↦{fullShare} V main_v45) ∗ (((c.tc : Thread nD τ).loc main_v15) ↦{fullShare} V main_v15)
      ∗ (((c.tc : Thread nD τ).loc main_v35) ↦{fullShare} V main_v35) ∗ (((c.tc : Thread nD τ).loc main_v19) ↦{fullShare} V main_v19)
      ∗ (((c.tc : Thread nD τ).loc main_v46) ↦{fullShare} V main_v46) ∗ (((c.tc : Thread nD τ).loc main_v20) ↦{fullShare} V main_v20)
      ∗ (((c.tc : Thread nD τ).loc main_v47) ↦{fullShare} V main_v47)) := by
  unfold Pipeline.arrBufs
  rw [bigSep_eq_bigSepL_of_eq arrL2 (by decide) (by decide)]
  rfl

/-- The windows' arrays, each a whole buffer at its window's share. -/
theorem arrays2_eq (c : Dev nD) (Fn : (w : Fin cfg2.W) → Buf (Elt F) ((cfg2.win w).arr.view.loc (c.tc : Thread nD τ))) :
    ((dat2 V₀ c).arrays Fn : sProp 𝕄)
      = bigSep Finset.univ fun w : Fin cfg2.W => ((((c.tc : Thread nD τ).loc (Pipeline.arrRef spec2 w)) ↦{(dat2 V₀ c).share w} Fn w) : sProp 𝕄) := by
  unfold Dat.arrays
  exact bigSep_congr fun w _ => by rw [(arr_whole2 w).set_eq_univ]

/-- Dealing at entry and collecting at exit: the distinct buffers whole at V are the windows' arrays at V. -/
theorem deal2 (c : Dev nD) (V : (b : Ref sig .tc) → Buf (Elt F) ((c.tc : Thread nD τ).loc b))
    (Fn : (w : Fin cfg2.W) → Buf (Elt F) ((cfg2.win w).arr.view.loc (c.tc : Thread nD τ))) (hF : ∀ w, Fn w = V (Pipeline.arrRef spec2 w)) :
    (Pipeline.arrBufs (Ix := Unit) (Name := ℕ) (U := UR sig nD τ) (Lvl := ℕ) spec2 c V : sProp 𝕄) ⊣⊢ (dat2 V₀ c).arrays Fn := by
  obtain rfl : Fn = fun w => V (Pipeline.arrRef spec2 w) := funext hF
  rw [arrBufs2_eq, arrays2_eq, bigSep_W2]
  constructor
  · iintro ⟨H0, H1, H2, H3, H4, H5, H7⟩
    ihave H2' := (halves (V main_v35)).1 $$ H2
    icases H2' with ⟨H2l, H2r⟩
    isplitl [H0]; · iexact H0
    isplitl [H1]; · iexact H1
    isplitl [H2l]; · iexact H2l
    isplitl [H3]; · iexact H3
    isplitl [H4]; · iexact H4
    isplitl [H5]; · iexact H5
    isplitl [H2r]; · iexact H2r
    iexact H7
  · iintro ⟨H0, H1, H2l, H3, H4, H5, H2r, H7⟩
    isplitl [H0]; · iexact H0
    isplitl [H1]; · iexact H1
    isplitl [H2l H2r]
    · iapply (halves (V main_v35)).2
      isplitl [H2l]; · iexact H2l
      iexact H2r
    isplitl [H3]; · iexact H3
    isplitl [H4]; · iexact H4
    isplitl [H5]; · iexact H5
    iexact H7

end Cert.Kernel.Fr

end
-- ==== Proof.Kernel.Seg2.lean ====
/-
  The third region placed in the program's run: what its arrays hold at its exit, and the region's record over
  the thread state "every buffer that lives across regions at the boundary's contents". Two of its windows read
  one array, so its arrays are dealt from, and collected back into, the distinct buffers behind them in the module on the shared array.
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.Chain
import proofs.«157507_j81793357185798_2_alg».proof.Proof.Kernel.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn2 (c : Dev nD) (w : Fin cfg2.W) (hin : (cfg2.win w).isOut = false) (hne : Pipeline.arrRef spec2 w ≠ main_v47) :
    (pd m 2 c).arrAt w cfg2.N = atTc (X8 m) c (Pipeline.arrRef spec2 w) :=
  ((pd m 2 c).arrAt_in w hin _).trans ((dat2_A (atTc (X7 m)) c w).trans (X8_of m c _ hne).symm)
theorem exitArr2_0 (c : Dev nD) : (pd m 2 c).arrAt 0 cfg2.N = atTc (X8 m) c (Pipeline.arrRef spec2 0) :=
  exitIn2 m c 0 rfl (by decide)
theorem exitArr2_1 (c : Dev nD) : (pd m 2 c).arrAt 1 cfg2.N = atTc (X8 m) c (Pipeline.arrRef spec2 1) :=
  exitIn2 m c 1 rfl (by decide)
theorem exitArr2_2 (c : Dev nD) : (pd m 2 c).arrAt 2 cfg2.N = atTc (X8 m) c (Pipeline.arrRef spec2 2) :=
  exitIn2 m c 2 rfl (by decide)
theorem exitArr2_3 (c : Dev nD) : (pd m 2 c).arrAt 3 cfg2.N = atTc (X8 m) c (Pipeline.arrRef spec2 3) :=
  exitIn2 m c 3 rfl (by decide)
theorem exitArr2_4 (c : Dev nD) : (pd m 2 c).arrAt 4 cfg2.N = atTc (X8 m) c (Pipeline.arrRef spec2 4) :=
  exitIn2 m c 4 rfl (by decide)
theorem exitArr2_5 (c : Dev nD) : (pd m 2 c).arrAt 5 cfg2.N = atTc (X8 m) c (Pipeline.arrRef spec2 5) :=
  exitIn2 m c 5 rfl (by decide)
theorem exitArr2_6 (c : Dev nD) : (pd m 2 c).arrAt 6 cfg2.N = atTc (X8 m) c (Pipeline.arrRef spec2 6) :=
  exitIn2 m c 6 rfl (by decide)
/-- The result array holds the fold of its blocks. -/
theorem exitArr2_7 (c : Dev nD) : (pd m 2 c).arrAt 7 cfg2.N = atTc (X8 m) c (Pipeline.arrRef spec2 7) :=
  (show (pd m 2 c).arrAt 7 cfg2.N = o8 m c from rfl).trans (X8_res m c).symm
/-- At the region's exit each of its arrays holds what the write-backs leave. -/
theorem exitArr2 (c : Dev nD) : ∀ w : Fin cfg2.W, (pd m 2 c).arrAt w cfg2.N = atTc (X8 m) c (Pipeline.arrRef spec2 w)
  | ⟨0, _⟩ => exitArr2_0 m c
  | ⟨1, _⟩ => exitArr2_1 m c
  | ⟨2, _⟩ => exitArr2_2 m c
  | ⟨3, _⟩ => exitArr2_3 m c
  | ⟨4, _⟩ => exitArr2_4 m c
  | ⟨5, _⟩ => exitArr2_5 m c
  | ⟨6, _⟩ => exitArr2_6 m c
  | ⟨7, _⟩ => exitArr2_7 m c
/-- Every other buffer holds what it held at entry. -/
theorem exitRest2 (c : Dev nD) : ∀ b, b ∉ Finset.univ.image (Pipeline.arrRef spec2) → atTc (X8 m) c b = atTc (X7 m) c b :=
  fun b hb => X8_of m c b fun e => hb (by rw [e]; exact Finset.mem_image.mpr ⟨7, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg2 : Pipeline.RegionSeg (pcfgs (F := F)) adm (pd m) () defs₀ Variants.none Lz lvz 2 where
  win := winFacts₀2
  block_pos := block_pos2
  stage_whole := stage_whole2
  K := PEmpty
  osem k := k.elim
  ho := Pipeline.OwnSemFacts.none _
  hbody c := (oblig2 (atTc (X7 m)) c).loose
  hwaits := Pipeline.hwaits_of_owed_zero _ _ _ _ Lz lvz 2 fun _ _ => rfl
  pre c := iprop(StableHlo.held (c : Thread nD τ) (Pipeline.ucRefs τ sig) (X7 m c) ∗ Rr c)
  post c := iprop(StableHlo.held (c : Thread nD τ) (Pipeline.ucRefs τ sig) (X8 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X7 m) c)
  hentry c := by
    rw [Pipeline.ownSems0_none]
    have hsplit : (unscopedBufs c (atTc (X7 m) c) : sProp 𝕄)
        ⊢ iprop((pd m 2 c).arrays ((pd m 2 c).arrAt · 0) ∗ Pipeline.unscopedRest (Ix := Unit) (Name := ℕ) (U := UR sig nD τ) (Lvl := ℕ) spec2 c (atTc (X7 m) c)) := by
      rw [Pipeline.unscopedBufs_split₀ cfgs 2 winFacts₀2.arr_unscoped c (atTc (X7 m) c)]
      exact sep_mono (deal2 (atTc (X7 m)) c (atTc (X7 m) c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pd m 2 c).arrays ((pd m 2 c).arrAt · cfg2.N) ∗ Pipeline.unscopedRest (Ix := Unit) (Name := ℕ) (U := UR sig nD τ) (Lvl := ℕ) spec2 c (atTc (X7 m) c))
        ⊢ (unscopedBufs c (atTc (X8 m) c) : sProp 𝕄) := by
      rw [Pipeline.unscopedBufs_split₀ cfgs 2 winFacts₀2.arr_unscoped c (atTc (X8 m) c)]
      refine sep_mono (deal2 (atTc (X7 m)) c (atTc (X8 m) c) _ (exitArr2 m c)).2 (Entails.of_eq ?_)
      unfold Pipeline.unscopedRest
      exact bigSep_congr fun b hb => by rw [exitRest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.Kernel.Seg3.lean ====
/-
  The fourth region placed in the program's run: what its arrays hold at its exit, and the region's record over
  the thread state "every buffer that lives across regions at the boundary's contents".
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn3 (c : Dev nD) (w : Fin cfg3.W) (hin : (cfg3.win w).isOut = false) (hne : Pipeline.arrRef spec3 w ≠ main_v59) :
    (pd m 3 c).arrAt w cfg3.N = atTc (X10 m) c (Pipeline.arrRef spec3 w) :=
  ((pd m 3 c).arrAt_in w hin _).trans ((dat3_A (atTc (X9 m)) c w).trans (X10_of m c _ hne).symm)
theorem exitArr3_0 (c : Dev nD) : (pd m 3 c).arrAt 0 cfg3.N = atTc (X10 m) c (Pipeline.arrRef spec3 0) :=
  exitIn3 m c 0 rfl (by decide)
theorem exitArr3_1 (c : Dev nD) : (pd m 3 c).arrAt 1 cfg3.N = atTc (X10 m) c (Pipeline.arrRef spec3 1) :=
  exitIn3 m c 1 rfl (by decide)
theorem exitArr3_2 (c : Dev nD) : (pd m 3 c).arrAt 2 cfg3.N = atTc (X10 m) c (Pipeline.arrRef spec3 2) :=
  exitIn3 m c 2 rfl (by decide)
theorem exitArr3_3 (c : Dev nD) : (pd m 3 c).arrAt 3 cfg3.N = atTc (X10 m) c (Pipeline.arrRef spec3 3) :=
  exitIn3 m c 3 rfl (by decide)
theorem exitArr3_4 (c : Dev nD) : (pd m 3 c).arrAt 4 cfg3.N = atTc (X10 m) c (Pipeline.arrRef spec3 4) :=
  exitIn3 m c 4 rfl (by decide)
theorem exitArr3_5 (c : Dev nD) : (pd m 3 c).arrAt 5 cfg3.N = atTc (X10 m) c (Pipeline.arrRef spec3 5) :=
  exitIn3 m c 5 rfl (by decide)
/-- The result array holds the fold of its blocks. -/
theorem exitArr3_6 (c : Dev nD) : (pd m 3 c).arrAt 6 cfg3.N = atTc (X10 m) c (Pipeline.arrRef spec3 6) :=
  (show (pd m 3 c).arrAt 6 cfg3.N = o10 m c from rfl).trans (X10_res m c).symm
/-- At the region's exit each of its arrays holds what the write-backs leave. -/
theorem exitArr3 (c : Dev nD) : ∀ w : Fin cfg3.W, (pd m 3 c).arrAt w cfg3.N = atTc (X10 m) c (Pipeline.arrRef spec3 w)
  | ⟨0, _⟩ => exitArr3_0 m c
  | ⟨1, _⟩ => exitArr3_1 m c
  | ⟨2, _⟩ => exitArr3_2 m c
  | ⟨3, _⟩ => exitArr3_3 m c
  | ⟨4, _⟩ => exitArr3_4 m c
  | ⟨5, _⟩ => exitArr3_5 m c
  | ⟨6, _⟩ => exitArr3_6 m c
/-- Every other buffer holds what it held at entry. -/
theorem exitRest3 (c : Dev nD) : ∀ b, b ∉ Finset.univ.image (Pipeline.arrRef spec3) → atTc (X10 m) c b = atTc (X9 m) c b :=
  fun b hb => X10_of m c b fun e => hb (by rw [e]; exact Finset.mem_image.mpr ⟨6, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg3 : Pipeline.RegionSeg (pcfgs (F := F)) adm (pd m) () defs₀ Variants.none Lz lvz 3 where
  win := launch3.win.to₀
  block_pos := launch3.block_pos
  stage_whole := launch3.stage_whole
  K := PEmpty
  osem k := k.elim
  ho := Pipeline.OwnSemFacts.none _
  hbody c := (oblig3 (atTc (X9 m)) c).loose
  hwaits := Pipeline.hwaits_of_owed_zero _ _ _ _ Lz lvz 3 fun _ _ => rfl
  pre c := iprop(StableHlo.held (c : Thread nD τ) (Pipeline.ucRefs τ sig) (X9 m c) ∗ Rr c)
  post c := iprop(StableHlo.held (c : Thread nD τ) (Pipeline.ucRefs τ sig) (X10 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X9 m) c)
  hentry c := by
    rw [Pipeline.ownSems0_none]
    have hsplit := Pipeline.arrays_of_unscopedBufs (p := 3) (pcfgs (F := F)) adm (pd m) launch3.win launch3.arr_whole c
      ((pd m 3 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (atTc (X9 m) c) (atTc (X10 m) c) ((pd m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.Kernel.RunAll.lean ====
/-
  The program's run, given each region's record: every weakly fair execution of the whole program terminates
  without a fault, and in the final memory every buffer that lives across regions holds what the chain of host
  stretches and regions leaves in it. The host stretches are discharged by the generated segment list; a region
  contributes its record, entered from the buffers' contents before it and left at the contents after it. Both
  the frame claim (the arguments end as launched) and the value claim (what the result buffer holds) are read
  off this one run.
-/
import proofs.«157507_j81793357185798_2_alg».proof.Proof.Gen.Kernel.Regions

set_option maxRecDepth 1036

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- A TensorCore reference that is not scoped to a region is among the buffers the thread state tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: from any memory m with zero counters, given the four regions' records chained through the
    buffers' contents V3 … V10, every weakly fair execution terminates and the final memory holds V10 at every
    buffer that lives across regions. -/
theorem run_all {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => ∀ b ∈ Pipeline.ucRefs τ sig, s.mem (((c : Thread nD τ)).1, b) = V10 m outs c b)
    (hfin := fun c s' => ?_) (hQ := fun _ h => h)
  · -- the launch: the buffers that live across regions are held at the launch contents; the rest makes E 0 on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every tracked buffer read against the final state
    unfold StableHlo.held
    iintro ⟨Hh, HSI⟩
    imodintro
    iapply (pointsTo_read_all (Pipeline.ucRefs τ sig) (fun b => (((c : Thread nD τ)).1, b)) (V10 m outs c) s')
    isplitl [Hh] <;> iassumption

end Cert.Kernel.Fr

end
-- ==== Proof.Kernel.Frame.lean ====
/-
  The program's run assembled from its four regions, and its frame: from any memory, every weakly fair execution
  terminates without a fault, every buffer that lives across regions ends at the chain's last contents, and in
  particular each of the twelve argument arrays ends as launched (no host stretch writes an argument, and no
  region's result array is an argument).
-/
import proofs.«157507_j81793357185798_2_alg».proof.Proof.Gen.Kernel.Launch
import proofs.«157507_j81793357185798_2_alg».proof.Proof.Gen.Kernel.Skeleton
import proofs.«157507_j81793357185798_2_alg».proof.Proof.Gen.Kernel.Points
import proofs.«157507_j81793357185798_2_alg».proof.Proof.Kernel.Seg0
import proofs.«157507_j81793357185798_2_alg».proof.Proof.Kernel.Seg1
import proofs.«157507_j81793357185798_2_alg».proof.Proof.Kernel.Seg2
import proofs.«157507_j81793357185798_2_alg».proof.Proof.Kernel.Seg3
import proofs.«157507_j81793357185798_2_alg».proof.Proof.Kernel.RunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that lives across regions ends at the last contents of the chain. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X10 m c b) := by
  have h := run_all (F := F) m (emb₁ (A := UR sig nD τ)) () Variants.none Lz lvz (fun _ _ => rfl) ρ (outs m) (pd m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
  exact (θ_run defs _ _).mono (fun r hr c b hb => (hr c b hb).trans (congrFun (V10_eq m c) b)) h

/-- An argument array is untouched by the whole chain. -/
theorem X10_arg (c : Dev nD) (a : Ref sig .tc) (h : V10 m (outs m) c a = m ((c : Thread nD τ).loc a)) :
    X10 m c a = m ((c : Thread nD τ).loc a) := (congrFun (V10_eq m c) a).symm.trans h

/-- The frame: the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (X10_arg m c main_arg0 (V10_main_arg0 m (outs m) c)),
    (h c _ (mem_uc main_arg1 (by decide))).trans (X10_arg m c main_arg1 (V10_main_arg1 m (outs m) c)),
    (h c _ (mem_uc main_arg2 (by decide))).trans (X10_arg m c main_arg2 (V10_main_arg2 m (outs m) c)),
    (h c _ (mem_uc main_arg3 (by decide))).trans (X10_arg m c main_arg3 (V10_main_arg3 m (outs m) c)),
    (h c _ (mem_uc main_arg4 (by decide))).trans (X10_arg m c main_arg4 (V10_main_arg4 m (outs m) c)),
    (h c _ (mem_uc main_arg5 (by decide))).trans (X10_arg m c main_arg5 (V10_main_arg5 m (outs m) c)),
    (h c _ (mem_uc main_arg6 (by decide))).trans (X10_arg m c main_arg6 (V10_main_arg6 m (outs m) c)),
    (h c _ (mem_uc main_arg7 (by decide))).trans (X10_arg m c main_arg7 (V10_main_arg7 m (outs m) c)),
    (h c _ (mem_uc main_arg8 (by decide))).trans (X10_arg m c main_arg8 (V10_main_arg8 m (outs m) c)),
    (h c _ (mem_uc main_arg9 (by decide))).trans (X10_arg m c main_arg9 (V10_main_arg9 m (outs m) c)),
    (h c _ (mem_uc main_arg10 (by decide))).trans (X10_arg m c main_arg10 (V10_main_arg10 m (outs m) c)),
    (h c _ (mem_uc main_arg11 (by decide))).trans (X10_arg m c main_arg11 (V10_main_arg11 m (outs m) c))⟩)
    (run_main m ρ)

/-- The run with the result named: the result array ends at the chain's last contents of it, and the twelve
    argument arrays end as launched. -/
theorem run_named : θ_run defs (onTc (τ := τ) (main (F := F))) ⟨m, fun _ => 0, ρ⟩ (fun r => ∀ c : Dev nD,
      r.2.mem ((c.tc : Thread nD τ).loc main_v59) = X10 m c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v59 (by decide)),
    (h c _ (mem_uc main_arg0 (by decide))).trans (X10_arg m c main_arg0 (V10_main_arg0 m (outs m) c)),
    (h c _ (mem_uc main_arg1 (by decide))).trans (X10_arg m c main_arg1 (V10_main_arg1 m (outs m) c)),
    (h c _ (mem_uc main_arg2 (by decide))).trans (X10_arg m c main_arg2 (V10_main_arg2 m (outs m) c)),
    (h c _ (mem_uc main_arg3 (by decide))).trans (X10_arg m c main_arg3 (V10_main_arg3 m (outs m) c)),
    (h c _ (mem_uc main_arg4 (by decide))).trans (X10_arg m c main_arg4 (V10_main_arg4 m (outs m) c)),
    (h c _ (mem_uc main_arg5 (by decide))).trans (X10_arg m c main_arg5 (V10_main_arg5 m (outs m) c)),
    (h c _ (mem_uc main_arg6 (by decide))).trans (X10_arg m c main_arg6 (V10_main_arg6 m (outs m) c)),
    (h c _ (mem_uc main_arg7 (by decide))).trans (X10_arg m c main_arg7 (V10_main_arg7 m (outs m) c)),
    (h c _ (mem_uc main_arg8 (by decide))).trans (X10_arg m c main_arg8 (V10_main_arg8 m (outs m) c)),
    (h c _ (mem_uc main_arg9 (by decide))).trans (X10_arg m c main_arg9 (V10_main_arg9 m (outs m) c)),
    (h c _ (mem_uc main_arg10 (by decide))).trans (X10_arg m c main_arg10 (V10_main_arg10 m (outs m) c)),
    (h c _ (mem_uc main_arg11 (by decide))).trans (X10_arg m c main_arg11 (V10_main_arg11 m (outs m) c))⟩)
    (run_main m ρ)

end Cert.Kernel.Fr

end
-- ==== Proof.KernelIdeal.R0.lean ====
/-
  The first pallas_call (the projection x · Wᵀ) as one region of the program, at any contents V the
  TensorCore's buffers may hold when the region is entered. Its grid has 20 points; point t stages rows
  5000·t … 5000·t+4999 of the feature array (window 0), the whole transposed weight matrix (window 1, fetched
  once), and writes back the same rows of the result (window 2). The body loads its two input blocks, loads
  the output buffer (a value it never uses) and stores the product over the whole output block. So after the
  body the inputs' buffers hold what they held and the output's holds the product of the two input blocks.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether that point fetched it or not
    (a window fetched only once keeps its block index, so the block is the same). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole 5000×128 block and the whole 128×128 matrix as rectangles: what the body loads and stores through. -/
abbrev rN0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output buffer after the body: its one store, of the product of the two loaded blocks. -/
def out0 (x0 : Vec F S5000x128 .f32) (x1 : Vec F S128x128 .f32) : Vec F S5000x128 .f32 :=
  View.canon [⟨rN0, k0_pay1 (View.ld x0 rN0) (View.ld x1 rW0)⟩]

/-- The one store covers the output block. -/
theorem cover0 (p0 : Vec F S5000x128 .f32) (y : S5000x128.Idx) :
    ∃ pc ∈ ([⟨rN0, p0⟩] : List (View.Piece (Elt F) S5000x128 .f32)), y ∈ pc.1.set :=
  View.cover_of_tiled [⟨rN0, p0⟩] S5000x128.size (by rfl) y

set_option maxHeartbeats 1000000 in
/-- The body on whole staging memrefs: the inputs' at contents x0, x1 and the output's at anything run to the
    inputs' unchanged and the output's at `out0 x0 x1`. -/
theorem body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x0 : Vec F S5000x128 .f32) (x1 : Vec F S128x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out0 x0 x1)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The region's proof data on core c: arrays as found; after the body each input's buffer at its block and the
    output's at the product of the input blocks; the invariant keeps the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = out0 (blk0 V c 0 t) (blk0 V c 1 t) := by dsimp only [dat0]
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- What the body is called with at point t, the windows one by one, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem oblig0 (c : Dev nD) : BodyObligation (dat0 (F := F) V c) (defs₀ (F := F)) Variants.none () Set.univ := fun t => by
  rw [bigSep_W0, bigSep_W0]
  exact point0 V c t

end Cert.KernelIdeal.Fr

end
-- ==== Proof.KernelIdeal.R1.lean ====
/-
  The second pallas_call (a middle graph layer) as one region of the program, at any contents V the TensorCore's
  buffers may hold when the region is entered. Its grid has 20 points; point t stages rows 5000·t … 5000·t+4999 of
  the neighbour sums (window 0), of the reciprocal degrees as a column (window 1), of the node features (window 2)
  and of the residual (window 6), the two transposed weight matrices and the bias row whole (windows 3, 5 and 4,
  fetched once), and writes back the same rows of the result (window 7). The body loads its input blocks,
  loads the output buffer (a value it never uses) and stores, over the whole output block,
  max((agg·dinv)·Wl + b + h·Wr, 0) + residual. After the body the inputs' buffers hold what they held and the
  output's holds that arithmetic on the input blocks.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether that point fetched it or not
    (a window fetched only at the first point keeps its block index, so its block is the same at every point). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- The whole blocks as rectangles: what the body loads and stores through. -/
abbrev rN1 : Rect S5000x128 := Rect.unit (s := S5000x128) ![0, 0] S5000x128.size inb_S5000x128_S5000x128_0_0
abbrev rD1 : Rect S5000x1 := Rect.unit (s := S5000x1) ![0, 0] S5000x1.size inb_S5000x1_S5000x1_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output buffer after the body: its one store, of the layer's arithmetic on the loaded input blocks. -/
def out1 (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) : Vec F S5000x128 .f32 :=
  View.canon [⟨rN1, k1_pay1 (View.ld x0 rN1) (View.ld x1 rD1) (View.ld x3 rW1) (View.ld x4 rB1) (View.ld x2 rN1) (View.ld x5 rW1) (View.ld x6 rN1)⟩]

/-- The one store covers the output block. -/
theorem cover1 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole staging memrefs: the inputs' at given contents and the output's at anything run to the
    inputs' unchanged and the output's at `out1` of the inputs'. -/
theorem body1 (c : Dev nD) (E : Set ℕ) (i : grid1.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S5000x128 .f32) (h7 : a7.IsWhole)
    (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out1 x0 x1 x2 x3 x4 x5 x6)) -∗ K ⟨⟩))
      ⊢ wp frame (wpE (defs₀ (F := F)) Variants.none c none) E (cc1__sage_mid_kernel i a0 h0 a1 h1 a2 h2 a3 h3 a4 h4 a5 h5 a6 h6 a7 h7) K := by
  simp only [cc1__sage_mid_kernel_eq_skeleton]; unfold cc1__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover1 _)

/-- The region's proof data on core c: arrays as found; after the body each input's buffer at its block and the
    output's at the layer's arithmetic on the input blocks; the invariant keeps the scoped rest and the generator
    register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => out1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = out1 (blk1 V c 0 t) (blk1 V c 1 t) (blk1 V c 2 t) (blk1 V c 3 t) (blk1 V c 4 t) (blk1 V c 5 t) (blk1 V c 6 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d
theorem dat1_before6 (c : Dev nD) (t : Fin cfg1.N) (d) : (dat1 V c).before 6 t d = blk1 V c 6 t :=
  found1_6 V (dat1 V c) (dat1_A V c 6) (dat1_after6 V c) t d

/-- What the body is called with at point t, the windows one by one, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem oblig1 (c : Dev nD) : BodyObligation (dat1 (F := F) V c) (defs₀ (F := F)) Variants.none () Set.univ := fun t => by
  rw [bigSep_W1, bigSep_W1]
  exact point1 V c t

end Cert.KernelIdeal.Fr

end
-- ==== Proof.KernelIdeal.R2.lean ====
/-
  The third pallas_call (a middle graph layer) as one region of the program, at any contents V the TensorCore's
  buffers may hold when the region is entered. Its grid has 20 points; point t stages rows 5000·t … 5000·t+4999 of
  the neighbour sums (window 0), of the reciprocal degrees as a column (window 1), of the node features (window 2)
  and of the residual (window 6), the two transposed weight matrices and the bias row whole (windows 3, 5 and 4,
  fetched once), and writes back the same rows of the result (window 7). Here windows 2 and 6 read ONE array (the layer's input is also its residual), so the region holds that array half and half. The body loads its input blocks,
  loads the output buffer (a value it never uses) and stores, over the whole output block,
  max((agg·dinv)·Wl + b + h·Wr, 0) + residual. After the body the inputs' buffers hold what they held and the
  output's holds that arithmetic on the input blocks.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether that point fetched it or not
    (a window fetched only at the first point keeps its block index, so its block is the same at every point). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem found2_5 {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem found2_6 {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-- The whole blocks as rectangles: what the body loads and stores through. -/
abbrev rN2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output buffer after the body: its one store, of the layer's arithmetic on the loaded input blocks. -/
def out2 (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) : Vec F S5000x128 .f32 :=
  View.canon [⟨rN2, k2_pay1 (View.ld x0 rN2) (View.ld x1 rD2) (View.ld x3 rW2) (View.ld x4 rB2) (View.ld x2 rN2) (View.ld x5 rW2) (View.ld x6 rN2)⟩]

/-- The one store covers the output block. -/
theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The body on whole staging memrefs: the inputs' at given contents and the output's at anything run to the
    inputs' unchanged and the output's at `out2` of the inputs'. -/
theorem body2 (c : Dev nD) (E : Set ℕ) (i : grid2.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S5000x128 .f32) (h7 : a7.IsWhole)
    (x0 : Vec F S5000x128 .f32) (x1 : Vec F S5000x1 .f32) (x2 : Vec F S5000x128 .f32) (x3 : Vec F S128x128 .f32) (x4 : Vec F S1x128 .f32) (x5 : Vec F S128x128 .f32) (x6 : Vec F S5000x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2 x0 x1 x2 x3 x4 x5 x6)) -∗ K ⟨⟩))
      ⊢ wp frame (wpE (defs₀ (F := F)) Variants.none c none) E (cc2__sage_mid_kernel i a0 h0 a1 h1 a2 h2 a3 h3 a4 h4 a5 h5 a6 h6 a7 h7) K := by
  simp only [cc2__sage_mid_kernel_eq_skeleton]; unfold cc2__sage_mid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover2 _)

/-- The region's proof data on core c: arrays as found; after the body each input's buffer at its block and the
    output's at the layer's arithmetic on the input blocks; the invariant keeps the scoped rest and the generator
    register; nothing owed; the array two windows read is held half and half. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => out2 (blk2 V c 0 t) (blk2 V c 1 t) (blk2 V c 2 t) (blk2 V c 3 t) (blk2 V c 4 t) (blk2 V c 5 t) (blk2 V c 6 t)
  Φ _ := Pipeline.ΦA spec2 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare.right
    | ⟨7, _⟩ => fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) : (dat2 V c).after 5 t = blk2 V c 5 t := by dsimp only [dat2]
theorem dat2_after6 (c : Dev nD) (t : Fin cfg2.N) : (dat2 V c).after 6 t = blk2 V c 6 t := by dsimp only [dat2]
theorem dat2_after7 (c : Dev nD) (t : Fin cfg2.N) : (dat2 V c).after 7 t = out2 (blk2 V c 0 t) (blk2 V c 1 t) (blk2 V c 2 t) (blk2 V c 3 t) (blk2 V c 4 t) (blk2 V c 5 t) (blk2 V c 6 t) := by dsimp only [dat2]
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_before4 (c : Dev nD) (t : Fin cfg2.N) (d) : (dat2 V c).before 4 t d = blk2 V c 4 t :=
  found2_4 V (dat2 V c) (dat2_A V c 4) (dat2_after4 V c) t d
theorem dat2_before5 (c : Dev nD) (t : Fin cfg2.N) (d) : (dat2 V c).before 5 t d = blk2 V c 5 t :=
  found2_5 V (dat2 V c) (dat2_A V c 5) (dat2_after5 V c) t d
theorem dat2_before6 (c : Dev nD) (t : Fin cfg2.N) (d) : (dat2 V c).before 6 t d = blk2 V c 6 t :=
  found2_6 V (dat2 V c) (dat2_A V c 6) (dat2_after6 V c) t d

/-- What the body is called with at point t, the windows one by one, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4, dat2_before5, dat2_before6]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5, dat2_after6, dat2_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body2 c Set.univ _ _ _ _ _ _ _ _ _ _ _ _ _ _ _ _ _ (blk2 V c 0 t) (blk2 V c 1 t) (blk2 V c 2 t) (blk2 V c 3 t) (blk2 V c 4 t) (blk2 V c 5 t) (blk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem oblig2 (c : Dev nD) : BodyObligation (dat2 (F := F) V c) (defs₀ (F := F)) Variants.none () Set.univ := fun t => by
  rw [bigSep_W2, bigSep_W2]
  exact point2 V c t

end Cert.KernelIdeal.Fr

end
-- ==== Proof.KernelIdeal.R3.lean ====
/-
  The fourth pallas_call (the last graph layer and the row normalisation) as one region of the program, at any
  contents V the TensorCore's buffers may hold when the region is entered. Its grid has 20 points; point t stages
  rows 5000·t … 5000·t+4999 of the neighbour sums (window 0), of the reciprocal degrees as a column (window 1) and
  of the node features (window 2), the two transposed weight matrices and the bias row whole (windows 3, 5 and 4,
  fetched once), and writes back the same rows of the result (window 6). The body loads its input blocks, loads
  the output buffer (a value it never uses) and stores, over the whole output block, s / max(‖s‖₂ per row, ε)
  with s = (agg·dinv)·Wl + b + h·Wr. After the body the inputs' buffers hold what they held and the output's holds
  that arithmetic on the input blocks.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether that point fetched it or not
    (a window fetched only at the first point keeps its block index, so its block is the same at every point). -/
theorem found3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem found3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem found3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem found3_3 {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem found3_4 {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem found3_5 {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The whole blocks as rectangles: what the body loads and stores through. -/
abbrev rN3 : Rect S5000x128 := Rect.unit (s := S5000x128) ![0, 0] S5000x128.size inb_S5000x128_S5000x128_0_0
abbrev rD3 : Rect S5000x1 := Rect.unit (s := S5000x1) ![0, 0] S5000x1.size inb_S5000x1_S5000x1_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

/-- The output buffer after the body: its one store, of the layer's arithmetic on the loaded input blocks. -/
def out3 (x0 : Vec F S5000x128 .f32) (x1 : Vec F S5000x1 .f32) (x2 : Vec F S5000x128 .f32) (x3 : Vec F S128x128 .f32) (x4 : Vec F S1x128 .f32) (x5 : Vec F S128x128 .f32) : Vec F S5000x128 .f32 :=
  View.canon [⟨rN3, k3_pay1 (View.ld x0 rN3) (View.ld x1 rD3) (View.ld x3 rW3) (View.ld x4 rB3) (View.ld x2 rN3) (View.ld x5 rW3)⟩]

/-- The one store covers the output block. -/
theorem cover3 (p0 : Vec F S5000x128 .f32) (y : S5000x128.Idx) :
    ∃ pc ∈ ([⟨rN3, p0⟩] : List (View.Piece (Elt F) S5000x128 .f32)), y ∈ pc.1.set :=
  View.cover_of_tiled [⟨rN3, p0⟩] S5000x128.size (by rfl) y

set_option maxHeartbeats 1000000 in
/-- The body on whole staging memrefs: the inputs' at given contents and the output's at anything run to the
    inputs' unchanged and the output's at `out3` of the inputs'. -/
theorem body3 (c : Dev nD) (E : Set ℕ) (i : grid3.Coords) (a0 : Memref sig .tc .vmem S5000x128 .f32) (h0 : a0.IsWhole) (a1 : Memref sig .tc .vmem S5000x1 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole)
    (x0 : Vec F S5000x128 .f32) (x1 : Vec F S5000x1 .f32) (x2 : Vec F S5000x128 .f32) (x3 : Vec F S128x128 .f32) (x4 : Vec F S1x128 .f32) (x5 : Vec F S128x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out3 x0 x1 x2 x3 x4 x5)) -∗ K ⟨⟩))
      ⊢ wp frame (wpE (defs₀ (F := F)) Variants.none c none) E (cc3__sage_final_kernel i a0 h0 a1 h1 a2 h2 a3 h3 a4 h4 a5 h5 a6 h6) K := by
  simp only [cc3__sage_final_kernel_eq_skeleton]; unfold cc3__sage_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover3 _)

/-- The region's proof data on core c: arrays as found; after the body each input's buffer at its block and the
    output's at the layer's arithmetic on the input blocks; the invariant keeps the scoped rest and the generator
    register; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => out3 (blk3 V c 0 t) (blk3 V c 1 t) (blk3 V c 2 t) (blk3 V c 3 t) (blk3 V c 4 t) (blk3 V c 5 t)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = out3 (blk3 V c 0 t) (blk3 V c 1 t) (blk3 V c 2 t) (blk3 V c 3 t) (blk3 V c 4 t) (blk3 V c 5 t) := by dsimp only [dat3]
theorem dat3_before0 (c : Dev nD) (t : Fin cfg3.N) (d) : (dat3 V c).before 0 t d = blk3 V c 0 t :=
  found3_0 V (dat3 V c) (dat3_A V c 0) (dat3_after0 V c) t d
theorem dat3_before1 (c : Dev nD) (t : Fin cfg3.N) (d) : (dat3 V c).before 1 t d = blk3 V c 1 t :=
  found3_1 V (dat3 V c) (dat3_A V c 1) (dat3_after1 V c) t d
theorem dat3_before2 (c : Dev nD) (t : Fin cfg3.N) (d) : (dat3 V c).before 2 t d = blk3 V c 2 t :=
  found3_2 V (dat3 V c) (dat3_A V c 2) (dat3_after2 V c) t d
theorem dat3_before3 (c : Dev nD) (t : Fin cfg3.N) (d) : (dat3 V c).before 3 t d = blk3 V c 3 t :=
  found3_3 V (dat3 V c) (dat3_A V c 3) (dat3_after3 V c) t d
theorem dat3_before4 (c : Dev nD) (t : Fin cfg3.N) (d) : (dat3 V c).before 4 t d = blk3 V c 4 t :=
  found3_4 V (dat3 V c) (dat3_A V c 4) (dat3_after4 V c) t d
theorem dat3_before5 (c : Dev nD) (t : Fin cfg3.N) (d) : (dat3 V c).before 5 t d = blk3 V c 5 t :=
  found3_5 V (dat3 V c) (dat3_A V c 5) (dat3_after5 V c) t d

/-- What the body is called with at point t, the windows one by one, and what it returns. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body3 c Set.univ _ _ _ _ _ _ _ _ _ _ _ _ _ _ _ (blk3 V c 0 t) (blk3 V c 1 t) (blk3 V c 2 t) (blk3 V c 3 t) (blk3 V c 4 t) (blk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem oblig3 (c : Dev nD) : BodyObligation (dat3 (F := F) V c) (defs₀ (F := F)) Variants.none () Set.univ := fun t => by
  rw [bigSep_W3, bigSep_W3]
  exact point3 V c t

end Cert.KernelIdeal.Fr

end
-- ==== Proof.KernelIdeal.Chain.lean ====
/-
  What the buffers that live across regions hold at each boundary of the program, core by core: the launch
  memory, then each host stretch applied, then each region's result array overwritten by what that region's
  write-backs leave (the fold of its twenty blocks), every other buffer untouched. The four regions' proof data
  are each stated at the contents their region is entered from.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.R0
import proofs.«157507_j81793357185798_2_alg».proof.Proof.KernelIdeal.R1
import proofs.«157507_j81793357185798_2_alg».proof.Proof.KernelIdeal.R2
import proofs.«157507_j81793357185798_2_alg».proof.Proof.KernelIdeal.R3
import proofs.«157507_j81793357185798_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation of the device's buffers read at the TensorCore's references. -/
abbrev atTc (X : Dev nD → Valuation τ sig (Elt F)) : (c : Dev nD) → (b : Ref sig .tc) → Buf (Elt F) ((c : Thread nD τ).loc b) :=
  fun c b => X c b

/-- What region 0 leaves in its result array. -/
def o4 (c : Dev nD) : Buf (Elt F) ((c : Thread nD τ).loc main_v23) := (dat0 (atTc (V3 m)) c).arrAt 2 cfg0.N
/-- After region 0. -/
def X4 (c : Dev nD) : Valuation τ sig (Elt F) := Function.update (V3 m c) main_v23 (o4 m c)
/-- After the host stretch between regions 0 and 1. -/
def X5 (c : Dev nD) : Valuation τ sig (Elt F) := StableHlo.after hostOps1 (X4 m c)
def o6 (c : Dev nD) : Buf (Elt F) ((c : Thread nD τ).loc main_v35) := (dat1 (atTc (X5 m)) c).arrAt 7 cfg1.N
def X6 (c : Dev nD) : Valuation τ sig (Elt F) := Function.update (X5 m c) main_v35 (o6 m c)
def X7 (c : Dev nD) : Valuation τ sig (Elt F) := StableHlo.after hostOps2 (X6 m c)
def o8 (c : Dev nD) : Buf (Elt F) ((c : Thread nD τ).loc main_v47) := (dat2 (atTc (X7 m)) c).arrAt 7 cfg2.N
def X8 (c : Dev nD) : Valuation τ sig (Elt F) := Function.update (X7 m c) main_v47 (o8 m c)
def X9 (c : Dev nD) : Valuation τ sig (Elt F) := StableHlo.after hostOps3 (X8 m c)
def o10 (c : Dev nD) : Buf (Elt F) ((c : Thread nD τ).loc main_v59) := (dat3 (atTc (X9 m)) c).arrAt 6 cfg3.N
def X10 (c : Dev nD) : Valuation τ sig (Elt F) := Function.update (X9 m c) main_v59 (o10 m c)

/-- The regions' results as the generated chain of valuations takes them. -/
def outs : Outs (F := F) := fun J r c =>
  if J = 4 then X4 m c r else if J = 6 then X6 m c r else if J = 8 then X8 m c r else X10 m c r

theorem X4_res (c : Dev nD) : X4 m c main_v23 = o4 m c := by unfold X4; exact Function.update_self ..
theorem X6_res (c : Dev nD) : X6 m c main_v35 = o6 m c := by unfold X6; exact Function.update_self ..
theorem X8_res (c : Dev nD) : X8 m c main_v47 = o8 m c := by unfold X8; exact Function.update_self ..
theorem X10_res (c : Dev nD) : X10 m c main_v59 = o10 m c := by unfold X10; exact Function.update_self ..
theorem X4_of (c : Dev nD) (r : Ref sig .tc) (h : r ≠ main_v23) : X4 m c r = V3 m c r := by
  unfold X4; exact Function.update_of_ne (StableHlo.devRef_ne_of_ne h) _ _
theorem X6_of (c : Dev nD) (r : Ref sig .tc) (h : r ≠ main_v35) : X6 m c r = X5 m c r := by
  unfold X6; exact Function.update_of_ne (StableHlo.devRef_ne_of_ne h) _ _
theorem X8_of (c : Dev nD) (r : Ref sig .tc) (h : r ≠ main_v47) : X8 m c r = X7 m c r := by
  unfold X8; exact Function.update_of_ne (StableHlo.devRef_ne_of_ne h) _ _
theorem X10_of (c : Dev nD) (r : Ref sig .tc) (h : r ≠ main_v59) : X10 m c r = X9 m c r := by
  unfold X10; exact Function.update_of_ne (StableHlo.devRef_ne_of_ne h) _ _

/-! The generated chain at these results is this chain. -/
theorem outs4 (r : Ref sig .tc) (c : Dev nD) : outs m 4 r c = X4 m c r := by unfold outs; rw [if_pos rfl]
theorem outs6 (r : Ref sig .tc) (c : Dev nD) : outs m 6 r c = X6 m c r := by
  unfold outs; rw [if_neg (by decide), if_pos rfl]
theorem outs8 (r : Ref sig .tc) (c : Dev nD) : outs m 8 r c = X8 m c r := by
  unfold outs; rw [if_neg (by decide), if_neg (by decide), if_pos rfl]
theorem outs10 (r : Ref sig .tc) (c : Dev nD) : outs m 10 r c = X10 m c r := by
  unfold outs; rw [if_neg (by decide), if_neg (by decide), if_neg (by decide)]
theorem V4_eq (c : Dev nD) : V4 m (outs m) c = X4 m c := by
  show Function.update (V3 m c) main_v23 (outs m 4 main_v23 c) = X4 m c
  rw [outs4, X4_res]; rfl
theorem V5_eq (c : Dev nD) : V5 m (outs m) c = X5 m c := by
  show StableHlo.after hostOps1 (V4 m (outs m) c) = _
  rw [V4_eq]; rfl
theorem V6_eq (c : Dev nD) : V6 m (outs m) c = X6 m c := by
  show Function.update (V5 m (outs m) c) main_v35 (outs m 6 main_v35 c) = X6 m c
  rw [outs6, V5_eq, X6_res]; rfl
theorem V7_eq (c : Dev nD) : V7 m (outs m) c = X7 m c := by
  show StableHlo.after hostOps2 (V6 m (outs m) c) = _
  rw [V6_eq]; rfl
theorem V8_eq (c : Dev nD) : V8 m (outs m) c = X8 m c := by
  show Function.update (V7 m (outs m) c) main_v47 (outs m 8 main_v47 c) = X8 m c
  rw [outs8, V7_eq, X8_res]; rfl
theorem V9_eq (c : Dev nD) : V9 m (outs m) c = X9 m c := by
  show StableHlo.after hostOps3 (V8 m (outs m) c) = _
  rw [V8_eq]; rfl
theorem V10_eq (c : Dev nD) : V10 m (outs m) c = X10 m c := by
  show Function.update (V9 m (outs m) c) main_v59 (outs m 10 main_v59 c) = X10 m c
  rw [outs10, V9_eq, X10_res]; rfl

/-- Every region's proof data, each at the contents its region is entered from. -/
def pd : (p : Fin 4) → (c : Dev nD) → Dat τ (Elt F) Unit ℕ (UR sig nD τ) ℕ (cfgs p) c
  | ⟨0, _⟩ => fun c => dat0 (atTc (V3 m)) c
  | ⟨1, _⟩ => fun c => dat1 (atTc (X5 m)) c
  | ⟨2, _⟩ => fun c => dat2 (atTc (X7 m)) c
  | ⟨3, _⟩ => fun c => dat3 (atTc (X9 m)) c

/-- No core owes another anything: no level is assigned. -/
abbrev Lz : GSem nD τ sig → Finset Unit := fun _ => ∅
abbrev lvz : GSem nD τ sig → Unit → ℕ := fun _ _ => 0
/-- What rides beside the buffers through every segment: the core's generator register at some state and its
    debts, which are none. -/
abbrev Rr (c : Dev nD) : sProp 𝕄 := iprop((∃ r, prngReg c r) ∗ ∃ W, owes (c : Thread nD τ) (0 : CellTallies nD τ sig Unit) W)

end Cert.KernelIdeal.Fr

end
-- ==== Proof.KernelIdeal.Seg0.lean ====
/-
  The first region placed in the program's run: what its arrays hold at its exit, and the region's record over
  the thread state "every buffer that lives across regions at the boundary's contents".
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn0 (c : Dev nD) (w : Fin cfg0.W) (hin : (cfg0.win w).isOut = false) (hne : Pipeline.arrRef spec0 w ≠ main_v23) :
    (pd m 0 c).arrAt w cfg0.N = atTc (X4 m) c (Pipeline.arrRef spec0 w) :=
  ((pd m 0 c).arrAt_in w hin _).trans ((dat0_A (atTc (V3 m)) c w).trans (X4_of m c _ hne).symm)
theorem exitArr0_0 (c : Dev nD) : (pd m 0 c).arrAt 0 cfg0.N = atTc (X4 m) c (Pipeline.arrRef spec0 0) :=
  exitIn0 m c 0 rfl (by decide)
theorem exitArr0_1 (c : Dev nD) : (pd m 0 c).arrAt 1 cfg0.N = atTc (X4 m) c (Pipeline.arrRef spec0 1) :=
  exitIn0 m c 1 rfl (by decide)
/-- The result array holds the fold of its blocks. -/
theorem exitArr0_2 (c : Dev nD) : (pd m 0 c).arrAt 2 cfg0.N = atTc (X4 m) c (Pipeline.arrRef spec0 2) :=
  (show (pd m 0 c).arrAt 2 cfg0.N = o4 m c from rfl).trans (X4_res m c).symm
/-- At the region's exit each of its arrays holds what the write-backs leave. -/
theorem exitArr0 (c : Dev nD) : ∀ w : Fin cfg0.W, (pd m 0 c).arrAt w cfg0.N = atTc (X4 m) c (Pipeline.arrRef spec0 w)
  | ⟨0, _⟩ => exitArr0_0 m c
  | ⟨1, _⟩ => exitArr0_1 m c
  | ⟨2, _⟩ => exitArr0_2 m c
/-- Every other buffer holds what it held at entry. -/
theorem exitRest0 (c : Dev nD) : ∀ b, b ∉ Finset.univ.image (Pipeline.arrRef spec0) → atTc (X4 m) c b = atTc (V3 m) c b :=
  fun b hb => X4_of m c b fun e => hb (by rw [e]; exact Finset.mem_image.mpr ⟨2, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg0 : Pipeline.RegionSeg (pcfgs (F := F)) adm (pd m) () defs₀ Variants.none Lz lvz 0 where
  win := launch0.win.to₀
  block_pos := launch0.block_pos
  stage_whole := launch0.stage_whole
  K := PEmpty
  osem k := k.elim
  ho := Pipeline.OwnSemFacts.none _
  hbody c := (oblig0 (atTc (V3 m)) c).loose
  hwaits := Pipeline.hwaits_of_owed_zero _ _ _ _ Lz lvz 0 fun _ _ => rfl
  pre c := iprop(StableHlo.held (c : Thread nD τ) (Pipeline.ucRefs τ sig) (V3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pd m) launch0.win launch0.arr_whole c
      ((pd m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (atTc (V3 m) c) (atTc (X4 m) c) ((pd m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KernelIdeal.Seg1.lean ====
/-
  The second region placed in the program's run: what its arrays hold at its exit, and the region's record over
  the thread state "every buffer that lives across regions at the boundary's contents".
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn1 (c : Dev nD) (w : Fin cfg1.W) (hin : (cfg1.win w).isOut = false) (hne : Pipeline.arrRef spec1 w ≠ main_v35) :
    (pd m 1 c).arrAt w cfg1.N = atTc (X6 m) c (Pipeline.arrRef spec1 w) :=
  ((pd m 1 c).arrAt_in w hin _).trans ((dat1_A (atTc (X5 m)) c w).trans (X6_of m c _ hne).symm)
theorem exitArr1_0 (c : Dev nD) : (pd m 1 c).arrAt 0 cfg1.N = atTc (X6 m) c (Pipeline.arrRef spec1 0) :=
  exitIn1 m c 0 rfl (by decide)
theorem exitArr1_1 (c : Dev nD) : (pd m 1 c).arrAt 1 cfg1.N = atTc (X6 m) c (Pipeline.arrRef spec1 1) :=
  exitIn1 m c 1 rfl (by decide)
theorem exitArr1_2 (c : Dev nD) : (pd m 1 c).arrAt 2 cfg1.N = atTc (X6 m) c (Pipeline.arrRef spec1 2) :=
  exitIn1 m c 2 rfl (by decide)
theorem exitArr1_3 (c : Dev nD) : (pd m 1 c).arrAt 3 cfg1.N = atTc (X6 m) c (Pipeline.arrRef spec1 3) :=
  exitIn1 m c 3 rfl (by decide)
theorem exitArr1_4 (c : Dev nD) : (pd m 1 c).arrAt 4 cfg1.N = atTc (X6 m) c (Pipeline.arrRef spec1 4) :=
  exitIn1 m c 4 rfl (by decide)
theorem exitArr1_5 (c : Dev nD) : (pd m 1 c).arrAt 5 cfg1.N = atTc (X6 m) c (Pipeline.arrRef spec1 5) :=
  exitIn1 m c 5 rfl (by decide)
theorem exitArr1_6 (c : Dev nD) : (pd m 1 c).arrAt 6 cfg1.N = atTc (X6 m) c (Pipeline.arrRef spec1 6) :=
  exitIn1 m c 6 rfl (by decide)
/-- The result array holds the fold of its blocks. -/
theorem exitArr1_7 (c : Dev nD) : (pd m 1 c).arrAt 7 cfg1.N = atTc (X6 m) c (Pipeline.arrRef spec1 7) :=
  (show (pd m 1 c).arrAt 7 cfg1.N = o6 m c from rfl).trans (X6_res m c).symm
/-- At the region's exit each of its arrays holds what the write-backs leave. -/
theorem exitArr1 (c : Dev nD) : ∀ w : Fin cfg1.W, (pd m 1 c).arrAt w cfg1.N = atTc (X6 m) c (Pipeline.arrRef spec1 w)
  | ⟨0, _⟩ => exitArr1_0 m c
  | ⟨1, _⟩ => exitArr1_1 m c
  | ⟨2, _⟩ => exitArr1_2 m c
  | ⟨3, _⟩ => exitArr1_3 m c
  | ⟨4, _⟩ => exitArr1_4 m c
  | ⟨5, _⟩ => exitArr1_5 m c
  | ⟨6, _⟩ => exitArr1_6 m c
  | ⟨7, _⟩ => exitArr1_7 m c
/-- Every other buffer holds what it held at entry. -/
theorem exitRest1 (c : Dev nD) : ∀ b, b ∉ Finset.univ.image (Pipeline.arrRef spec1) → atTc (X6 m) c b = atTc (X5 m) c b :=
  fun b hb => X6_of m c b fun e => hb (by rw [e]; exact Finset.mem_image.mpr ⟨7, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg1 : Pipeline.RegionSeg (pcfgs (F := F)) adm (pd m) () defs₀ Variants.none Lz lvz 1 where
  win := launch1.win.to₀
  block_pos := launch1.block_pos
  stage_whole := launch1.stage_whole
  K := PEmpty
  osem k := k.elim
  ho := Pipeline.OwnSemFacts.none _
  hbody c := (oblig1 (atTc (X5 m)) c).loose
  hwaits := Pipeline.hwaits_of_owed_zero _ _ _ _ Lz lvz 1 fun _ _ => rfl
  pre c := iprop(StableHlo.held (c : Thread nD τ) (Pipeline.ucRefs τ sig) (X5 m c) ∗ Rr c)
  post c := iprop(StableHlo.held (c : Thread nD τ) (Pipeline.ucRefs τ sig) (X6 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X5 m) c)
  hentry c := by
    rw [Pipeline.ownSems0_none]
    have hsplit := Pipeline.arrays_of_unscopedBufs (p := 1) (pcfgs (F := F)) adm (pd m) launch1.win launch1.arr_whole c
      ((pd m 1 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (atTc (X5 m) c) (atTc (X6 m) c) ((pd m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KernelIdeal.Share2.lean ====
/-
  The third region hands ONE array (the layer's input, which is also its residual) to two input windows. The
  region's arrays are then not the distinct buffers behind them each held whole: the shared buffer is held half
  by the one window and half by the other. This module deals the distinct buffers, each whole, into the
  windows' arrays at entry, and collects them back at exit: the two halves of the shared buffer agree on its
  contents and make the whole again.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- A buffer held whole is held half and half. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The seven distinct buffers behind the region's eight windows. -/
abbrev arrL2 : List (Ref sig .tc) := [main_v45, main_v15, main_v35, main_v19, main_v46, main_v20, main_v47]

/-- The distinct buffers, each whole at V, one by one. -/
theorem arrBufs2_eq (c : Dev nD) (V : (b : Ref sig .tc) → Buf (Elt F) ((c.tc : Thread nD τ).loc b)) :
    (Pipeline.arrBufs (Ix := Unit) (Name := ℕ) (U := UR sig nD τ) (Lvl := ℕ) spec2 c V : sProp 𝕄) = iprop(
      (((c.tc : Thread nD τ).loc main_v45) ↦{fullShare} V main_v45) ∗ (((c.tc : Thread nD τ).loc main_v15) ↦{fullShare} V main_v15)
      ∗ (((c.tc : Thread nD τ).loc main_v35) ↦{fullShare} V main_v35) ∗ (((c.tc : Thread nD τ).loc main_v19) ↦{fullShare} V main_v19)
      ∗ (((c.tc : Thread nD τ).loc main_v46) ↦{fullShare} V main_v46) ∗ (((c.tc : Thread nD τ).loc main_v20) ↦{fullShare} V main_v20)
      ∗ (((c.tc : Thread nD τ).loc main_v47) ↦{fullShare} V main_v47)) := by
  unfold Pipeline.arrBufs
  rw [bigSep_eq_bigSepL_of_eq arrL2 (by decide) (by decide)]
  rfl

/-- The windows' arrays, each a whole buffer at its window's share. -/
theorem arrays2_eq (c : Dev nD) (Fn : (w : Fin cfg2.W) → Buf (Elt F) ((cfg2.win w).arr.view.loc (c.tc : Thread nD τ))) :
    ((dat2 V₀ c).arrays Fn : sProp 𝕄)
      = bigSep Finset.univ fun w : Fin cfg2.W => ((((c.tc : Thread nD τ).loc (Pipeline.arrRef spec2 w)) ↦{(dat2 V₀ c).share w} Fn w) : sProp 𝕄) := by
  unfold Dat.arrays
  exact bigSep_congr fun w _ => by rw [(arr_whole2 w).set_eq_univ]

/-- Dealing at entry and collecting at exit: the distinct buffers whole at V are the windows' arrays at V. -/
theorem deal2 (c : Dev nD) (V : (b : Ref sig .tc) → Buf (Elt F) ((c.tc : Thread nD τ).loc b))
    (Fn : (w : Fin cfg2.W) → Buf (Elt F) ((cfg2.win w).arr.view.loc (c.tc : Thread nD τ))) (hF : ∀ w, Fn w = V (Pipeline.arrRef spec2 w)) :
    (Pipeline.arrBufs (Ix := Unit) (Name := ℕ) (U := UR sig nD τ) (Lvl := ℕ) spec2 c V : sProp 𝕄) ⊣⊢ (dat2 V₀ c).arrays Fn := by
  obtain rfl : Fn = fun w => V (Pipeline.arrRef spec2 w) := funext hF
  rw [arrBufs2_eq, arrays2_eq, bigSep_W2]
  constructor
  · iintro ⟨H0, H1, H2, H3, H4, H5, H7⟩
    ihave H2' := (halves (V main_v35)).1 $$ H2
    icases H2' with ⟨H2l, H2r⟩
    isplitl [H0]; · iexact H0
    isplitl [H1]; · iexact H1
    isplitl [H2l]; · iexact H2l
    isplitl [H3]; · iexact H3
    isplitl [H4]; · iexact H4
    isplitl [H5]; · iexact H5
    isplitl [H2r]; · iexact H2r
    iexact H7
  · iintro ⟨H0, H1, H2l, H3, H4, H5, H2r, H7⟩
    isplitl [H0]; · iexact H0
    isplitl [H1]; · iexact H1
    isplitl [H2l H2r]
    · iapply (halves (V main_v35)).2
      isplitl [H2l]; · iexact H2l
      iexact H2r
    isplitl [H3]; · iexact H3
    isplitl [H4]; · iexact H4
    isplitl [H5]; · iexact H5
    iexact H7

end Cert.KernelIdeal.Fr

end
-- ==== Proof.KernelIdeal.Seg2.lean ====
/-
  The third region placed in the program's run: what its arrays hold at its exit, and the region's record over
  the thread state "every buffer that lives across regions at the boundary's contents". Two of its windows read
  one array, so its arrays are dealt from, and collected back into, the distinct buffers behind them in the module on the shared array.
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.Chain
import proofs.«157507_j81793357185798_2_alg».proof.Proof.KernelIdeal.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn2 (c : Dev nD) (w : Fin cfg2.W) (hin : (cfg2.win w).isOut = false) (hne : Pipeline.arrRef spec2 w ≠ main_v47) :
    (pd m 2 c).arrAt w cfg2.N = atTc (X8 m) c (Pipeline.arrRef spec2 w) :=
  ((pd m 2 c).arrAt_in w hin _).trans ((dat2_A (atTc (X7 m)) c w).trans (X8_of m c _ hne).symm)
theorem exitArr2_0 (c : Dev nD) : (pd m 2 c).arrAt 0 cfg2.N = atTc (X8 m) c (Pipeline.arrRef spec2 0) :=
  exitIn2 m c 0 rfl (by decide)
theorem exitArr2_1 (c : Dev nD) : (pd m 2 c).arrAt 1 cfg2.N = atTc (X8 m) c (Pipeline.arrRef spec2 1) :=
  exitIn2 m c 1 rfl (by decide)
theorem exitArr2_2 (c : Dev nD) : (pd m 2 c).arrAt 2 cfg2.N = atTc (X8 m) c (Pipeline.arrRef spec2 2) :=
  exitIn2 m c 2 rfl (by decide)
theorem exitArr2_3 (c : Dev nD) : (pd m 2 c).arrAt 3 cfg2.N = atTc (X8 m) c (Pipeline.arrRef spec2 3) :=
  exitIn2 m c 3 rfl (by decide)
theorem exitArr2_4 (c : Dev nD) : (pd m 2 c).arrAt 4 cfg2.N = atTc (X8 m) c (Pipeline.arrRef spec2 4) :=
  exitIn2 m c 4 rfl (by decide)
theorem exitArr2_5 (c : Dev nD) : (pd m 2 c).arrAt 5 cfg2.N = atTc (X8 m) c (Pipeline.arrRef spec2 5) :=
  exitIn2 m c 5 rfl (by decide)
theorem exitArr2_6 (c : Dev nD) : (pd m 2 c).arrAt 6 cfg2.N = atTc (X8 m) c (Pipeline.arrRef spec2 6) :=
  exitIn2 m c 6 rfl (by decide)
/-- The result array holds the fold of its blocks. -/
theorem exitArr2_7 (c : Dev nD) : (pd m 2 c).arrAt 7 cfg2.N = atTc (X8 m) c (Pipeline.arrRef spec2 7) :=
  (show (pd m 2 c).arrAt 7 cfg2.N = o8 m c from rfl).trans (X8_res m c).symm
/-- At the region's exit each of its arrays holds what the write-backs leave. -/
theorem exitArr2 (c : Dev nD) : ∀ w : Fin cfg2.W, (pd m 2 c).arrAt w cfg2.N = atTc (X8 m) c (Pipeline.arrRef spec2 w)
  | ⟨0, _⟩ => exitArr2_0 m c
  | ⟨1, _⟩ => exitArr2_1 m c
  | ⟨2, _⟩ => exitArr2_2 m c
  | ⟨3, _⟩ => exitArr2_3 m c
  | ⟨4, _⟩ => exitArr2_4 m c
  | ⟨5, _⟩ => exitArr2_5 m c
  | ⟨6, _⟩ => exitArr2_6 m c
  | ⟨7, _⟩ => exitArr2_7 m c
/-- Every other buffer holds what it held at entry. -/
theorem exitRest2 (c : Dev nD) : ∀ b, b ∉ Finset.univ.image (Pipeline.arrRef spec2) → atTc (X8 m) c b = atTc (X7 m) c b :=
  fun b hb => X8_of m c b fun e => hb (by rw [e]; exact Finset.mem_image.mpr ⟨7, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg2 : Pipeline.RegionSeg (pcfgs (F := F)) adm (pd m) () defs₀ Variants.none Lz lvz 2 where
  win := winFacts₀2
  block_pos := block_pos2
  stage_whole := stage_whole2
  K := PEmpty
  osem k := k.elim
  ho := Pipeline.OwnSemFacts.none _
  hbody c := (oblig2 (atTc (X7 m)) c).loose
  hwaits := Pipeline.hwaits_of_owed_zero _ _ _ _ Lz lvz 2 fun _ _ => rfl
  pre c := iprop(StableHlo.held (c : Thread nD τ) (Pipeline.ucRefs τ sig) (X7 m c) ∗ Rr c)
  post c := iprop(StableHlo.held (c : Thread nD τ) (Pipeline.ucRefs τ sig) (X8 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X7 m) c)
  hentry c := by
    rw [Pipeline.ownSems0_none]
    have hsplit : (unscopedBufs c (atTc (X7 m) c) : sProp 𝕄)
        ⊢ iprop((pd m 2 c).arrays ((pd m 2 c).arrAt · 0) ∗ Pipeline.unscopedRest (Ix := Unit) (Name := ℕ) (U := UR sig nD τ) (Lvl := ℕ) spec2 c (atTc (X7 m) c)) := by
      rw [Pipeline.unscopedBufs_split₀ cfgs 2 winFacts₀2.arr_unscoped c (atTc (X7 m) c)]
      exact sep_mono (deal2 (atTc (X7 m)) c (atTc (X7 m) c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pd m 2 c).arrays ((pd m 2 c).arrAt · cfg2.N) ∗ Pipeline.unscopedRest (Ix := Unit) (Name := ℕ) (U := UR sig nD τ) (Lvl := ℕ) spec2 c (atTc (X7 m) c))
        ⊢ (unscopedBufs c (atTc (X8 m) c) : sProp 𝕄) := by
      rw [Pipeline.unscopedBufs_split₀ cfgs 2 winFacts₀2.arr_unscoped c (atTc (X8 m) c)]
      refine sep_mono (deal2 (atTc (X7 m)) c (atTc (X8 m) c) _ (exitArr2 m c)).2 (Entails.of_eq ?_)
      unfold Pipeline.unscopedRest
      exact bigSep_congr fun b hb => by rw [exitRest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KernelIdeal.Seg3.lean ====
/-
  The fourth region placed in the program's run: what its arrays hold at its exit, and the region's record over
  the thread state "every buffer that lives across regions at the boundary's contents".
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit an input window's array holds what it held at entry (no write-back touches an input),
    and the exit contents agree with the entry contents there (it is not the result array). -/
theorem exitIn3 (c : Dev nD) (w : Fin cfg3.W) (hin : (cfg3.win w).isOut = false) (hne : Pipeline.arrRef spec3 w ≠ main_v59) :
    (pd m 3 c).arrAt w cfg3.N = atTc (X10 m) c (Pipeline.arrRef spec3 w) :=
  ((pd m 3 c).arrAt_in w hin _).trans ((dat3_A (atTc (X9 m)) c w).trans (X10_of m c _ hne).symm)
theorem exitArr3_0 (c : Dev nD) : (pd m 3 c).arrAt 0 cfg3.N = atTc (X10 m) c (Pipeline.arrRef spec3 0) :=
  exitIn3 m c 0 rfl (by decide)
theorem exitArr3_1 (c : Dev nD) : (pd m 3 c).arrAt 1 cfg3.N = atTc (X10 m) c (Pipeline.arrRef spec3 1) :=
  exitIn3 m c 1 rfl (by decide)
theorem exitArr3_2 (c : Dev nD) : (pd m 3 c).arrAt 2 cfg3.N = atTc (X10 m) c (Pipeline.arrRef spec3 2) :=
  exitIn3 m c 2 rfl (by decide)
theorem exitArr3_3 (c : Dev nD) : (pd m 3 c).arrAt 3 cfg3.N = atTc (X10 m) c (Pipeline.arrRef spec3 3) :=
  exitIn3 m c 3 rfl (by decide)
theorem exitArr3_4 (c : Dev nD) : (pd m 3 c).arrAt 4 cfg3.N = atTc (X10 m) c (Pipeline.arrRef spec3 4) :=
  exitIn3 m c 4 rfl (by decide)
theorem exitArr3_5 (c : Dev nD) : (pd m 3 c).arrAt 5 cfg3.N = atTc (X10 m) c (Pipeline.arrRef spec3 5) :=
  exitIn3 m c 5 rfl (by decide)
/-- The result array holds the fold of its blocks. -/
theorem exitArr3_6 (c : Dev nD) : (pd m 3 c).arrAt 6 cfg3.N = atTc (X10 m) c (Pipeline.arrRef spec3 6) :=
  (show (pd m 3 c).arrAt 6 cfg3.N = o10 m c from rfl).trans (X10_res m c).symm
/-- At the region's exit each of its arrays holds what the write-backs leave. -/
theorem exitArr3 (c : Dev nD) : ∀ w : Fin cfg3.W, (pd m 3 c).arrAt w cfg3.N = atTc (X10 m) c (Pipeline.arrRef spec3 w)
  | ⟨0, _⟩ => exitArr3_0 m c
  | ⟨1, _⟩ => exitArr3_1 m c
  | ⟨2, _⟩ => exitArr3_2 m c
  | ⟨3, _⟩ => exitArr3_3 m c
  | ⟨4, _⟩ => exitArr3_4 m c
  | ⟨5, _⟩ => exitArr3_5 m c
  | ⟨6, _⟩ => exitArr3_6 m c
/-- Every other buffer holds what it held at entry. -/
theorem exitRest3 (c : Dev nD) : ∀ b, b ∉ Finset.univ.image (Pipeline.arrRef spec3) → atTc (X10 m) c b = atTc (X9 m) c b :=
  fun b hb => X10_of m c b fun e => hb (by rw [e]; exact Finset.mem_image.mpr ⟨6, Finset.mem_univ _, rfl⟩)

set_option backward.isDefEq.respectTransparency.types false in
/-- The region as a segment of the program: entered with every buffer that lives across regions at the entry
    contents, left with them at the exit contents; its arrays are split out of those buffers at entry and put back at
    exit; the generator register goes into the region's invariant and comes back; nothing is owed; the kernel
    has no semaphore of its own. -/
def reg3 : Pipeline.RegionSeg (pcfgs (F := F)) adm (pd m) () defs₀ Variants.none Lz lvz 3 where
  win := launch3.win.to₀
  block_pos := launch3.block_pos
  stage_whole := launch3.stage_whole
  K := PEmpty
  osem k := k.elim
  ho := Pipeline.OwnSemFacts.none _
  hbody c := (oblig3 (atTc (X9 m)) c).loose
  hwaits := Pipeline.hwaits_of_owed_zero _ _ _ _ Lz lvz 3 fun _ _ => rfl
  pre c := iprop(StableHlo.held (c : Thread nD τ) (Pipeline.ucRefs τ sig) (X9 m c) ∗ Rr c)
  post c := iprop(StableHlo.held (c : Thread nD τ) (Pipeline.ucRefs τ sig) (X10 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X9 m) c)
  hentry c := by
    rw [Pipeline.ownSems0_none]
    have hsplit := Pipeline.arrays_of_unscopedBufs (p := 3) (pcfgs (F := F)) adm (pd m) launch3.win launch3.arr_whole c
      ((pd m 3 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 3 c).Φ 0 = Pipeline.ΦA spec3 c from rfl]; unfold Pipeline.ΦA
    iintro ⟨Hp, -, Hr⟩
    isplitl [Hr]; · iexact Hr
    iexact Hp
  hout c := by
    rw [Pipeline.ownSems0_none, show (pd m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (atTc (X9 m) c) (atTc (X10 m) c) ((pd m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KernelIdeal.RunAll.lean ====
/-
  The program's run, given each region's record: every weakly fair execution of the whole program terminates
  without a fault, and in the final memory every buffer that lives across regions holds what the chain of host
  stretches and regions leaves in it. The host stretches are discharged by the generated segment list; a region
  contributes its record, entered from the buffers' contents before it and left at the contents after it. Both
  the frame claim (the arguments end as launched) and the value claim (what the result buffer holds) are read
  off this one run.
-/
import proofs.«157507_j81793357185798_2_alg».proof.Proof.Gen.KernelIdeal.Regions

set_option maxRecDepth 1036

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- A TensorCore reference that is not scoped to a region is among the buffers the thread state tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: from any memory m with zero counters, given the four regions' records chained through the
    buffers' contents V3 … V10, every weakly fair execution terminates and the final memory holds V10 at every
    buffer that lives across regions. -/
theorem run_all {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => ∀ b ∈ Pipeline.ucRefs τ sig, s.mem (((c : Thread nD τ)).1, b) = V10 m outs c b)
    (hfin := fun c s' => ?_) (hQ := fun _ h => h)
  · -- the launch: the buffers that live across regions are held at the launch contents; the rest makes E 0 on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every tracked buffer read against the final state
    unfold StableHlo.held
    iintro ⟨Hh, HSI⟩
    imodintro
    iapply (pointsTo_read_all (Pipeline.ucRefs τ sig) (fun b => (((c : Thread nD τ)).1, b)) (V10 m outs c) s')
    isplitl [Hh] <;> iassumption

end Cert.KernelIdeal.Fr

end
-- ==== Proof.KernelIdeal.Frame.lean ====
/-
  The program's run assembled from its four regions, and its frame: from any memory, every weakly fair execution
  terminates without a fault, every buffer that lives across regions ends at the chain's last contents, and in
  particular each of the twelve argument arrays ends as launched (no host stretch writes an argument, and no
  region's result array is an argument).
-/
import proofs.«157507_j81793357185798_2_alg».proof.Proof.Gen.KernelIdeal.Launch
import proofs.«157507_j81793357185798_2_alg».proof.Proof.Gen.KernelIdeal.Skeleton
import proofs.«157507_j81793357185798_2_alg».proof.Proof.Gen.KernelIdeal.Points
import proofs.«157507_j81793357185798_2_alg».proof.Proof.KernelIdeal.Seg0
import proofs.«157507_j81793357185798_2_alg».proof.Proof.KernelIdeal.Seg1
import proofs.«157507_j81793357185798_2_alg».proof.Proof.KernelIdeal.Seg2
import proofs.«157507_j81793357185798_2_alg».proof.Proof.KernelIdeal.Seg3
import proofs.«157507_j81793357185798_2_alg».proof.Proof.KernelIdeal.RunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer that lives across regions ends at the last contents of the chain. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X10 m c b) := by
  have h := run_all (F := F) m (emb₁ (A := UR sig nD τ)) () Variants.none Lz lvz (fun _ _ => rfl) ρ (outs m) (pd m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
  exact (θ_run defs _ _).mono (fun r hr c b hb => (hr c b hb).trans (congrFun (V10_eq m c) b)) h

/-- An argument array is untouched by the whole chain. -/
theorem X10_arg (c : Dev nD) (a : Ref sig .tc) (h : V10 m (outs m) c a = m ((c : Thread nD τ).loc a)) :
    X10 m c a = m ((c : Thread nD τ).loc a) := (congrFun (V10_eq m c) a).symm.trans h

/-- The frame: the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (X10_arg m c main_arg0 (V10_main_arg0 m (outs m) c)),
    (h c _ (mem_uc main_arg1 (by decide))).trans (X10_arg m c main_arg1 (V10_main_arg1 m (outs m) c)),
    (h c _ (mem_uc main_arg2 (by decide))).trans (X10_arg m c main_arg2 (V10_main_arg2 m (outs m) c)),
    (h c _ (mem_uc main_arg3 (by decide))).trans (X10_arg m c main_arg3 (V10_main_arg3 m (outs m) c)),
    (h c _ (mem_uc main_arg4 (by decide))).trans (X10_arg m c main_arg4 (V10_main_arg4 m (outs m) c)),
    (h c _ (mem_uc main_arg5 (by decide))).trans (X10_arg m c main_arg5 (V10_main_arg5 m (outs m) c)),
    (h c _ (mem_uc main_arg6 (by decide))).trans (X10_arg m c main_arg6 (V10_main_arg6 m (outs m) c)),
    (h c _ (mem_uc main_arg7 (by decide))).trans (X10_arg m c main_arg7 (V10_main_arg7 m (outs m) c)),
    (h c _ (mem_uc main_arg8 (by decide))).trans (X10_arg m c main_arg8 (V10_main_arg8 m (outs m) c)),
    (h c _ (mem_uc main_arg9 (by decide))).trans (X10_arg m c main_arg9 (V10_main_arg9 m (outs m) c)),
    (h c _ (mem_uc main_arg10 (by decide))).trans (X10_arg m c main_arg10 (V10_main_arg10 m (outs m) c)),
    (h c _ (mem_uc main_arg11 (by decide))).trans (X10_arg m c main_arg11 (V10_main_arg11 m (outs m) c))⟩)
    (run_main m ρ)

/-- The run with the result named: the result array ends at the chain's last contents of it, and the twelve
    argument arrays end as launched. -/
theorem run_named : θ_run defs (onTc (τ := τ) (main (F := F))) ⟨m, fun _ => 0, ρ⟩ (fun r => ∀ c : Dev nD,
      r.2.mem ((c.tc : Thread nD τ).loc main_v59) = X10 m c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v59 (by decide)),
    (h c _ (mem_uc main_arg0 (by decide))).trans (X10_arg m c main_arg0 (V10_main_arg0 m (outs m) c)),
    (h c _ (mem_uc main_arg1 (by decide))).trans (X10_arg m c main_arg1 (V10_main_arg1 m (outs m) c)),
    (h c _ (mem_uc main_arg2 (by decide))).trans (X10_arg m c main_arg2 (V10_main_arg2 m (outs m) c)),
    (h c _ (mem_uc main_arg3 (by decide))).trans (X10_arg m c main_arg3 (V10_main_arg3 m (outs m) c)),
    (h c _ (mem_uc main_arg4 (by decide))).trans (X10_arg m c main_arg4 (V10_main_arg4 m (outs m) c)),
    (h c _ (mem_uc main_arg5 (by decide))).trans (X10_arg m c main_arg5 (V10_main_arg5 m (outs m) c)),
    (h c _ (mem_uc main_arg6 (by decide))).trans (X10_arg m c main_arg6 (V10_main_arg6 m (outs m) c)),
    (h c _ (mem_uc main_arg7 (by decide))).trans (X10_arg m c main_arg7 (V10_main_arg7 m (outs m) c)),
    (h c _ (mem_uc main_arg8 (by decide))).trans (X10_arg m c main_arg8 (V10_main_arg8 m (outs m) c)),
    (h c _ (mem_uc main_arg9 (by decide))).trans (X10_arg m c main_arg9 (V10_main_arg9 m (outs m) c)),
    (h c _ (mem_uc main_arg10 (by decide))).trans (X10_arg m c main_arg10 (V10_main_arg10 m (outs m) c)),
    (h c _ (mem_uc main_arg11 (by decide))).trans (X10_arg m c main_arg11 (V10_main_arg11 m (outs m) c))⟩)
    (run_main m ρ)

end Cert.KernelIdeal.Fr

end
-- ==== Proof.Spec.lean ====
/-
  The network both programs compute, as functions of whole arrays on the extended reals.

  Rows are the 100000 nodes, columns the 128 features. A linear layer multiplies a row by the TRANSPOSE of its
  weight matrix: entry (r, j) is the sum over k of x[r, k] * W[j, k]. A graph layer takes the neighbour sums
  agg (one row per node), the reciprocal degrees dinv (one number per node), the node features h, two weight
  matrices and a bias: entry (r, j) is (sum_k (agg[r,k] * dinv[r]) * Wl[j,k] + b[j]) + sum_k h[r,k] * Wr[j,k].
  A middle layer clamps that at zero from below and adds a residual array; the last layer divides each row by
  the larger of its Euclidean norm and a small constant. The neighbour-sum operator and the reciprocal degrees
  are parameters here: both programs compute them by the same host operations on the edge list.
-/
import Idealize.ShloMosaic.PureOps.Ideal
import Idealize.ShloMosaic.Lib.ValueIdx

noncomputable section

open scoped BigOperators

namespace Cert.Spec

open Idealize.ShloMosaic Idealize.ShloMosaic.ValueIdx

/-- node features: 100000 rows of 128 -/
abbrev SN : Shape := ⟨2, ![100000, 128]⟩
/-- a weight matrix -/
abbrev SW : Shape := ⟨2, ![128, 128]⟩
/-- a bias vector -/
abbrev SB : Shape := ⟨1, ![128]⟩
/-- one number per node -/
abbrev SD : Shape := ⟨1, ![100000]⟩

/-- the single-precision zero -/
abbrev zeroF : EReal := Ideal.ofBits .f32 0x00000000#32
/-- the small constant under the norm (the single-precision word nearest 1e-12) -/
abbrev epsF : EReal := Ideal.ofBits .f32 0x2B8CBCCC#32

/-- x · Wᵀ at row r, column j. -/
def linAt (x : FVec Ideal SN .f32) (W : FVec Ideal SW .f32) (r : Fin 100000) (j : Fin 128) : EReal :=
  ∑ k : Fin 128, x (ix2 r k) * W (ix2 j k)

/-- x · Wᵀ. -/
def lin (x : FVec Ideal SN .f32) (W : FVec Ideal SW .f32) : FVec Ideal SN .f32 :=
  fun i => linAt x W (i 0) (i 1)

/-- One graph layer before its nonlinearity, at row r, column j. -/
def sageAt (agg : FVec Ideal SN .f32) (dinv : FVec Ideal SD .f32) (h : FVec Ideal SN .f32) (Wl : FVec Ideal SW .f32)
    (b : FVec Ideal SB .f32) (Wr : FVec Ideal SW .f32) (r : Fin 100000) (j : Fin 128) : EReal :=
  ((∑ k : Fin 128, (agg (ix2 r k) * dinv (ix1 r)) * Wl (ix2 j k)) + b (ix1 j)) + ∑ k : Fin 128, h (ix2 r k) * Wr (ix2 j k)

/-- A middle layer: clamp at zero from below, add the residual. -/
def midAt (agg : FVec Ideal SN .f32) (dinv : FVec Ideal SD .f32) (h : FVec Ideal SN .f32) (Wl : FVec Ideal SW .f32)
    (b : FVec Ideal SB .f32) (Wr : FVec Ideal SW .f32) (res : FVec Ideal SN .f32) (r : Fin 100000) (j : Fin 128) : EReal :=
  max (sageAt agg dinv h Wl b Wr r j) zeroF + res (ix2 r j)

def mid (agg : FVec Ideal SN .f32) (dinv : FVec Ideal SD .f32) (h : FVec Ideal SN .f32) (Wl : FVec Ideal SW .f32)
    (b : FVec Ideal SB .f32) (Wr : FVec Ideal SW .f32) (res : FVec Ideal SN .f32) : FVec Ideal SN .f32 :=
  fun i => midAt agg dinv h Wl b Wr res (i 0) (i 1)

/-- The last layer: each row divided by the larger of its norm and the small constant. -/
def finAt (agg : FVec Ideal SN .f32) (dinv : FVec Ideal SD .f32) (h : FVec Ideal SN .f32) (Wl : FVec Ideal SW .f32)
    (b : FVec Ideal SB .f32) (Wr : FVec Ideal SW .f32) (r : Fin 100000) (j : Fin 128) : EReal :=
  Ideal.div (sageAt agg dinv h Wl b Wr r j)
    (max (Ideal.sqrt (∑ q : Fin 128, sageAt agg dinv h Wl b Wr r q * sageAt agg dinv h Wl b Wr r q)) epsF)

def fin (agg : FVec Ideal SN .f32) (dinv : FVec Ideal SD .f32) (h : FVec Ideal SN .f32) (Wl : FVec Ideal SW .f32)
    (b : FVec Ideal SB .f32) (Wr : FVec Ideal SW .f32) : FVec Ideal SN .f32 :=
  fun i => finAt agg dinv h Wl b Wr (i 0) (i 1)

/-- The whole network, the neighbour-sum operator `aggr` and the reciprocal degrees `dinv` given. -/
def net (aggr : FVec Ideal SN .f32 → FVec Ideal SN .f32) (dinv : FVec Ideal SD .f32)
    (x : FVec Ideal SN .f32) (Wp W1l : FVec Ideal SW .f32) (b1 : FVec Ideal SB .f32) (W1r W2l : FVec Ideal SW .f32)
    (b2 : FVec Ideal SB .f32) (W2r W3l : FVec Ideal SW .f32) (b3 : FVec Ideal SB .f32) (W3r : FVec Ideal SW .f32) :
    FVec Ideal SN .f32 :=
  let h0 := lin x Wp
  let h1 := mid (aggr h0) dinv h0 W1l b1 W1r x
  let h2 := mid (aggr h1) dinv h1 W2l b2 W2r h1
  fin (aggr h2) dinv h2 W3l b3 W3r

end Cert.Spec

end
-- ==== Proof.KernelIdeal.KNet.lean ====
/-
  The graph part of the network as the kernel's program computes it on the host, as functions of whole arrays.

  The edge list has two rows of 800000 node numbers: row 0 the sources, row 1 the destinations. The degree of a
  node is the number of edges that end in it; its reciprocal degree is 1 / max(degree, 1) where the degree is
  positive and 0 elsewhere. The neighbour sum of an array of node features adds, for every edge, the source's row
  (a negative source number counted from the end) into the destination's row. Both are kept as the host
  operations compose them and are never opened.
-/
import proofs.«157507_j81793357185798_2_alg».proof.Proof.Gen.KernelIdeal
import Idealize.ShloMosaic.Lib.ValueIdx
import proofs.«157507_j81793357185798_2_alg».proof.Proof.Spec

noncomputable section

namespace Cert.KernelIdeal.KNet

open Cert.KernelIdeal Cert.KernelIdeal.Gen Idealize.ShloMosaic Idealize.ShloMosaic.ValueIdx
open Cert.Spec (SN SW SB SD)

/-- The edges' sources: row 0 of the edge list. -/
def srcs (ei : IVec S2x800000 32) : IVec S800000 32 :=
  shapeCast S800000 (extractStridedSlice S1x800000 ![0, 0] ei slices_S2x800000_S1x800000_0_0) shapeCasts_S1x800000_S800000

/-- The edges' destinations: row 1 of the edge list. -/
def dsts (ei : IVec S2x800000 32) : IVec S800000 32 :=
  shapeCast S800000 (extractStridedSlice S1x800000 ![1, 0] ei slices_S2x800000_S1x800000_1_0) shapeCasts_S1x800000_S800000

/-- The degrees: a one added into each edge's destination, from zeros. -/
def deg (ei : IVec S2x800000 32) : FVec Ideal SD .f32 :=
  Host.scatterAdd (F := Ideal) scatter_S100000_S800000x1_S800000_n_0_0_1
    (broadcastInDim S100000 ![] bcast_S_S100000 (constant (F := Ideal) S_ .f32 0x00000000#32))
    (broadcastInDim S800000x1 ![0] bcast_S800000_S800000x1_0 (dsts ei))
    (broadcastInDim S800000 ![] bcast_S_S800000 (constant (F := Ideal) S_ .f32 0x3F800000#32))

/-- The reciprocal degrees: 1 / max(degree, 1) where the degree is positive, 0 elsewhere. -/
def dinv (ei : IVec S2x800000 32) : FVec Ideal SD .f32 :=
  select
    (cmpf (F := Ideal) .ogt (deg ei) (broadcastInDim S100000 ![] bcast_S_S100000 (constant (F := Ideal) S_ .f32 0x00000000#32)))
    (Host.divf (F := Ideal) (broadcastInDim S100000 ![] bcast_S_S100000 (constant (F := Ideal) S_ .f32 0x3F800000#32))
      (maximumf (F := Ideal) (deg ei) (broadcastInDim S100000 ![] bcast_S_S100000 (constant (F := Ideal) S_ .f32 0x3F800000#32))))
    (broadcastInDim S100000 ![] bcast_S_S100000 (constant (F := Ideal) S_ .f32 0x00000000#32))

/-- The neighbour sums of `h`: for every edge the source's row of `h` (a negative source number has 100000 added)
    added into the destination's row, from zeros. -/
def aggr (ei : IVec S2x800000 32) (h : FVec Ideal SN .f32) : FVec Ideal SN .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 (dsts ei))
    (Host.gather gather_S100000x128_S800000x1_S800000x128_1_0_n_n_0_1_1128 h
      (broadcastInDim S800000x1 ![0] bcast_S800000_S800000x1_0
        (select (cmpi .slt (srcs ei) (broadcastInDim S800000 ![] bcast_S_S800000 (constantI S_ 32 0#32)))
          (addi (srcs ei) (broadcastInDim S800000 ![] bcast_S_S800000 (constantI S_ 32 100000#32)))
          (srcs ei))))

end Cert.KernelIdeal.KNet

end
-- ==== Proof.KernelIdeal.Reads.lean ====
/-
  What the buffers read by the four calls hold when each call is entered, as functions of the program's arguments.

  Before the first call the host computes, from the edge list, the sources and destinations of the edges and the
  reciprocal degrees (kept as a column), and transposes every weight matrix. Between calls it gathers the last
  result along the edges' sources and adds the rows into the edges' destinations (the neighbour sums), and lays
  the next bias out as a row. Nothing else writes these buffers, so each is read back, stretch by stretch, to the
  operations that made it. Each stretch is first read over arbitrary contents; the chain of stretches then composes
  these readings.
-/
import proofs.«157507_j81793357185798_2_alg».proof.Proof.KernelIdeal.Chain
import proofs.«157507_j81793357185798_2_alg».proof.Proof.KernelIdeal.KNet
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo
open Cert.Spec (SN SW SB SD)

/-- The neighbour sums over given sources and destinations of the edges. -/
def aggrSD (s d : IVec S800000 32) (h : FVec Ideal SN .f32) : FVec Ideal SN .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 d)
    (Host.gather gather_S100000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 100000#32)))
          s)))

theorem aggr_eq (ei : IVec S2x800000 32) (h : FVec Ideal SN .f32) :
    KNet.aggr ei h = aggrSD (KNet.srcs ei) (KNet.dsts ei) h := rfl

/-- The reciprocal degrees from the comparison, the quotient and the zero the host computed. -/
def dinvOf (pos : IVec S100000 1) (quot : FVec Ideal SD .f32) (z : FVec Ideal S_ .f32) : FVec Ideal SD .f32 :=
  select pos quot (broadcastInDim S100000 ![] bcast_S_S100000 z)

section Stretches

variable (W : Valuation τ sig (Elt Ideal))

/-! ## Each host stretch over arbitrary contents -/

theorem r0_v1 : StableHlo.after hostOps0 W (Proc.devRef .tc main_v1) = KNet.srcs (W (Proc.devRef .tc main_arg1)) := by
  after_results
  rfl

theorem r0_v3 : StableHlo.after hostOps0 W (Proc.devRef .tc main_v3) = KNet.dsts (W (Proc.devRef .tc main_arg1)) := by
  after_results
  rfl

theorem r0_v9 : StableHlo.after hostOps0 W (Proc.devRef .tc main_v9)
    = cmpf (F := Ideal) .ogt (KNet.deg (W (Proc.devRef .tc main_arg1)))
        (broadcastInDim S100000 ![] bcast_S_S100000 (constant (F := Ideal) S_ .f32 0x00000000#32)) := by
  after_results
  rfl

theorem r0_v13 : StableHlo.after hostOps0 W (Proc.devRef .tc main_v13)
    = Host.divf (F := Ideal) (broadcastInDim S100000 ![] bcast_S_S100000 (constant (F := Ideal) S_ .f32 0x3F800000#32))
        (maximumf (F := Ideal) (KNet.deg (W (Proc.devRef .tc main_arg1)))
          (broadcastInDim S100000 ![] bcast_S_S100000 (constant (F := Ideal) S_ .f32 0x3F800000#32))) := by
  after_results
  rfl

theorem r0_cst4 : StableHlo.after hostOps0 W (Proc.devRef .tc main_cst_4) = constant (F := Ideal) S_ .f32 0x00000000#32 := by
  after_results

theorem r01_v14 : StableHlo.after hostOps0_1 W (Proc.devRef .tc main_v14)
    = dinvOf (W (Proc.devRef .tc main_v9)) (W (Proc.devRef .tc main_v13)) (W (Proc.devRef .tc main_cst_4)) := by
  after_results
  rfl

theorem r02_v15 : StableHlo.after hostOps0_2 W (Proc.devRef .tc main_v15)
    = shapeCast S100000x1 (W (Proc.devRef .tc main_v14)) shapeCasts_S100000_S100000x1 := by
  after_results
  rfl

theorem r02_v16 : StableHlo.after hostOps0_2 W (Proc.devRef .tc main_v16)
    = transpose S128x128 [1, 0] (W (Proc.devRef .tc main_arg2)) transposes_S128x128_S128x128_1_0 := by
  after_results

theorem r02_v17 : StableHlo.after hostOps0_2 W (Proc.devRef .tc main_v17)
    = transpose S128x128 [1, 0] (W (Proc.devRef .tc main_arg3)) transposes_S128x128_S128x128_1_0 := by
  after_results

theorem r02_v18 : StableHlo.after hostOps0_2 W (Proc.devRef .tc main_v18)
    = transpose S128x128 [1, 0] (W (Proc.devRef .tc main_arg5)) transposes_S128x128_S128x128_1_0 := by
  after_results

theorem r02_v19 : StableHlo.after hostOps0_2 W (Proc.devRef .tc main_v19)
    = transpose S128x128 [1, 0] (W (Proc.devRef .tc main_arg6)) transposes_S128x128_S128x128_1_0 := by
  after_results

theorem r02_v20 : StableHlo.after hostOps0_2 W (Proc.devRef .tc main_v20)
    = transpose S128x128 [1, 0] (W (Proc.devRef .tc main_arg8)) transposes_S128x128_S128x128_1_0 := by
  after_results

theorem r02_v21 : StableHlo.after hostOps0_2 W (Proc.devRef .tc main_v21)
    = transpose S128x128 [1, 0] (W (Proc.devRef .tc main_arg9)) transposes_S128x128_S128x128_1_0 := by
  after_results

theorem r02_v22 : StableHlo.after hostOps0_2 W (Proc.devRef .tc main_v22)
    = transpose S128x128 [1, 0] (W (Proc.devRef .tc main_arg11)) transposes_S128x128_S128x128_1_0 := by
  after_results

set_option maxHeartbeats 2000000 in
theorem r1_v33 : StableHlo.after hostOps1 W (Proc.devRef .tc main_v33)
    = aggrSD (W (Proc.devRef .tc main_v1)) (W (Proc.devRef .tc main_v3)) (W (Proc.devRef .tc main_v23)) := by
  after_results_simp
  rfl

theorem r1_v34 : StableHlo.after hostOps1 W (Proc.devRef .tc main_v34)
    = shapeCast S1x128 (W (Proc.devRef .tc main_arg4)) shapeCasts_S128_S1x128 := by
  after_results
  rfl

set_option maxHeartbeats 2000000 in
theorem r2_v45 : StableHlo.after hostOps2 W (Proc.devRef .tc main_v45)
    = aggrSD (W (Proc.devRef .tc main_v1)) (W (Proc.devRef .tc main_v3)) (W (Proc.devRef .tc main_v35)) := by
  after_results_simp
  rfl

theorem r2_v46 : StableHlo.after hostOps2 W (Proc.devRef .tc main_v46)
    = shapeCast S1x128 (W (Proc.devRef .tc main_arg7)) shapeCasts_S128_S1x128 := by
  after_results
  rfl

set_option maxHeartbeats 2000000 in
theorem r3_v57 : StableHlo.after hostOps3 W (Proc.devRef .tc main_v57)
    = aggrSD (W (Proc.devRef .tc main_v1)) (W (Proc.devRef .tc main_v3)) (W (Proc.devRef .tc main_v47)) := by
  after_results_simp
  rfl

theorem r3_v58 : StableHlo.after hostOps3 W (Proc.devRef .tc main_v58)
    = shapeCast S1x128 (W (Proc.devRef .tc main_arg10)) shapeCasts_S128_S1x128 := by
  after_results
  rfl

end Stretches

section Chain

variable (m : (ℓ : Loc nD τ sig) → Buf (Elt Ideal) ℓ) (c : Dev nD)

/-- The edge list as launched. -/
abbrev eiOf : IVec S2x800000 32 := m ((c : Thread nD τ).loc main_arg1)

/-! ## Before the first call -/

theorem V1_v1 : V1 m c main_v1 = KNet.srcs (eiOf m c) := r0_v1 (V0 m c)
theorem V1_v3 : V1 m c main_v3 = KNet.dsts (eiOf m c) := r0_v3 (V0 m c)

/-- The reciprocal degrees, as the second stretch's select leaves them. -/
theorem V2_v14 : V2 m c main_v14 = KNet.dinv (eiOf m c) := by
  refine (r01_v14 (V1 m c)).trans ?_
  have e9 : V1 m c (Proc.devRef .tc main_v9) = _ := r0_v9 (V0 m c)
  have e13 : V1 m c (Proc.devRef .tc main_v13) = _ := r0_v13 (V0 m c)
  have e4 : V1 m c (Proc.devRef .tc main_cst_4) = _ := r0_cst4 (V0 m c)
  rw [e9, e13, e4]
  rfl

theorem V2_arg0 : V2 m c main_arg0 = m ((c : Thread nD τ).loc main_arg0) :=
  (V2_of m c main_arg0 (by decide)).trans ((V1_of m c main_arg0 (by decide)).trans rfl)
theorem V2_arg2 : V2 m c main_arg2 = m ((c : Thread nD τ).loc main_arg2) :=
  (V2_of m c main_arg2 (by decide)).trans ((V1_of m c main_arg2 (by decide)).trans rfl)
theorem V2_arg3 : V2 m c main_arg3 = m ((c : Thread nD τ).loc main_arg3) :=
  (V2_of m c main_arg3 (by decide)).trans ((V1_of m c main_arg3 (by decide)).trans rfl)
theorem V2_arg4 : V2 m c main_arg4 = m ((c : Thread nD τ).loc main_arg4) :=
  (V2_of m c main_arg4 (by decide)).trans ((V1_of m c main_arg4 (by decide)).trans rfl)
theorem V2_arg5 : V2 m c main_arg5 = m ((c : Thread nD τ).loc main_arg5) :=
  (V2_of m c main_arg5 (by decide)).trans ((V1_of m c main_arg5 (by decide)).trans rfl)
theorem V2_arg6 : V2 m c main_arg6 = m ((c : Thread nD τ).loc main_arg6) :=
  (V2_of m c main_arg6 (by decide)).trans ((V1_of m c main_arg6 (by decide)).trans rfl)
theorem V2_arg7 : V2 m c main_arg7 = m ((c : Thread nD τ).loc main_arg7) :=
  (V2_of m c main_arg7 (by decide)).trans ((V1_of m c main_arg7 (by decide)).trans rfl)
theorem V2_arg8 : V2 m c main_arg8 = m ((c : Thread nD τ).loc main_arg8) :=
  (V2_of m c main_arg8 (by decide)).trans ((V1_of m c main_arg8 (by decide)).trans rfl)
theorem V2_arg9 : V2 m c main_arg9 = m ((c : Thread nD τ).loc main_arg9) :=
  (V2_of m c main_arg9 (by decide)).trans ((V1_of m c main_arg9 (by decide)).trans rfl)
theorem V2_arg10 : V2 m c main_arg10 = m ((c : Thread nD τ).loc main_arg10) :=
  (V2_of m c main_arg10 (by decide)).trans ((V1_of m c main_arg10 (by decide)).trans rfl)
theorem V2_arg11 : V2 m c main_arg11 = m ((c : Thread nD τ).loc main_arg11) :=
  (V2_of m c main_arg11 (by decide)).trans ((V1_of m c main_arg11 (by decide)).trans rfl)
theorem V3_arg0 : V3 m c main_arg0 = m ((c : Thread nD τ).loc main_arg0) :=
  (V3_of m c main_arg0 (by decide)).trans (V2_arg0 m c)
theorem V3_arg4 : V3 m c main_arg4 = m ((c : Thread nD τ).loc main_arg4) :=
  (V3_of m c main_arg4 (by decide)).trans (V2_arg4 m c)
theorem V3_arg7 : V3 m c main_arg7 = m ((c : Thread nD τ).loc main_arg7) :=
  (V3_of m c main_arg7 (by decide)).trans (V2_arg7 m c)
theorem V3_arg10 : V3 m c main_arg10 = m ((c : Thread nD τ).loc main_arg10) :=
  (V3_of m c main_arg10 (by decide)).trans (V2_arg10 m c)

theorem V3_v1 : V3 m c main_v1 = KNet.srcs (eiOf m c) :=
  (V3_of m c main_v1 (by decide)).trans ((V2_of m c main_v1 (by decide)).trans (V1_v1 m c))
theorem V3_v3 : V3 m c main_v3 = KNet.dsts (eiOf m c) :=
  (V3_of m c main_v3 (by decide)).trans ((V2_of m c main_v3 (by decide)).trans (V1_v3 m c))

/-- The reciprocal degrees as a column. -/
theorem V3_v15 : V3 m c main_v15 = shapeCast S100000x1 (KNet.dinv (eiOf m c)) shapeCasts_S100000_S100000x1 :=
  (r02_v15 (V2 m c)).trans (congrArg (fun d : FVec Ideal S100000 .f32 => shapeCast S100000x1 d shapeCasts_S100000_S100000x1) (V2_v14 m c))

theorem V3_v16 : V3 m c main_v16
    = transpose S128x128 [1, 0] (m ((c : Thread nD τ).loc main_arg2) : FVec Ideal S128x128 .f32) transposes_S128x128_S128x128_1_0 :=
  (r02_v16 (V2 m c)).trans (congrArg (fun w : FVec Ideal S128x128 .f32 => transpose S128x128 [1, 0] w transposes_S128x128_S128x128_1_0) (V2_arg2 m c))
theorem V3_v17 : V3 m c main_v17
    = transpose S128x128 [1, 0] (m ((c : Thread nD τ).loc main_arg3) : FVec Ideal S128x128 .f32) transposes_S128x128_S128x128_1_0 :=
  (r02_v17 (V2 m c)).trans (congrArg (fun w : FVec Ideal S128x128 .f32 => transpose S128x128 [1, 0] w transposes_S128x128_S128x128_1_0) (V2_arg3 m c))
theorem V3_v18 : V3 m c main_v18
    = transpose S128x128 [1, 0] (m ((c : Thread nD τ).loc main_arg5) : FVec Ideal S128x128 .f32) transposes_S128x128_S128x128_1_0 :=
  (r02_v18 (V2 m c)).trans (congrArg (fun w : FVec Ideal S128x128 .f32 => transpose S128x128 [1, 0] w transposes_S128x128_S128x128_1_0) (V2_arg5 m c))
theorem V3_v19 : V3 m c main_v19
    = transpose S128x128 [1, 0] (m ((c : Thread nD τ).loc main_arg6) : FVec Ideal S128x128 .f32) transposes_S128x128_S128x128_1_0 :=
  (r02_v19 (V2 m c)).trans (congrArg (fun w : FVec Ideal S128x128 .f32 => transpose S128x128 [1, 0] w transposes_S128x128_S128x128_1_0) (V2_arg6 m c))
theorem V3_v20 : V3 m c main_v20
    = transpose S128x128 [1, 0] (m ((c : Thread nD τ).loc main_arg8) : FVec Ideal S128x128 .f32) transposes_S128x128_S128x128_1_0 :=
  (r02_v20 (V2 m c)).trans (congrArg (fun w : FVec Ideal S128x128 .f32 => transpose S128x128 [1, 0] w transposes_S128x128_S128x128_1_0) (V2_arg8 m c))
theorem V3_v21 : V3 m c main_v21
    = transpose S128x128 [1, 0] (m ((c : Thread nD τ).loc main_arg9) : FVec Ideal S128x128 .f32) transposes_S128x128_S128x128_1_0 :=
  (r02_v21 (V2 m c)).trans (congrArg (fun w : FVec Ideal S128x128 .f32 => transpose S128x128 [1, 0] w transposes_S128x128_S128x128_1_0) (V2_arg9 m c))
theorem V3_v22 : V3 m c main_v22
    = transpose S128x128 [1, 0] (m ((c : Thread nD τ).loc main_arg11) : FVec Ideal S128x128 .f32) transposes_S128x128_S128x128_1_0 :=
  (r02_v22 (V2 m c)).trans (congrArg (fun w : FVec Ideal S128x128 .f32 => transpose S128x128 [1, 0] w transposes_S128x128_S128x128_1_0) (V2_arg11 m c))

/-! ## What the later stretches and the calls leave alone -/

theorem X5_of (r : Ref sig .tc) (h : r ∉ hostOps1_W) : X5 m c r = X4 m c r := by
  unfold X5; exact StableHlo.after_of_writes_sub hostOps1 _ hostOps1_writes h
theorem X7_of (r : Ref sig .tc) (h : r ∉ hostOps2_W) : X7 m c r = X6 m c r := by
  unfold X7; exact StableHlo.after_of_writes_sub hostOps2 _ hostOps2_writes h
theorem X9_of (r : Ref sig .tc) (h : r ∉ hostOps3_W) : X9 m c r = X8 m c r := by
  unfold X9; exact StableHlo.after_of_writes_sub hostOps3 _ hostOps3_writes h

theorem X5_V3 (r : Ref sig .tc) (h1 : r ∉ hostOps1_W) (h0 : r ≠ main_v23) : X5 m c r = V3 m c r :=
  (X5_of m c r h1).trans (X4_of m c r h0)
theorem X7_V3 (r : Ref sig .tc) (h2 : r ∉ hostOps2_W) (h35 : r ≠ main_v35) (h1 : r ∉ hostOps1_W) (h0 : r ≠ main_v23) :
    X7 m c r = V3 m c r :=
  (X7_of m c r h2).trans ((X6_of m c r h35).trans (X5_V3 m c r h1 h0))
theorem X9_V3 (r : Ref sig .tc) (h3 : r ∉ hostOps3_W) (h47 : r ≠ main_v47) (h2 : r ∉ hostOps2_W) (h35 : r ≠ main_v35)
    (h1 : r ∉ hostOps1_W) (h0 : r ≠ main_v23) : X9 m c r = V3 m c r :=
  (X9_of m c r h3).trans ((X8_of m c r h47).trans (X7_V3 m c r h2 h35 h1 h0))

/-! ## Between the calls: the neighbour sums of the last result, the next bias as a row -/

theorem X5_v33 : X5 m c main_v33 = KNet.aggr (eiOf m c) (X4 m c main_v23) := by
  unfold X5
  refine (r1_v33 (X4 m c)).trans ?_
  have e1 : X4 m c (Proc.devRef .tc main_v1) = KNet.srcs (eiOf m c) := (X4_of m c main_v1 (by decide)).trans (V3_v1 m c)
  have e3 : X4 m c (Proc.devRef .tc main_v3) = KNet.dsts (eiOf m c) := (X4_of m c main_v3 (by decide)).trans (V3_v3 m c)
  rw [e1, e3]
  rfl

theorem X5_v34 : X5 m c main_v34 = shapeCast S1x128 (m ((c : Thread nD τ).loc main_arg4) : FVec Ideal S128 .f32) shapeCasts_S128_S1x128 := by
  unfold X5
  refine (r1_v34 (X4 m c)).trans ?_
  have e : X4 m c (Proc.devRef .tc main_arg4) = m ((c : Thread nD τ).loc main_arg4) := (X4_of m c main_arg4 (by decide)).trans (V3_arg4 m c)
  rw [e]

theorem X7_v45 : X7 m c main_v45 = KNet.aggr (eiOf m c) (X6 m c main_v35) := by
  unfold X7
  refine (r2_v45 (X6 m c)).trans ?_
  have e1 : X6 m c (Proc.devRef .tc main_v1) = KNet.srcs (eiOf m c) :=
    (X6_of m c main_v1 (by decide)).trans ((X5_V3 m c main_v1 (by decide) (by decide)).trans (V3_v1 m c))
  have e3 : X6 m c (Proc.devRef .tc main_v3) = KNet.dsts (eiOf m c) :=
    (X6_of m c main_v3 (by decide)).trans ((X5_V3 m c main_v3 (by decide) (by decide)).trans (V3_v3 m c))
  rw [e1, e3]
  rfl

theorem X7_v46 : X7 m c main_v46 = shapeCast S1x128 (m ((c : Thread nD τ).loc main_arg7) : FVec Ideal S128 .f32) shapeCasts_S128_S1x128 := by
  unfold X7
  refine (r2_v46 (X6 m c)).trans ?_
  have e : X6 m c (Proc.devRef .tc main_arg7) = m ((c : Thread nD τ).loc main_arg7) :=
    (X6_of m c main_arg7 (by decide)).trans ((X5_V3 m c main_arg7 (by decide) (by decide)).trans (V3_arg7 m c))
  rw [e]

theorem X9_v57 : X9 m c main_v57 = KNet.aggr (eiOf m c) (X8 m c main_v47) := by
  unfold X9
  refine (r3_v57 (X8 m c)).trans ?_
  have e1 : X8 m c (Proc.devRef .tc main_v1) = KNet.srcs (eiOf m c) :=
    (X8_of m c main_v1 (by decide)).trans ((X7_V3 m c main_v1 (by decide) (by decide) (by decide) (by decide)).trans (V3_v1 m c))
  have e3 : X8 m c (Proc.devRef .tc main_v3) = KNet.dsts (eiOf m c) :=
    (X8_of m c main_v3 (by decide)).trans ((X7_V3 m c main_v3 (by decide) (by decide) (by decide) (by decide)).trans (V3_v3 m c))
  rw [e1, e3]
  rfl

theorem X9_v58 : X9 m c main_v58 = shapeCast S1x128 (m ((c : Thread nD τ).loc main_arg10) : FVec Ideal S128 .f32) shapeCasts_S128_S1x128 := by
  unfold X9
  refine (r3_v58 (X8 m c)).trans ?_
  have e : X8 m c (Proc.devRef .tc main_arg10) = m ((c : Thread nD τ).loc main_arg10) :=
    (X8_of m c main_arg10 (by decide)).trans ((X7_V3 m c main_arg10 (by decide) (by decide) (by decide) (by decide)).trans (V3_arg10 m c))
  rw [e]

end Chain

end Cert.KernelIdeal.Val

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibRowCast.lean ====
/-
  A vector of n entries as a one-row matrix, two spellings: the cast of the vector to the shape [1, n], and the
  broadcast of the vector along axis 1 into that shape. Both read the vector's entry q at (0, q).
-/
import Idealize.ShloMosaic.Lib.Pipeline.Value
import Idealize.ShloMosaic.Lib.ValueIdx

namespace Idealize.ShloMosaic.RowCast

open Idealize.ShloMosaic Idealize.ShloMosaic.ValueIdx

/-- The cast of a vector to one row is its broadcast along the row's axis. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have hi : i = ix2 (0 : Fin 1) (i 1 : Fin n) := by
    funext a
    match a with
    | ⟨0, _⟩ => exact Fin.ext (Nat.lt_one_iff.mp (i 0).isLt)
    | ⟨1, _⟩ => rfl
  rw [hi]
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![1] hd x (ix2 (0 : Fin 1) (i 1 : Fin n)) (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast
-- ==== Proof.PayAt.lean ====
/-
  The four kernel bodies' arithmetic, read at one entry of the output block.

  A block is 5000 rows of 128 features. The projection body is the plain matrix product of the block by a
  128 x 128 matrix. A graph-layer body scales each row of the neighbour sums by that row's reciprocal degree,
  multiplies by a matrix, adds a bias row, and adds the product of the node features by a second matrix.
  A middle layer clamps that at zero from below and adds a residual block; the last layer divides each row by
  the larger of its Euclidean norm and a small constant. Every step is exact on the extended reals, so each
  entry is the textbook formula in the block's entries; no finiteness is used.
-/
import proofs.«157507_j81793357185798_2_alg».proof.Proof.Gen.KernelIdeal.Skeleton
import proofs.«157507_j81793357185798_2_alg».proof.Proof.Spec
import proofs.«157507_j81793357185798_2_alg».proof.Proof.LibDotSum
import proofs.«157507_j81793357185798_2_alg».proof.Proof.LibRowOps
import proofs.«157507_j81793357185798_2_alg».proof.Proof.LibRowCast

noncomputable section

open scoped BigOperators

namespace Cert.PayAt

open Idealize.ShloMosaic Idealize.ShloMosaic.ValueIdx
open Cert.KernelIdeal Cert.KernelIdeal.Gen

/-- One graph layer before its nonlinearity, on a block, at row p, column q: the neighbour sums v0 scaled by the
    row's reciprocal degree v2, times the matrix v6, plus the bias row v9, plus the features v13 times the matrix v15.
    Both matrices arrive already transposed, so each product is the plain one. -/
def sageB (v0 : FVec Ideal S5000x128 .f32) (v2 : FVec Ideal S5000x1 .f32) (v6 : FVec Ideal S128x128 .f32)
    (v9 : FVec Ideal S1x128 .f32) (v13 : FVec Ideal S5000x128 .f32) (v15 : FVec Ideal S128x128 .f32)
    (p : Fin 5000) (q : Fin 128) : EReal :=
  ((∑ k : Fin 128, (v0 (ix2 p k) * v2 (ix2 p (0 : Fin 1))) * v6 (ix2 k q)) + v9 (ix2 (0 : Fin 1) q))
    + ∑ k : Fin 128, v13 (ix2 p k) * v15 (ix2 k q)

/-- The same layer as the bodies compute it, on whole blocks: the three graph-layer bodies share this prefix. -/
def sageV (v0 : FVec Ideal S5000x128 .f32) (v2 : FVec Ideal S5000x1 .f32) (v6 : FVec Ideal S128x128 .f32)
    (v9 : FVec Ideal S1x128 .f32) (v13 : FVec Ideal S5000x128 .f32) (v15 : FVec Ideal S128x128 .f32) :
    FVec Ideal S5000x128 .f32 :=
  addf
    (addf
      (matmul dot_S5000x128_S128x128_S5000x128_1_0_0_1_n_n none
        (mulf (shapeCast S5000x128 v0 shapeCasts_S5000x128_S5000x128)
          (broadcastTo S5000x128 (shapeCast S5000x1 v2 shapeCasts_S5000x1_S5000x1) broadcasts_S5000x1_S5000x128))
        (shapeCast S128x128 v6 shapeCasts_S128x128_S128x128) (constant S5000x128 .f32 0x00000000#32))
      (broadcastTo S5000x128 (shapeCast S1x128 v9 shapeCasts_S1x128_S1x128) broadcasts_S1x128_S5000x128))
    (matmul dot_S5000x128_S128x128_S5000x128_1_0_0_1_n_n none
      (shapeCast S5000x128 v13 shapeCasts_S5000x128_S5000x128)
      (shapeCast S128x128 v15 shapeCasts_S128x128_S128x128) (constant S5000x128 .f32 0x00000000#32))

variable (v0 : FVec Ideal S5000x128 .f32) (v1 : FVec Ideal S128x128 .f32) (v2 : FVec Ideal S5000x1 .f32)
  (v6 : FVec Ideal S128x128 .f32) (v9 : FVec Ideal S1x128 .f32) (v13 : FVec Ideal S5000x128 .f32)
  (v15 : FVec Ideal S128x128 .f32) (v21 : FVec Ideal S5000x128 .f32) (p : Fin 5000) (q : Fin 128)

/-- The block's product with a 128 x 128 matrix, accumulated into zeros, at an entry: the sum over the shared axis. -/
theorem mm_at (A : FVec Ideal S5000x128 .f32) (B : FVec Ideal S128x128 .f32) :
    matmul dot_S5000x128_S128x128_S5000x128_1_0_0_1_n_n none A B (constant S5000x128 .f32 0x00000000#32) (ix2 p q)
      = ∑ k : Fin 128, A (ix2 p k) * B (ix2 k q) :=
  Cert.Lib.RowOps.matmul_plain_zero_apply none A B p q

/-- The shared prefix at an entry is the layer's formula. -/
theorem sageV_at : sageV v0 v2 v6 v9 v13 v15 (ix2 p q) = sageB v0 v2 v6 v9 v13 v15 p q := by
  unfold sageV sageB
  simp only [shapeCast_self]
  rw [addf_apply, addf_apply, mm_at, mm_at, broadcastTo_1b_ab_apply]
  simp only [mulf_apply, Cert.Lib.RowOps.broadcastTo_a1_ab_apply]

/-- The projection body: one identity cast and one product. -/
theorem pay0_at : k0_pay1 (F := Ideal) v0 v1 (ix2 p q) = ∑ k : Fin 128, v0 (ix2 p k) * v1 (ix2 k q) := by
  unfold k0_pay1
  rw [shapeCast_self]
  exact mm_at p q v0 v1

theorem k1_eq : k1_pay1 (F := Ideal) v0 v2 v6 v9 v13 v15 v21
    = addf (maximumf (sageV v0 v2 v6 v9 v13 v15) (broadcast S5000x128 (Scalar.ofBits (F := Ideal) .f32 0x00000000#32))) v21 := rfl

theorem pay1_at : k1_pay1 (F := Ideal) v0 v2 v6 v9 v13 v15 v21 (ix2 p q)
    = max (sageB v0 v2 v6 v9 v13 v15 p q) Cert.Spec.zeroF + v21 (ix2 p q) := by
  rw [k1_eq, addf_apply, maximumf_apply, broadcast_apply, sageV_at]
  rfl

theorem k2_eq : k2_pay1 (F := Ideal) v0 v2 v6 v9 v13 v15 v21
    = addf (maximumf (sageV v0 v2 v6 v9 v13 v15) (broadcast S5000x128 (Scalar.ofBits (F := Ideal) .f32 0x00000000#32)))
        (shapeCast S5000x128 v21 shapeCasts_S5000x128_S5000x128) := rfl

theorem pay2_at : k2_pay1 (F := Ideal) v0 v2 v6 v9 v13 v15 v21 (ix2 p q)
    = max (sageB v0 v2 v6 v9 v13 v15 p q) Cert.Spec.zeroF + v21 (ix2 p q) := by
  rw [k2_eq, shapeCast_self, addf_apply, maximumf_apply, broadcast_apply, sageV_at]
  rfl

theorem k3_eq : k3_pay1 (F := Ideal) v0 v2 v6 v9 v13 v15
    = divf (sageV v0 v2 v6 v9 v13 v15)
        (broadcastTo S5000x128
          (maximumf
            (sqrt (shapeCast S5000x1
              (multiReduction .add [1] S5000 (mulf (sageV v0 v2 v6 v9 v13 v15) (sageV v0 v2 v6 v9 v13 v15)) 0x00000000#32
                reduces_S5000x128_S5000 (.inl rfl) rfl) shapeCasts_S5000_S5000x1))
            (broadcast S5000x1 (Scalar.ofBits (F := Ideal) .f32 0x2B8CBCCC#32)))
          broadcasts_S5000x1_S5000x128) := rfl

/-- The squared norm of a row of the layer, as the body sums it. -/
theorem rowSq_at : shapeCast S5000x1
      (multiReduction .add [1] S5000 (mulf (sageV v0 v2 v6 v9 v13 v15) (sageV v0 v2 v6 v9 v13 v15)) 0x00000000#32
        reduces_S5000x128_S5000 (.inl rfl) rfl) shapeCasts_S5000_S5000x1 (ix2 p (0 : Fin 1))
    = ∑ q' : Fin 128, sageB v0 v2 v6 v9 v13 v15 p q' * sageB v0 v2 v6 v9 v13 v15 p q' := by
  refine (Cert.Lib.RowOps.shapeCast_a_a1_apply _ shapeCasts_S5000_S5000x1 p (0 : Fin 1)).trans ?_
  refine (Cert.Lib.RowOps.rowSum_f32_apply _ reduces_S5000x128_S5000 (.inl rfl) rfl p).trans ?_
  exact Finset.sum_congr rfl fun q' _ => by rw [mulf_apply, sageV_at]

theorem pay3_at : k3_pay1 (F := Ideal) v0 v2 v6 v9 v13 v15 (ix2 p q)
    = Ideal.div (sageB v0 v2 v6 v9 v13 v15 p q)
        (max (Ideal.sqrt (∑ q' : Fin 128, sageB v0 v2 v6 v9 v13 v15 p q' * sageB v0 v2 v6 v9 v13 v15 p q')) Cert.Spec.epsF) := by
  rw [k3_eq, divf_apply, sageV_at, Cert.Lib.RowOps.broadcastTo_a1_ab_apply, maximumf_apply, broadcast_apply]
  show Ideal.div _ (max (Ideal.sqrt (shapeCast S5000x1 _ shapeCasts_S5000_S5000x1 (ix2 p (0 : Fin 1)))) _) = _
  rw [rowSq_at]
  rfl

end Cert.PayAt

end
-- ==== Proof.KSpec.lean ====
/-
  The network's layers as functions of whole arrays, in the layout the kernel's calls receive them: the
  reciprocal degrees as a column (100000 x 1), a bias as a row (1 x 128), and each weight matrix already
  transposed, so that a linear layer is the plain product: entry (r, j) is the sum over k of x[r, k] * Wt[k, j].
  Each function here equals the corresponding one of the common specification once the column, the row and the
  transposed matrices are read back as the vector, the vector and the matrices they came from.
-/
import Idealize.ShloMosaic.PureOps.Ideal
import Idealize.ShloMosaic.Lib.ValueIdx
import proofs.«157507_j81793357185798_2_alg».proof.Proof.Spec

noncomputable section

open scoped BigOperators

namespace Cert.KSpec

open Idealize.ShloMosaic Idealize.ShloMosaic.ValueIdx
open Cert.Spec

/-- one number per node, as a column -/
abbrev SC : Shape := ⟨2, ![100000, 1]⟩
/-- a bias, as a row -/
abbrev SR : Shape := ⟨2, ![1, 128]⟩

/-- x · Wt at row r, column j. -/
def linTAt (x : FVec Ideal SN .f32) (wt : FVec Ideal SW .f32) (r : Fin 100000) (j : Fin 128) : EReal :=
  ∑ k : Fin 128, x (ix2 r k) * wt (ix2 k j)

/-- x · Wt. -/
def linT (x : FVec Ideal SN .f32) (wt : FVec Ideal SW .f32) : FVec Ideal SN .f32 :=
  fun i => linTAt x wt (i 0) (i 1)

/-- One graph layer before its nonlinearity, at row r, column j. -/
def sageT (agg : FVec Ideal SN .f32) (dcol : FVec Ideal SC .f32) (h : FVec Ideal SN .f32) (wlt : FVec Ideal SW .f32)
    (brow : FVec Ideal SR .f32) (wrt : FVec Ideal SW .f32) (r : Fin 100000) (j : Fin 128) : EReal :=
  ((∑ k : Fin 128, (agg (ix2 r k) * dcol (ix2 r (0 : Fin 1))) * wlt (ix2 k j)) + brow (ix2 (0 : Fin 1) j))
    + ∑ k : Fin 128, h (ix2 r k) * wrt (ix2 k j)

/-- A middle layer: clamp at zero from below, add the residual. -/
def midTAt (agg : FVec Ideal SN .f32) (dcol : FVec Ideal SC .f32) (h : FVec Ideal SN .f32) (wlt : FVec Ideal SW .f32)
    (brow : FVec Ideal SR .f32) (wrt : FVec Ideal SW .f32) (res : FVec Ideal SN .f32) (r : Fin 100000) (j : Fin 128) : EReal :=
  max (sageT agg dcol h wlt brow wrt r j) zeroF + res (ix2 r j)

def midT (agg : FVec Ideal SN .f32) (dcol : FVec Ideal SC .f32) (h : FVec Ideal SN .f32) (wlt : FVec Ideal SW .f32)
    (brow : FVec Ideal SR .f32) (wrt : FVec Ideal SW .f32) (res : FVec Ideal SN .f32) : FVec Ideal SN .f32 :=
  fun i => midTAt agg dcol h wlt brow wrt res (i 0) (i 1)

/-- The last layer: each row divided by the larger of its norm and the small constant. -/
def finTAt (agg : FVec Ideal SN .f32) (dcol : FVec Ideal SC .f32) (h : FVec Ideal SN .f32) (wlt : FVec Ideal SW .f32)
    (brow : FVec Ideal SR .f32) (wrt : FVec Ideal SW .f32) (r : Fin 100000) (j : Fin 128) : EReal :=
  Ideal.div (sageT agg dcol h wlt brow wrt r j)
    (max (Ideal.sqrt (∑ q : Fin 128, sageT agg dcol h wlt brow wrt r q * sageT agg dcol h wlt brow wrt r q)) epsF)

def finT (agg : FVec Ideal SN .f32) (dcol : FVec Ideal SC .f32) (h : FVec Ideal SN .f32) (wlt : FVec Ideal SW .f32)
    (brow : FVec Ideal SR .f32) (wrt : FVec Ideal SW .f32) : FVec Ideal SN .f32 :=
  fun i => finTAt agg dcol h wlt brow wrt (i 0) (i 1)

theorem linT_apply (x : FVec Ideal SN .f32) (wt : FVec Ideal SW .f32) (r : Fin 100000) (j : Fin 128) :
    linT x wt (ix2 r j) = ∑ k : Fin 128, x (ix2 r k) * wt (ix2 k j) := rfl

theorem midT_apply (agg : FVec Ideal SN .f32) (dcol : FVec Ideal SC .f32) (h : FVec Ideal SN .f32) (wlt : FVec Ideal SW .f32)
    (brow : FVec Ideal SR .f32) (wrt : FVec Ideal SW .f32) (res : FVec Ideal SN .f32) (r : Fin 100000) (j : Fin 128) :
    midT agg dcol h wlt brow wrt res (ix2 r j) = max (sageT agg dcol h wlt brow wrt r j) zeroF + res (ix2 r j) := rfl

theorem finT_apply (agg : FVec Ideal SN .f32) (dcol : FVec Ideal SC .f32) (h : FVec Ideal SN .f32) (wlt : FVec Ideal SW .f32)
    (brow : FVec Ideal SR .f32) (wrt : FVec Ideal SW .f32) (r : Fin 100000) (j : Fin 128) :
    finT agg dcol h wlt brow wrt (ix2 r j) = Ideal.div (sageT agg dcol h wlt brow wrt r j)
      (max (Ideal.sqrt (∑ q : Fin 128, sageT agg dcol h wlt brow wrt r q * sageT agg dcol h wlt brow wrt r q)) epsF) := rfl

/-! ## Back to the common specification -/

section Bridge

variable (x agg h res : FVec Ideal SN .f32) (dcol : FVec Ideal SC .f32) (d : FVec Ideal SD .f32)
  (wt wlt wrt W Wl Wr : FVec Ideal SW .f32) (brow : FVec Ideal SR .f32) (b : FVec Ideal SB .f32)

/-- A product by a transposed matrix is the specification's product by the matrix. -/
theorem linT_eq (hw : ∀ (k j : Fin 128), wt (ix2 k j) = W (ix2 j k)) : linT x wt = lin x W := by
  funext i
  show ∑ k : Fin 128, x (ix2 (i 0) k) * wt (ix2 k (i 1)) = ∑ k : Fin 128, x (ix2 (i 0) k) * W (ix2 (i 1) k)
  exact Finset.sum_congr rfl fun k _ => by rw [hw k (i 1)]

/-- The layer before its nonlinearity, entry by entry. -/
theorem sageT_eq (hd : ∀ r : Fin 100000, dcol (ix2 r (0 : Fin 1)) = d (ix1 r)) (hb : ∀ j : Fin 128, brow (ix2 (0 : Fin 1) j) = b (ix1 j))
    (hl : ∀ (k j : Fin 128), wlt (ix2 k j) = Wl (ix2 j k)) (hr : ∀ (k j : Fin 128), wrt (ix2 k j) = Wr (ix2 j k))
    (r : Fin 100000) (j : Fin 128) : sageT agg dcol h wlt brow wrt r j = sageAt agg d h Wl b Wr r j := by
  unfold sageT sageAt
  rw [hd r, hb j]
  refine congrArg₂ (· + ·) (congrArg (· + b (ix1 j)) (Finset.sum_congr rfl fun k _ => by rw [hl k j])) ?_
  exact Finset.sum_congr rfl fun k _ => by rw [hr k j]

theorem midT_eq (hd : ∀ r : Fin 100000, dcol (ix2 r (0 : Fin 1)) = d (ix1 r)) (hb : ∀ j : Fin 128, brow (ix2 (0 : Fin 1) j) = b (ix1 j))
    (hl : ∀ (k j : Fin 128), wlt (ix2 k j) = Wl (ix2 j k)) (hr : ∀ (k j : Fin 128), wrt (ix2 k j) = Wr (ix2 j k)) :
    midT agg dcol h wlt brow wrt res = mid agg d h Wl b Wr res := by
  funext i
  show max (sageT agg dcol h wlt brow wrt (i 0) (i 1)) zeroF + res (ix2 (i 0) (i 1))
    = max (sageAt agg d h Wl b Wr (i 0) (i 1)) zeroF + res (ix2 (i 0) (i 1))
  rw [sageT_eq agg h dcol d wlt wrt Wl Wr brow b hd hb hl hr (i 0) (i 1)]

theorem finT_eq (hd : ∀ r : Fin 100000, dcol (ix2 r (0 : Fin 1)) = d (ix1 r)) (hb : ∀ j : Fin 128, brow (ix2 (0 : Fin 1) j) = b (ix1 j))
    (hl : ∀ (k j : Fin 128), wlt (ix2 k j) = Wl (ix2 j k)) (hr : ∀ (k j : Fin 128), wrt (ix2 k j) = Wr (ix2 j k)) :
    finT agg dcol h wlt brow wrt = fin agg d h Wl b Wr := by
  funext i
  show Ideal.div (sageT agg dcol h wlt brow wrt (i 0) (i 1))
      (max (Ideal.sqrt (∑ q : Fin 128, sageT agg dcol h wlt brow wrt (i 0) q * sageT agg dcol h wlt brow wrt (i 0) q)) epsF)
    = Ideal.div (sageAt agg d h Wl b Wr (i 0) (i 1))
      (max (Ideal.sqrt (∑ q : Fin 128, sageAt agg d h Wl b Wr (i 0) q * sageAt agg d h Wl b Wr (i 0) q)) epsF)
  have e : ∀ q : Fin 128, sageT agg dcol h wlt brow wrt (i 0) q = sageAt agg d h Wl b Wr (i 0) q :=
    fun q => sageT_eq agg h dcol d wlt wrt Wl Wr brow b hd hb hl hr (i 0) q
  rw [e (i 1)]
  refine congrArg (fun s => Ideal.div _ (max (Ideal.sqrt s) epsF)) ?_
  exact Finset.sum_congr rfl fun q _ => by rw [e q]

end Bridge

end Cert.KSpec

end
-- ==== Proof.KernelIdeal.Val0.lean ====
/-
  The first call's result array after all 20 grid points: the plain product of the feature array by the
  transposed weight matrix, as one function of the two arrays the region found.

  Point t stages rows 5000·t … 5000·t + 4999 of the features and the whole matrix, and writes back the same
  rows of the result. So entry (p, q) of the block point t writes back is entry (5000·t + p, q) of the whole
  product, and row r of the result is written by point r / 5000; the twenty blocks tile the array.
-/
import proofs.«157507_j81793357185798_2_alg».proof.Proof.KernelIdeal.R0
import proofs.«157507_j81793357185798_2_alg».proof.Proof.PayAt
import proofs.«157507_j81793357185798_2_alg».proof.Proof.KSpec
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' index maps at every grid point: the row windows sit at block t, the matrix at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000·t + p of the feature array. -/
theorem blk0_0_at (c : Dev nD) (t : Fin cfg0.N) (p : Fin 5000) (k : Fin 128) (r : Fin 100000) (hr : r.val = 5000 * t.val + p.val) :
    (blk0 V c 0 t : Vec Ideal S5000x128 .f32) (ix2 p k) = (V c main_arg0 : S100000x128.Idx → Elt Ideal .f32) (ix2 r k) := by
  unfold blk0
  rw [View.read_apply]
  show V c main_arg0 _ = V c main_arg0 _
  congr 1
  funext a
  apply Fin.ext
  obtain ⟨e0, e1, -⟩ := idx_facts0 t
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The matrix block at every point is the whole matrix. -/
theorem blk0_1_at (c : Dev nD) (t : Fin cfg0.N) (k q : Fin 128) :
    (blk0 V c 1 t : Vec Ideal S128x128 .f32) (ix2 k q) = (V c main_v16 : S128x128.Idx → Elt Ideal .f32) (ix2 k q) := by
  unfold blk0
  rw [View.read_apply]
  show V c main_v16 _ = V c main_v16 _
  congr 1
  funext a
  apply Fin.ext
  obtain ⟨-, -, e2, e3, -⟩ := idx_facts0 t
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What the body computes at entry (p, q) of point t's block is entry (5000·t + p, q) of the whole product. -/
theorem out0_at (c : Dev nD) (t : Fin cfg0.N) (p : Fin 5000) (q : Fin 128) (r : Fin 100000) (hr : r.val = 5000 * t.val + p.val) :
    k0_pay1 (F := Ideal) (blk0 V c 0 t) (blk0 V c 1 t) (ix2 p q)
      = Cert.KSpec.linT (V c main_arg0) (V c main_v16) (ix2 r q) := by
  refine (Cert.PayAt.pay0_at (blk0 V c 0 t) (blk0 V c 1 t) p q).trans ?_
  refine (Finset.sum_congr rfl fun k _ => ?_).trans (Cert.KSpec.linT_apply (V c main_arg0) (V c main_v16) r q).symm
  exact congrArg₂ (· * ·) (blk0_0_at V c t p k r hr) (blk0_1_at V c t k q)

/-- What point t writes back is block t of the whole product. -/
theorem flushed0_eq (c : Dev nD) (t : Fin cfg0.N) :
    (dat0 (F := Ideal) V c).flushed 2 t
      = ((cfg0.win 2).blk t).view.read (Elt Ideal) (Cert.KSpec.linT (V c main_arg0) (V c main_v16)) := by
  show (cfg0.win 2).cut (grid0.coords t) ((dat0 V c).after 2 t) = _
  rw [dat0_after2]
  unfold out0
  rw [View.canon_unit_zero hz0]
  simp only [View.ld_unit_zero (S := S5000x128) hz0, View.ld_unit_zero (S := S128x128) hz0]
  funext j
  have hN : cfg0.N = 20 := N_0
  have ht : t.val < 20 := hN ▸ t.isLt
  have hj0 : (j 0).val < 5000 := (j 0).isLt
  have hj1 : (j 1).val < 128 := (j 1).isLt
  obtain ⟨-, -, -, -, e4, e5⟩ := idx_facts0 t
  have e1 : (cfg0.win 2).xinj (grid0.coords t) j = ix2 (⟨(j 0).val, hj0⟩ : Fin 5000) (⟨(j 1).val, hj1⟩ : Fin 128) :=
    funext fun a => by
      match a with
      | ⟨0, _⟩ => rfl
      | ⟨1, _⟩ => rfl
  have e2 : ((cfg0.win 2).blk t).view.emb j
      = ix2 (⟨5000 * t.val + (j 0).val, by omega⟩ : Fin 100000) (⟨(j 1).val, hj1⟩ : Fin 128) :=
    funext fun a => Fin.ext (by
      match a with
      | ⟨0, _⟩ => show win0_2.index t (0 : Fin 2) * 5000 + 1 * (j 0).val = 5000 * t.val + (j 0).val; rw [e4]; omega
      | ⟨1, _⟩ => show win0_2.index t (1 : Fin 2) * 128 + 1 * (j 1).val = (j 1).val; rw [e5]; omega)
  show k0_pay1 (F := Ideal) (blk0 V c 0 t) (blk0 V c 1 t) ((cfg0.win 2).xinj (grid0.coords t) j)
    = Cert.KSpec.linT (V c main_arg0) (V c main_v16) (((cfg0.win 2).blk t).view.emb j)
  exact (congrArg (k0_pay1 (F := Ideal) (blk0 V c 0 t) (blk0 V c 1 t)) e1).trans
    ((out0_at V c t ⟨(j 0).val, hj0⟩ ⟨(j 1).val, hj1⟩ ⟨5000 * t.val + (j 0).val, by omega⟩ rfl).trans
      (congrArg (Cert.KSpec.linT (V c main_arg0) (V c main_v16)) e2.symm))

/-- An index of the result array is in point t's block iff each coordinate is in the block's range on its axis. -/
theorem mem_blk0 (t : Fin cfg0.N) (i : S100000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Row r of the result is in the block of point r / 5000: the twenty blocks tile the array. -/
theorem cover0_arr (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by omega⟩, flush0_2 _, ?_⟩
  rw [mem_blk0]
  obtain ⟨-, -, -, -, e4, e5⟩ := idx_facts0 ⟨(i 0).val / 5000, by omega⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e5]
    omega

/-- The result array after the region: the whole product. -/
theorem final0 (c : Dev nD) :
    (dat0 (F := Ideal) V c).arrAt 2 cfg0.N = Cert.KSpec.linT (V c main_arg0) (V c main_v16) :=
  (dat0 (F := Ideal) V c).arrAt_eq_of_cover 2 (Cert.KSpec.linT (V c main_arg0) (V c main_v16))
    (fun t _ => flushed0_eq V c t) cover0_arr

end Cert.KernelIdeal.Val

end
-- ==== Proof.KernelIdeal.Val1.lean ====
/-
  The second call's result array after all 20 grid points: the first middle layer of the network, as one function of the seven arrays the region found.

  Point t stages rows 5000·t … 5000·t + 4999 of each row-indexed array (the neighbour sums, the reciprocal
  degrees, the node features, the residual) and the whole of each matrix and of the bias row, and writes back the same
  rows of the result. So entry (p, q) of the block point t writes back is entry (5000·t + p, q) of the whole
  layer, and row r of the result is written by point r / 5000; the twenty blocks tile the array.
-/
import proofs.«157507_j81793357185798_2_alg».proof.Proof.KernelIdeal.R1
import proofs.«157507_j81793357185798_2_alg».proof.Proof.PayAt
import proofs.«157507_j81793357185798_2_alg».proof.Proof.KSpec
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' index maps at every grid point: the row-indexed windows sit at block t, the others at block 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- Row p of window 0's block at point t is row 5000·t + p of its array. -/
theorem blk1_0_at (c : Dev nD) (t : Fin cfg1.N) (p : Fin 5000) (k : Fin 128) (r : Fin 100000) (hr : r.val = 5000 * t.val + p.val) :
    (blk1 V c 0 t : Vec Ideal S5000x128 .f32) (ix2 p k) = (V c main_v33 : S100000x128.Idx → Elt Ideal .f32) (ix2 r k) := by
  unfold blk1
  rw [View.read_apply]
  show V c main_v33 _ = V c main_v33 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_0.index t (0 : Fin 2) * 5000 + 1 * p.val = r.val; rw [f0a, hr]; omega
  | ⟨1, _⟩ => show win1_0.index t (1 : Fin 2) * 128 + 1 * k.val = k.val; rw [f0b]; omega

/-- Row p of window 2's block at point t is row 5000·t + p of its array. -/
theorem blk1_2_at (c : Dev nD) (t : Fin cfg1.N) (p : Fin 5000) (k : Fin 128) (r : Fin 100000) (hr : r.val = 5000 * t.val + p.val) :
    (blk1 V c 2 t : Vec Ideal S5000x128 .f32) (ix2 p k) = (V c main_v23 : S100000x128.Idx → Elt Ideal .f32) (ix2 r k) := by
  unfold blk1
  rw [View.read_apply]
  show V c main_v23 _ = V c main_v23 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_2.index t (0 : Fin 2) * 5000 + 1 * p.val = r.val; rw [f2a, hr]; omega
  | ⟨1, _⟩ => show win1_2.index t (1 : Fin 2) * 128 + 1 * k.val = k.val; rw [f2b]; omega

/-- Row p of window 6's block at point t is row 5000·t + p of its array. -/
theorem blk1_6_at (c : Dev nD) (t : Fin cfg1.N) (p : Fin 5000) (k : Fin 128) (r : Fin 100000) (hr : r.val = 5000 * t.val + p.val) :
    (blk1 V c 6 t : Vec Ideal S5000x128 .f32) (ix2 p k) = (V c main_arg0 : S100000x128.Idx → Elt Ideal .f32) (ix2 r k) := by
  unfold blk1
  rw [View.read_apply]
  show V c main_arg0 _ = V c main_arg0 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_6.index t (0 : Fin 2) * 5000 + 1 * p.val = r.val; rw [f6a, hr]; omega
  | ⟨1, _⟩ => show win1_6.index t (1 : Fin 2) * 128 + 1 * k.val = k.val; rw [f6b]; omega

/-- Entry p of the reciprocal-degree block at point t is entry 5000·t + p of the column. -/
theorem blk1_1_at (c : Dev nD) (t : Fin cfg1.N) (p : Fin 5000) (u : Fin 1) (r : Fin 100000) (hr : r.val = 5000 * t.val + p.val) :
    (blk1 V c 1 t : Vec Ideal S5000x1 .f32) (ix2 p u) = (V c main_v15 : S100000x1.Idx → Elt Ideal .f32) (ix2 r u) := by
  unfold blk1
  rw [View.read_apply]
  show V c main_v15 _ = V c main_v15 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_1.index t (0 : Fin 2) * 5000 + 1 * p.val = r.val; rw [f1a, hr]; omega
  | ⟨1, _⟩ => show win1_1.index t (1 : Fin 2) * 1 + 1 * u.val = u.val; rw [f1b]; omega

/-- Window 3's block at every point is its whole matrix. -/
theorem blk1_3_at (c : Dev nD) (t : Fin cfg1.N) (k q : Fin 128) :
    (blk1 V c 3 t : Vec Ideal S128x128 .f32) (ix2 k q) = (V c main_v17 : S128x128.Idx → Elt Ideal .f32) (ix2 k q) := by
  unfold blk1
  rw [View.read_apply]
  show V c main_v17 _ = V c main_v17 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_3.index t (0 : Fin 2) * 128 + 1 * k.val = k.val; rw [f3a]; omega
  | ⟨1, _⟩ => show win1_3.index t (1 : Fin 2) * 128 + 1 * q.val = q.val; rw [f3b]; omega

/-- Window 5's block at every point is its whole matrix. -/
theorem blk1_5_at (c : Dev nD) (t : Fin cfg1.N) (k q : Fin 128) :
    (blk1 V c 5 t : Vec Ideal S128x128 .f32) (ix2 k q) = (V c main_v18 : S128x128.Idx → Elt Ideal .f32) (ix2 k q) := by
  unfold blk1
  rw [View.read_apply]
  show V c main_v18 _ = V c main_v18 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_5.index t (0 : Fin 2) * 128 + 1 * k.val = k.val; rw [f5a]; omega
  | ⟨1, _⟩ => show win1_5.index t (1 : Fin 2) * 128 + 1 * q.val = q.val; rw [f5b]; omega

/-- The bias block at every point is the whole row. -/
theorem blk1_4_at (c : Dev nD) (t : Fin cfg1.N) (u : Fin 1) (q : Fin 128) :
    (blk1 V c 4 t : Vec Ideal S1x128 .f32) (ix2 u q) = (V c main_v34 : S1x128.Idx → Elt Ideal .f32) (ix2 u q) := by
  unfold blk1
  rw [View.read_apply]
  show V c main_v34 _ = V c main_v34 _
  congr 1
  funext ax
  apply Fin.ext
  obtain ⟨f0a, f0b, f1a, f1b, f2a, f2b, f3a, f3b, f4a, f4b, f5a, f5b, f6a, f6b, f7a, f7b⟩ := idx_facts1 t
  match ax with
  | ⟨0, _⟩ => show win1_4.index t (0 : Fin 2) * 1 + 1 * u.val = u.val; rw [f4a]; omega
  | ⟨1, _⟩ => show win1_4.index t (1 : Fin 2) * 128 + 1 * q.val = q.val; rw [f4b]; omega

/-- The layer before its nonlinearity on point t's blocks, at (p, q), is the whole-array layer at (5000·t + p, q). -/
theorem sage1_at (c : Dev nD) (t : Fin cfg1.N) (p : Fin 5000) (q : Fin 128) (r : Fin 100000) (hr : r.val = 5000 * t.val + p.val) :
    Cert.PayAt.sageB (blk1 V c 0 t) (blk1 V c 1 t) (blk1 V c 3 t) (blk1 V c 4 t) (blk1 V c 2 t) (blk1 V c 5 t) p q
      = Cert.KSpec.sageT (V c main_v33) (V c main_v15) (V c main_v23) (V c main_v17) (V c main_v34) (V c main_v18) r q := by
  unfold Cert.PayAt.sageB Cert.KSpec.sageT
  refine congrArg₂ (· + ·) (congrArg₂ (· + ·) (Finset.sum_congr rfl fun k _ => ?_) (blk1_4_at V c t (0 : Fin 1) q))
    (Finset.sum_congr rfl fun k _ => ?_)
  · exact congrArg₂ (· * ·) (congrArg₂ (· * ·) (blk1_0_at V c t p k r hr) (blk1_1_at V c t p (0 : Fin 1) r hr)) (blk1_3_at V c t k q)
  · exact congrArg₂ (· * ·) (blk1_2_at V c t p k r hr) (blk1_5_at V c t k q)

/-- What the body computes at entry (p, q) of point t's block is entry (5000·t + p, q) of the whole layer. -/
theorem out1_at (c : Dev nD) (t : Fin cfg1.N) (p : Fin 5000) (q : Fin 128) (r : Fin 100000) (hr : r.val = 5000 * t.val + p.val) :
    k1_pay1 (F := Ideal) (blk1 V c 0 t) (blk1 V c 1 t) (blk1 V c 3 t) (blk1 V c 4 t) (blk1 V c 2 t) (blk1 V c 5 t) (blk1 V c 6 t) (ix2 p q)
      = Cert.KSpec.midT (V c main_v33) (V c main_v15) (V c main_v23) (V c main_v17) (V c main_v34) (V c main_v18) (V c main_arg0) (ix2 r q) := by
  refine (Cert.PayAt.pay1_at (blk1 V c 0 t) (blk1 V c 1 t) (blk1 V c 3 t) (blk1 V c 4 t) (blk1 V c 2 t) (blk1 V c 5 t) (blk1 V c 6 t) p q).trans ?_
  refine Eq.trans ?_ (Cert.KSpec.midT_apply (V c main_v33) (V c main_v15) (V c main_v23) (V c main_v17) (V c main_v34) (V c main_v18) (V c main_arg0) r q).symm
  exact congrArg₂ (fun s x => max s Cert.Spec.zeroF + x) (sage1_at V c t p q r hr) (blk1_6_at V c t p q r hr)

/-- What point t writes back is block t of the whole layer. -/
theorem flushed1_eq (c : Dev nD) (t : Fin cfg1.N) :
    (dat1 (F := Ideal) V c).flushed 7 t
      = ((cfg1.win 7).blk t).view.read (Elt Ideal) (Cert.KSpec.midT (V c main_v33) (V c main_v15) (V c main_v23) (V c main_v17) (V c main_v34) (V c main_v18) (V c main_arg0)) := by
  show (cfg1.win 7).cut (grid1.coords t) ((dat1 V c).after 7 t) = _
  rw [dat1_after7]
  unfold out1
  rw [View.canon_unit_zero hz1]
  simp only [View.ld_unit_zero (S := S5000x128) hz1, View.ld_unit_zero (S := S5000x1) hz1,
    View.ld_unit_zero (S := S128x128) hz1, View.ld_unit_zero (S := S1x128) hz1]
  funext j
  have hN : cfg1.N = 20 := N_1
  have ht : t.val < 20 := hN ▸ t.isLt
  have hj0 : (j 0).val < 5000 := (j 0).isLt
  have hj1 : (j 1).val < 128 := (j 1).isLt
  obtain ⟨f0a, f0b, f1a, f1b, f2a, f2b, f3a, f3b, f4a, f4b, f5a, f5b, f6a, f6b, f7a, f7b⟩ := idx_facts1 t
  have e1 : (cfg1.win 7).xinj (grid1.coords t) j = ix2 (⟨(j 0).val, hj0⟩ : Fin 5000) (⟨(j 1).val, hj1⟩ : Fin 128) :=
    funext fun ax => by
      match ax with
      | ⟨0, _⟩ => rfl
      | ⟨1, _⟩ => rfl
  have e2 : ((cfg1.win 7).blk t).view.emb j
      = ix2 (⟨5000 * t.val + (j 0).val, by omega⟩ : Fin 100000) (⟨(j 1).val, hj1⟩ : Fin 128) :=
    funext fun ax => Fin.ext (by
      match ax with
      | ⟨0, _⟩ => show win1_7.index t (0 : Fin 2) * 5000 + 1 * (j 0).val = 5000 * t.val + (j 0).val; rw [f7a]; omega
      | ⟨1, _⟩ => show win1_7.index t (1 : Fin 2) * 128 + 1 * (j 1).val = (j 1).val; rw [f7b]; omega)
  show k1_pay1 (F := Ideal) (blk1 V c 0 t) (blk1 V c 1 t) (blk1 V c 3 t) (blk1 V c 4 t) (blk1 V c 2 t) (blk1 V c 5 t) (blk1 V c 6 t) ((cfg1.win 7).xinj (grid1.coords t) j)
    = Cert.KSpec.midT (V c main_v33) (V c main_v15) (V c main_v23) (V c main_v17) (V c main_v34) (V c main_v18) (V c main_arg0) (((cfg1.win 7).blk t).view.emb j)
  exact (congrArg (k1_pay1 (F := Ideal) (blk1 V c 0 t) (blk1 V c 1 t) (blk1 V c 3 t) (blk1 V c 4 t) (blk1 V c 2 t) (blk1 V c 5 t) (blk1 V c 6 t)) e1).trans
    ((out1_at V c t ⟨(j 0).val, hj0⟩ ⟨(j 1).val, hj1⟩ ⟨5000 * t.val + (j 0).val, by omega⟩ rfl).trans
      (congrArg (Cert.KSpec.midT (V c main_v33) (V c main_v15) (V c main_v23) (V c main_v17) (V c main_v34) (V c main_v18) (V c main_arg0)) e2.symm))

/-- An index of the result array is in point t's block iff each coordinate is in the block's range on its axis. -/
theorem mem_blk1 (t : Fin cfg1.N) (i : S100000x128.Idx) :
    i ∈ ((cfg1.win 7).blk t).view.set
      ↔ ∀ a : Fin 2, win1_7.index t a * S5000x128.size a ≤ (i a).val ∧ (i a).val < win1_7.index t a * S5000x128.size a + S5000x128.size a := by
  show i ∈ ((View.whole main_v35).slice (win1_7.rect t)).set ↔ _
  rw [View.set_slice_whole, Rect.mem_set_unit]
  exact Iff.rfl

/-- Row r of the result is in the block of point r / 5000: the twenty blocks tile the array. -/
theorem cover1_arr (i : S100000x128.Idx) :
    ∃ t : Fin cfg1.N, (cfg1.win 7).flush t = true ∧ i ∈ ((cfg1.win 7).blk t).view.set := by
  have hN : cfg1.N = 20 := N_1
  have hi0 : (i 0).val < 100000 := (i 0).isLt
  have hi1 : (i 1).val < 128 := (i 1).isLt
  have ht0 : (i 0).val / 5000 < cfg1.N := by omega
  refine ⟨⟨(i 0).val / 5000, ht0⟩, flush1_7 _, ?_⟩
  rw [mem_blk1]
  have hf := idx_facts1 ⟨(i 0).val / 5000, ht0⟩
  have e4 : win1_7.index ⟨(i 0).val / 5000, ht0⟩ (0 : Fin 2) = (i 0).val / 5000 := hf.2.2.2.2.2.2.2.2.2.2.2.2.2.2.1
  have e5 : win1_7.index ⟨(i 0).val / 5000, ht0⟩ (1 : Fin 2) = 0 := hf.2.2.2.2.2.2.2.2.2.2.2.2.2.2.2
  intro ax
  match ax with
  | ⟨0, _⟩ =>
    show win1_7.index _ (0 : Fin 2) * 5000 ≤ (i 0).val ∧ (i 0).val < win1_7.index _ (0 : Fin 2) * 5000 + 5000
    rw [e4]
    omega
  | ⟨1, _⟩ =>
    show win1_7.index _ (1 : Fin 2) * 128 ≤ (i 1).val ∧ (i 1).val < win1_7.index _ (1 : Fin 2) * 128 + 128
    rw [e5]
    omega

/-- The result array after the region: the whole layer. -/
theorem final1 (c : Dev nD) :
    (dat1 (F := Ideal) V c).arrAt 7 cfg1.N = Cert.KSpec.midT (V c main_v33) (V c main_v15) (V c main_v23) (V c main_v17) (V c main_v34) (V c main_v18) (V c main_arg0) :=
  (dat1 (F := Ideal) V c).arrAt_eq_of_cover 7 (Cert.KSpec.midT (V c main_v33) (V c main_v15) (V c main_v23) (V c main_v17) (V c main_v34) (V c main_v18) (V c main_arg0))
    (fun t _ => flushed1_eq V c t) cover1_arr

end Cert.KernelIdeal.Val

end
-- ==== Proof.KernelIdeal.Val2.lean ====
/-
  The third call's result array after all 20 grid points: the second middle layer of the network (its residual is its own feature array), as one function of the arrays the region found.

  Point t stages rows 5000·t … 5000·t + 4999 of each row-indexed array (the neighbour sums, the reciprocal
  degrees, the node features, the residual) and the whole of each matrix and of the bias row, and writes back the same
  rows of the result. So entry (p, q) of the block point t writes back is entry (5000·t + p, q) of the whole
  layer, and row r of the result is written by point r / 5000; the twenty blocks tile the array.
-/
import proofs.«157507_j81793357185798_2_alg».proof.Proof.KernelIdeal.R2
import proofs.«157507_j81793357185798_2_alg».proof.Proof.PayAt
import proofs.«157507_j81793357185798_2_alg».proof.Proof.KSpec
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The windows' index maps at every grid point: the row-indexed windows sit at block t, the others at block 0. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ win2_7.index t (0 : Fin 2) = t.val
    ∧ win2_7.index t (1 : Fin 2) = 0 :=
  (by decide +kernel : ∀ t : Fin grid2.N, _)

/-- Row p of window 0's block at point t is row 5000·t + p of its array. -/
theorem blk2_0_at (c : Dev nD) (t : Fin cfg2.N) (p : Fin 5000) (k : Fin 128) (r : Fin 100000) (hr : r.val = 5000 * t.val + p.val) :
    (blk2 V c 0 t : Vec Ideal S5000x128 .f32) (ix2 p k) = (V c main_v45 : S100000x128.Idx → Elt Ideal .f32) (ix2 r k) := by
  unfold blk2
  rw [View.read_apply]
  show V c main_v45 _ = V c main_v45 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_0.index t (0 : Fin 2) * 5000 + 1 * p.val = r.val; rw [f0a, hr]; omega
  | ⟨1, _⟩ => show win2_0.index t (1 : Fin 2) * 128 + 1 * k.val = k.val; rw [f0b]; omega

/-- Row p of window 2's block at point t is row 5000·t + p of its array. -/
theorem blk2_2_at (c : Dev nD) (t : Fin cfg2.N) (p : Fin 5000) (k : Fin 128) (r : Fin 100000) (hr : r.val = 5000 * t.val + p.val) :
    (blk2 V c 2 t : Vec Ideal S5000x128 .f32) (ix2 p k) = (V c main_v35 : S100000x128.Idx → Elt Ideal .f32) (ix2 r k) := by
  unfold blk2
  rw [View.read_apply]
  show V c main_v35 _ = V c main_v35 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_2.index t (0 : Fin 2) * 5000 + 1 * p.val = r.val; rw [f2a, hr]; omega
  | ⟨1, _⟩ => show win2_2.index t (1 : Fin 2) * 128 + 1 * k.val = k.val; rw [f2b]; omega

/-- Row p of window 6's block at point t is row 5000·t + p of its array. -/
theorem blk2_6_at (c : Dev nD) (t : Fin cfg2.N) (p : Fin 5000) (k : Fin 128) (r : Fin 100000) (hr : r.val = 5000 * t.val + p.val) :
    (blk2 V c 6 t : Vec Ideal S5000x128 .f32) (ix2 p k) = (V c main_v35 : S100000x128.Idx → Elt Ideal .f32) (ix2 r k) := by
  unfold blk2
  rw [View.read_apply]
  show V c main_v35 _ = V c main_v35 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_6.index t (0 : Fin 2) * 5000 + 1 * p.val = r.val; rw [f6a, hr]; omega
  | ⟨1, _⟩ => show win2_6.index t (1 : Fin 2) * 128 + 1 * k.val = k.val; rw [f6b]; omega

/-- Entry p of the reciprocal-degree block at point t is entry 5000·t + p of the column. -/
theorem blk2_1_at (c : Dev nD) (t : Fin cfg2.N) (p : Fin 5000) (u : Fin 1) (r : Fin 100000) (hr : r.val = 5000 * t.val + p.val) :
    (blk2 V c 1 t : Vec Ideal S5000x1 .f32) (ix2 p u) = (V c main_v15 : S100000x1.Idx → Elt Ideal .f32) (ix2 r u) := by
  unfold blk2
  rw [View.read_apply]
  show V c main_v15 _ = V c main_v15 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_1.index t (0 : Fin 2) * 5000 + 1 * p.val = r.val; rw [f1a, hr]; omega
  | ⟨1, _⟩ => show win2_1.index t (1 : Fin 2) * 1 + 1 * u.val = u.val; rw [f1b]; omega

/-- Window 3's block at every point is its whole matrix. -/
theorem blk2_3_at (c : Dev nD) (t : Fin cfg2.N) (k q : Fin 128) :
    (blk2 V c 3 t : Vec Ideal S128x128 .f32) (ix2 k q) = (V c main_v19 : S128x128.Idx → Elt Ideal .f32) (ix2 k q) := by
  unfold blk2
  rw [View.read_apply]
  show V c main_v19 _ = V c main_v19 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_3.index t (0 : Fin 2) * 128 + 1 * k.val = k.val; rw [f3a]; omega
  | ⟨1, _⟩ => show win2_3.index t (1 : Fin 2) * 128 + 1 * q.val = q.val; rw [f3b]; omega

/-- Window 5's block at every point is its whole matrix. -/
theorem blk2_5_at (c : Dev nD) (t : Fin cfg2.N) (k q : Fin 128) :
    (blk2 V c 5 t : Vec Ideal S128x128 .f32) (ix2 k q) = (V c main_v20 : S128x128.Idx → Elt Ideal .f32) (ix2 k q) := by
  unfold blk2
  rw [View.read_apply]
  show V c main_v20 _ = V c main_v20 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_5.index t (0 : Fin 2) * 128 + 1 * k.val = k.val; rw [f5a]; omega
  | ⟨1, _⟩ => show win2_5.index t (1 : Fin 2) * 128 + 1 * q.val = q.val; rw [f5b]; omega

/-- The bias block at every point is the whole row. -/
theorem blk2_4_at (c : Dev nD) (t : Fin cfg2.N) (u : Fin 1) (q : Fin 128) :
    (blk2 V c 4 t : Vec Ideal S1x128 .f32) (ix2 u q) = (V c main_v46 : S1x128.Idx → Elt Ideal .f32) (ix2 u q) := by
  unfold blk2
  rw [View.read_apply]
  show V c main_v46 _ = V c main_v46 _
  congr 1
  funext ax
  apply Fin.ext
  obtain ⟨f0a, f0b, f1a, f1b, f2a, f2b, f3a, f3b, f4a, f4b, f5a, f5b, f6a, f6b, f7a, f7b⟩ := idx_facts2 t
  match ax with
  | ⟨0, _⟩ => show win2_4.index t (0 : Fin 2) * 1 + 1 * u.val = u.val; rw [f4a]; omega
  | ⟨1, _⟩ => show win2_4.index t (1 : Fin 2) * 128 + 1 * q.val = q.val; rw [f4b]; omega

/-- The layer before its nonlinearity on point t's blocks, at (p, q), is the whole-array layer at (5000·t + p, q). -/
theorem sage2_at (c : Dev nD) (t : Fin cfg2.N) (p : Fin 5000) (q : Fin 128) (r : Fin 100000) (hr : r.val = 5000 * t.val + p.val) :
    Cert.PayAt.sageB (blk2 V c 0 t) (blk2 V c 1 t) (blk2 V c 3 t) (blk2 V c 4 t) (blk2 V c 2 t) (blk2 V c 5 t) p q
      = Cert.KSpec.sageT (V c main_v45) (V c main_v15) (V c main_v35) (V c main_v19) (V c main_v46) (V c main_v20) r q := by
  unfold Cert.PayAt.sageB Cert.KSpec.sageT
  refine congrArg₂ (· + ·) (congrArg₂ (· + ·) (Finset.sum_congr rfl fun k _ => ?_) (blk2_4_at V c t (0 : Fin 1) q))
    (Finset.sum_congr rfl fun k _ => ?_)
  · exact congrArg₂ (· * ·) (congrArg₂ (· * ·) (blk2_0_at V c t p k r hr) (blk2_1_at V c t p (0 : Fin 1) r hr)) (blk2_3_at V c t k q)
  · exact congrArg₂ (· * ·) (blk2_2_at V c t p k r hr) (blk2_5_at V c t k q)

/-- What the body computes at entry (p, q) of point t's block is entry (5000·t + p, q) of the whole layer. -/
theorem out2_at (c : Dev nD) (t : Fin cfg2.N) (p : Fin 5000) (q : Fin 128) (r : Fin 100000) (hr : r.val = 5000 * t.val + p.val) :
    k2_pay1 (F := Ideal) (blk2 V c 0 t) (blk2 V c 1 t) (blk2 V c 3 t) (blk2 V c 4 t) (blk2 V c 2 t) (blk2 V c 5 t) (blk2 V c 6 t) (ix2 p q)
      = Cert.KSpec.midT (V c main_v45) (V c main_v15) (V c main_v35) (V c main_v19) (V c main_v46) (V c main_v20) (V c main_v35) (ix2 r q) := by
  refine (Cert.PayAt.pay2_at (blk2 V c 0 t) (blk2 V c 1 t) (blk2 V c 3 t) (blk2 V c 4 t) (blk2 V c 2 t) (blk2 V c 5 t) (blk2 V c 6 t) p q).trans ?_
  refine Eq.trans ?_ (Cert.KSpec.midT_apply (V c main_v45) (V c main_v15) (V c main_v35) (V c main_v19) (V c main_v46) (V c main_v20) (V c main_v35) r q).symm
  exact congrArg₂ (fun s x => max s Cert.Spec.zeroF + x) (sage2_at V c t p q r hr) (blk2_6_at V c t p q r hr)

/-- What point t writes back is block t of the whole layer. -/
theorem flushed2_eq (c : Dev nD) (t : Fin cfg2.N) :
    (dat2 (F := Ideal) V c).flushed 7 t
      = ((cfg2.win 7).blk t).view.read (Elt Ideal) (Cert.KSpec.midT (V c main_v45) (V c main_v15) (V c main_v35) (V c main_v19) (V c main_v46) (V c main_v20) (V c main_v35)) := by
  show (cfg2.win 7).cut (grid2.coords t) ((dat2 V c).after 7 t) = _
  rw [dat2_after7]
  unfold out2
  rw [View.canon_unit_zero hz2]
  simp only [View.ld_unit_zero (S := S5000x128) hz2, View.ld_unit_zero (S := S5000x1) hz2,
    View.ld_unit_zero (S := S128x128) hz2, View.ld_unit_zero (S := S1x128) hz2]
  funext j
  have hN : cfg2.N = 20 := N_2
  have ht : t.val < 20 := hN ▸ t.isLt
  have hj0 : (j 0).val < 5000 := (j 0).isLt
  have hj1 : (j 1).val < 128 := (j 1).isLt
  obtain ⟨f0a, f0b, f1a, f1b, f2a, f2b, f3a, f3b, f4a, f4b, f5a, f5b, f6a, f6b, f7a, f7b⟩ := idx_facts2 t
  have e1 : (cfg2.win 7).xinj (grid2.coords t) j = ix2 (⟨(j 0).val, hj0⟩ : Fin 5000) (⟨(j 1).val, hj1⟩ : Fin 128) :=
    funext fun ax => by
      match ax with
      | ⟨0, _⟩ => rfl
      | ⟨1, _⟩ => rfl
  have e2 : ((cfg2.win 7).blk t).view.emb j
      = ix2 (⟨5000 * t.val + (j 0).val, by omega⟩ : Fin 100000) (⟨(j 1).val, hj1⟩ : Fin 128) :=
    funext fun ax => Fin.ext (by
      match ax with
      | ⟨0, _⟩ => show win2_7.index t (0 : Fin 2) * 5000 + 1 * (j 0).val = 5000 * t.val + (j 0).val; rw [f7a]; omega
      | ⟨1, _⟩ => show win2_7.index t (1 : Fin 2) * 128 + 1 * (j 1).val = (j 1).val; rw [f7b]; omega)
  show k2_pay1 (F := Ideal) (blk2 V c 0 t) (blk2 V c 1 t) (blk2 V c 3 t) (blk2 V c 4 t) (blk2 V c 2 t) (blk2 V c 5 t) (blk2 V c 6 t) ((cfg2.win 7).xinj (grid2.coords t) j)
    = Cert.KSpec.midT (V c main_v45) (V c main_v15) (V c main_v35) (V c main_v19) (V c main_v46) (V c main_v20) (V c main_v35) (((cfg2.win 7).blk t).view.emb j)
  exact (congrArg (k2_pay1 (F := Ideal) (blk2 V c 0 t) (blk2 V c 1 t) (blk2 V c 3 t) (blk2 V c 4 t) (blk2 V c 2 t) (blk2 V c 5 t) (blk2 V c 6 t)) e1).trans
    ((out2_at V c t ⟨(j 0).val, hj0⟩ ⟨(j 1).val, hj1⟩ ⟨5000 * t.val + (j 0).val, by omega⟩ rfl).trans
      (congrArg (Cert.KSpec.midT (V c main_v45) (V c main_v15) (V c main_v35) (V c main_v19) (V c main_v46) (V c main_v20) (V c main_v35)) e2.symm))

/-- An index of the result array is in point t's block iff each coordinate is in the block's range on its axis. -/
theorem mem_blk2 (t : Fin cfg2.N) (i : S100000x128.Idx) :
    i ∈ ((cfg2.win 7).blk t).view.set
      ↔ ∀ a : Fin 2, win2_7.index t a * S5000x128.size a ≤ (i a).val ∧ (i a).val < win2_7.index t a * S5000x128.size a + S5000x128.size a := by
  show i ∈ ((View.whole main_v47).slice (win2_7.rect t)).set ↔ _
  rw [View.set_slice_whole, Rect.mem_set_unit]
  exact Iff.rfl

/-- Row r of the result is in the block of point r / 5000: the twenty blocks tile the array. -/
theorem cover2_arr (i : S100000x128.Idx) :
    ∃ t : Fin cfg2.N, (cfg2.win 7).flush t = true ∧ i ∈ ((cfg2.win 7).blk t).view.set := by
  have hN : cfg2.N = 20 := N_2
  have hi0 : (i 0).val < 100000 := (i 0).isLt
  have hi1 : (i 1).val < 128 := (i 1).isLt
  have ht0 : (i 0).val / 5000 < cfg2.N := by omega
  refine ⟨⟨(i 0).val / 5000, ht0⟩, flush2_7 _, ?_⟩
  rw [mem_blk2]
  have hf := idx_facts2 ⟨(i 0).val / 5000, ht0⟩
  have e4 : win2_7.index ⟨(i 0).val / 5000, ht0⟩ (0 : Fin 2) = (i 0).val / 5000 := hf.2.2.2.2.2.2.2.2.2.2.2.2.2.2.1
  have e5 : win2_7.index ⟨(i 0).val / 5000, ht0⟩ (1 : Fin 2) = 0 := hf.2.2.2.2.2.2.2.2.2.2.2.2.2.2.2
  intro ax
  match ax with
  | ⟨0, _⟩ =>
    show win2_7.index _ (0 : Fin 2) * 5000 ≤ (i 0).val ∧ (i 0).val < win2_7.index _ (0 : Fin 2) * 5000 + 5000
    rw [e4]
    omega
  | ⟨1, _⟩ =>
    show win2_7.index _ (1 : Fin 2) * 128 ≤ (i 1).val ∧ (i 1).val < win2_7.index _ (1 : Fin 2) * 128 + 128
    rw [e5]
    omega

/-- The result array after the region: the whole layer. -/
theorem final2 (c : Dev nD) :
    (dat2 (F := Ideal) V c).arrAt 7 cfg2.N = Cert.KSpec.midT (V c main_v45) (V c main_v15) (V c main_v35) (V c main_v19) (V c main_v46) (V c main_v20) (V c main_v35) :=
  (dat2 (F := Ideal) V c).arrAt_eq_of_cover 7 (Cert.KSpec.midT (V c main_v45) (V c main_v15) (V c main_v35) (V c main_v19) (V c main_v46) (V c main_v20) (V c main_v35))
    (fun t _ => flushed2_eq V c t) cover2_arr

end Cert.KernelIdeal.Val

end
-- ==== Proof.KernelIdeal.Val3.lean ====
/-
  The last call's result array after all 20 grid points: the last layer of the network, each row divided by the larger of its norm and the small constant, as one function of the six arrays the region found.

  Point t stages rows 5000·t … 5000·t + 4999 of each row-indexed array (the neighbour sums, the reciprocal
  degrees, the node features) and the whole of each matrix and of the bias row, and writes back the same
  rows of the result. So entry (p, q) of the block point t writes back is entry (5000·t + p, q) of the whole
  layer, and row r of the result is written by point r / 5000; the twenty blocks tile the array.
-/
import proofs.«157507_j81793357185798_2_alg».proof.Proof.KernelIdeal.R3
import proofs.«157507_j81793357185798_2_alg».proof.Proof.PayAt
import proofs.«157507_j81793357185798_2_alg».proof.Proof.KSpec
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The windows' index maps at every grid point: the row-indexed windows sit at block t, the others at block 0. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Row p of window 0's block at point t is row 5000·t + p of its array. -/
theorem blk3_0_at (c : Dev nD) (t : Fin cfg3.N) (p : Fin 5000) (k : Fin 128) (r : Fin 100000) (hr : r.val = 5000 * t.val + p.val) :
    (blk3 V c 0 t : Vec Ideal S5000x128 .f32) (ix2 p k) = (V c main_v57 : S100000x128.Idx → Elt Ideal .f32) (ix2 r k) := by
  unfold blk3
  rw [View.read_apply]
  show V c main_v57 _ = V c main_v57 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_0.index t (0 : Fin 2) * 5000 + 1 * p.val = r.val; rw [f0a, hr]; omega
  | ⟨1, _⟩ => show win3_0.index t (1 : Fin 2) * 128 + 1 * k.val = k.val; rw [f0b]; omega

/-- Row p of window 2's block at point t is row 5000·t + p of its array. -/
theorem blk3_2_at (c : Dev nD) (t : Fin cfg3.N) (p : Fin 5000) (k : Fin 128) (r : Fin 100000) (hr : r.val = 5000 * t.val + p.val) :
    (blk3 V c 2 t : Vec Ideal S5000x128 .f32) (ix2 p k) = (V c main_v47 : S100000x128.Idx → Elt Ideal .f32) (ix2 r k) := by
  unfold blk3
  rw [View.read_apply]
  show V c main_v47 _ = V c main_v47 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_2.index t (0 : Fin 2) * 5000 + 1 * p.val = r.val; rw [f2a, hr]; omega
  | ⟨1, _⟩ => show win3_2.index t (1 : Fin 2) * 128 + 1 * k.val = k.val; rw [f2b]; omega

/-- Entry p of the reciprocal-degree block at point t is entry 5000·t + p of the column. -/
theorem blk3_1_at (c : Dev nD) (t : Fin cfg3.N) (p : Fin 5000) (u : Fin 1) (r : Fin 100000) (hr : r.val = 5000 * t.val + p.val) :
    (blk3 V c 1 t : Vec Ideal S5000x1 .f32) (ix2 p u) = (V c main_v15 : S100000x1.Idx → Elt Ideal .f32) (ix2 r u) := by
  unfold blk3
  rw [View.read_apply]
  show V c main_v15 _ = V c main_v15 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_1.index t (0 : Fin 2) * 5000 + 1 * p.val = r.val; rw [f1a, hr]; omega
  | ⟨1, _⟩ => show win3_1.index t (1 : Fin 2) * 1 + 1 * u.val = u.val; rw [f1b]; omega

/-- Window 3's block at every point is its whole matrix. -/
theorem blk3_3_at (c : Dev nD) (t : Fin cfg3.N) (k q : Fin 128) :
    (blk3 V c 3 t : Vec Ideal S128x128 .f32) (ix2 k q) = (V c main_v21 : S128x128.Idx → Elt Ideal .f32) (ix2 k q) := by
  unfold blk3
  rw [View.read_apply]
  show V c main_v21 _ = V c main_v21 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_3.index t (0 : Fin 2) * 128 + 1 * k.val = k.val; rw [f3a]; omega
  | ⟨1, _⟩ => show win3_3.index t (1 : Fin 2) * 128 + 1 * q.val = q.val; rw [f3b]; omega

/-- Window 5's block at every point is its whole matrix. -/
theorem blk3_5_at (c : Dev nD) (t : Fin cfg3.N) (k q : Fin 128) :
    (blk3 V c 5 t : Vec Ideal S128x128 .f32) (ix2 k q) = (V c main_v22 : S128x128.Idx → Elt Ideal .f32) (ix2 k q) := by
  unfold blk3
  rw [View.read_apply]
  show V c main_v22 _ = V c main_v22 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_5.index t (0 : Fin 2) * 128 + 1 * k.val = k.val; rw [f5a]; omega
  | ⟨1, _⟩ => show win3_5.index t (1 : Fin 2) * 128 + 1 * q.val = q.val; rw [f5b]; omega

/-- The bias block at every point is the whole row. -/
theorem blk3_4_at (c : Dev nD) (t : Fin cfg3.N) (u : Fin 1) (q : Fin 128) :
    (blk3 V c 4 t : Vec Ideal S1x128 .f32) (ix2 u q) = (V c main_v58 : S1x128.Idx → Elt Ideal .f32) (ix2 u q) := by
  unfold blk3
  rw [View.read_apply]
  show V c main_v58 _ = V c main_v58 _
  congr 1
  funext ax
  apply Fin.ext
  obtain ⟨f0a, f0b, f1a, f1b, f2a, f2b, f3a, f3b, f4a, f4b, f5a, f5b, f6a, f6b⟩ := idx_facts3 t
  match ax with
  | ⟨0, _⟩ => show win3_4.index t (0 : Fin 2) * 1 + 1 * u.val = u.val; rw [f4a]; omega
  | ⟨1, _⟩ => show win3_4.index t (1 : Fin 2) * 128 + 1 * q.val = q.val; rw [f4b]; omega

/-- The layer before its nonlinearity on point t's blocks, at (p, q), is the whole-array layer at (5000·t + p, q). -/
theorem sage3_at (c : Dev nD) (t : Fin cfg3.N) (p : Fin 5000) (q : Fin 128) (r : Fin 100000) (hr : r.val = 5000 * t.val + p.val) :
    Cert.PayAt.sageB (blk3 V c 0 t) (blk3 V c 1 t) (blk3 V c 3 t) (blk3 V c 4 t) (blk3 V c 2 t) (blk3 V c 5 t) p q
      = Cert.KSpec.sageT (V c main_v57) (V c main_v15) (V c main_v47) (V c main_v21) (V c main_v58) (V c main_v22) r q := by
  unfold Cert.PayAt.sageB Cert.KSpec.sageT
  refine congrArg₂ (· + ·) (congrArg₂ (· + ·) (Finset.sum_congr rfl fun k _ => ?_) (blk3_4_at V c t (0 : Fin 1) q))
    (Finset.sum_congr rfl fun k _ => ?_)
  · exact congrArg₂ (· * ·) (congrArg₂ (· * ·) (blk3_0_at V c t p k r hr) (blk3_1_at V c t p (0 : Fin 1) r hr)) (blk3_3_at V c t k q)
  · exact congrArg₂ (· * ·) (blk3_2_at V c t p k r hr) (blk3_5_at V c t k q)

/-- What the body computes at entry (p, q) of point t's block is entry (5000·t + p, q) of the whole layer. -/
theorem out3_at (c : Dev nD) (t : Fin cfg3.N) (p : Fin 5000) (q : Fin 128) (r : Fin 100000) (hr : r.val = 5000 * t.val + p.val) :
    k3_pay1 (F := Ideal) (blk3 V c 0 t) (blk3 V c 1 t) (blk3 V c 3 t) (blk3 V c 4 t) (blk3 V c 2 t) (blk3 V c 5 t) (ix2 p q)
      = Cert.KSpec.finT (V c main_v57) (V c main_v15) (V c main_v47) (V c main_v21) (V c main_v58) (V c main_v22) (ix2 r q) := by
  refine (Cert.PayAt.pay3_at (blk3 V c 0 t) (blk3 V c 1 t) (blk3 V c 3 t) (blk3 V c 4 t) (blk3 V c 2 t) (blk3 V c 5 t) p q).trans ?_
  refine Eq.trans ?_ (Cert.KSpec.finT_apply (V c main_v57) (V c main_v15) (V c main_v47) (V c main_v21) (V c main_v58) (V c main_v22) r q).symm
  have e : ∀ q' : Fin 128, Cert.PayAt.sageB (blk3 V c 0 t) (blk3 V c 1 t) (blk3 V c 3 t) (blk3 V c 4 t) (blk3 V c 2 t) (blk3 V c 5 t) p q' = Cert.KSpec.sageT (V c main_v57) (V c main_v15) (V c main_v47) (V c main_v21) (V c main_v58) (V c main_v22) r q' :=
    fun q' => sage3_at V c t p q' r hr
  exact congrArg₂ (fun s n => Ideal.div s (max (Ideal.sqrt n) Cert.Spec.epsF)) (e q)
    (Finset.sum_congr rfl fun q' _ => congrArg₂ (· * ·) (e q') (e q'))

/-- What point t writes back is block t of the whole layer. -/
theorem flushed3_eq (c : Dev nD) (t : Fin cfg3.N) :
    (dat3 (F := Ideal) V c).flushed 6 t
      = ((cfg3.win 6).blk t).view.read (Elt Ideal) (Cert.KSpec.finT (V c main_v57) (V c main_v15) (V c main_v47) (V c main_v21) (V c main_v58) (V c main_v22)) := by
  show (cfg3.win 6).cut (grid3.coords t) ((dat3 V c).after 6 t) = _
  rw [dat3_after6]
  unfold out3
  rw [View.canon_unit_zero hz3]
  simp only [View.ld_unit_zero (S := S5000x128) hz3, View.ld_unit_zero (S := S5000x1) hz3,
    View.ld_unit_zero (S := S128x128) hz3, View.ld_unit_zero (S := S1x128) hz3]
  funext j
  have hN : cfg3.N = 20 := N_3
  have ht : t.val < 20 := hN ▸ t.isLt
  have hj0 : (j 0).val < 5000 := (j 0).isLt
  have hj1 : (j 1).val < 128 := (j 1).isLt
  obtain ⟨f0a, f0b, f1a, f1b, f2a, f2b, f3a, f3b, f4a, f4b, f5a, f5b, f6a, f6b⟩ := idx_facts3 t
  have e1 : (cfg3.win 6).xinj (grid3.coords t) j = ix2 (⟨(j 0).val, hj0⟩ : Fin 5000) (⟨(j 1).val, hj1⟩ : Fin 128) :=
    funext fun ax => by
      match ax with
      | ⟨0, _⟩ => rfl
      | ⟨1, _⟩ => rfl
  have e2 : ((cfg3.win 6).blk t).view.emb j
      = ix2 (⟨5000 * t.val + (j 0).val, by omega⟩ : Fin 100000) (⟨(j 1).val, hj1⟩ : Fin 128) :=
    funext fun ax => Fin.ext (by
      match ax with
      | ⟨0, _⟩ => show win3_6.index t (0 : Fin 2) * 5000 + 1 * (j 0).val = 5000 * t.val + (j 0).val; rw [f6a]; omega
      | ⟨1, _⟩ => show win3_6.index t (1 : Fin 2) * 128 + 1 * (j 1).val = (j 1).val; rw [f6b]; omega)
  show k3_pay1 (F := Ideal) (blk3 V c 0 t) (blk3 V c 1 t) (blk3 V c 3 t) (blk3 V c 4 t) (blk3 V c 2 t) (blk3 V c 5 t) ((cfg3.win 6).xinj (grid3.coords t) j)
    = Cert.KSpec.finT (V c main_v57) (V c main_v15) (V c main_v47) (V c main_v21) (V c main_v58) (V c main_v22) (((cfg3.win 6).blk t).view.emb j)
  exact (congrArg (k3_pay1 (F := Ideal) (blk3 V c 0 t) (blk3 V c 1 t) (blk3 V c 3 t) (blk3 V c 4 t) (blk3 V c 2 t) (blk3 V c 5 t)) e1).trans
    ((out3_at V c t ⟨(j 0).val, hj0⟩ ⟨(j 1).val, hj1⟩ ⟨5000 * t.val + (j 0).val, by omega⟩ rfl).trans
      (congrArg (Cert.KSpec.finT (V c main_v57) (V c main_v15) (V c main_v47) (V c main_v21) (V c main_v58) (V c main_v22)) e2.symm))

/-- An index of the result array is in point t's block iff each coordinate is in the block's range on its axis. -/
theorem mem_blk3 (t : Fin cfg3.N) (i : S100000x128.Idx) :
    i ∈ ((cfg3.win 6).blk t).view.set
      ↔ ∀ a : Fin 2, win3_6.index t a * S5000x128.size a ≤ (i a).val ∧ (i a).val < win3_6.index t a * S5000x128.size a + S5000x128.size a := by
  show i ∈ ((View.whole main_v59).slice (win3_6.rect t)).set ↔ _
  rw [View.set_slice_whole, Rect.mem_set_unit]
  exact Iff.rfl

/-- Row r of the result is in the block of point r / 5000: the twenty blocks tile the array. -/
theorem cover3_arr (i : S100000x128.Idx) :
    ∃ t : Fin cfg3.N, (cfg3.win 6).flush t = true ∧ i ∈ ((cfg3.win 6).blk t).view.set := by
  have hN : cfg3.N = 20 := N_3
  have hi0 : (i 0).val < 100000 := (i 0).isLt
  have hi1 : (i 1).val < 128 := (i 1).isLt
  have ht0 : (i 0).val / 5000 < cfg3.N := by omega
  refine ⟨⟨(i 0).val / 5000, ht0⟩, flush3_6 _, ?_⟩
  rw [mem_blk3]
  have hf := idx_facts3 ⟨(i 0).val / 5000, ht0⟩
  have e4 : win3_6.index ⟨(i 0).val / 5000, ht0⟩ (0 : Fin 2) = (i 0).val / 5000 := hf.2.2.2.2.2.2.2.2.2.2.2.2.1
  have e5 : win3_6.index ⟨(i 0).val / 5000, ht0⟩ (1 : Fin 2) = 0 := hf.2.2.2.2.2.2.2.2.2.2.2.2.2
  intro ax
  match ax with
  | ⟨0, _⟩ =>
    show win3_6.index _ (0 : Fin 2) * 5000 ≤ (i 0).val ∧ (i 0).val < win3_6.index _ (0 : Fin 2) * 5000 + 5000
    rw [e4]
    omega
  | ⟨1, _⟩ =>
    show win3_6.index _ (1 : Fin 2) * 128 ≤ (i 1).val ∧ (i 1).val < win3_6.index _ (1 : Fin 2) * 128 + 128
    rw [e5]
    omega

/-- The result array after the region: the whole layer. -/
theorem final3 (c : Dev nD) :
    (dat3 (F := Ideal) V c).arrAt 6 cfg3.N = Cert.KSpec.finT (V c main_v57) (V c main_v15) (V c main_v47) (V c main_v21) (V c main_v58) (V c main_v22) :=
  (dat3 (F := Ideal) V c).arrAt_eq_of_cover 6 (Cert.KSpec.finT (V c main_v57) (V c main_v15) (V c main_v47) (V c main_v21) (V c main_v58) (V c main_v22))
    (fun t _ => flushed3_eq V c t) cover3_arr

end Cert.KernelIdeal.Val

end
-- ==== Proof.KernelIdeal.Net.lean ====
/-
  The kernel's program computes the network of the common specification.

  Region by region: the first call's result is x · Wpᵀ; each of the next two calls' results is a middle layer over
  the neighbour sums of the result before it; the last call's result is the last layer. Each call's whole-array
  result (the blocks put back together) is stated over the buffers the call found; those buffers are read back to
  the program's arguments; and the column of reciprocal degrees, the bias rows and the transposed matrices are
  read back entry by entry as the vector, the vectors and the matrices of the specification.
-/
import proofs.«157507_j81793357185798_2_alg».proof.Proof.KernelIdeal.Reads
import proofs.«157507_j81793357185798_2_alg».proof.Proof.KernelIdeal.Val0
import proofs.«157507_j81793357185798_2_alg».proof.Proof.KernelIdeal.Val1
import proofs.«157507_j81793357185798_2_alg».proof.Proof.KernelIdeal.Val2
import proofs.«157507_j81793357185798_2_alg».proof.Proof.KernelIdeal.Val3
import proofs.«157507_j81793357185798_2_alg».proof.Proof.KSpec
import proofs.«157507_j81793357185798_2_alg».proof.Proof.Spec
import proofs.«157507_j81793357185798_2_alg».proof.Proof.LibRowOps
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Spec (SN SW SB SD)

/-- A transposed matrix at (k, j) is the matrix at (j, k). -/
theorem tr_at (W : FVec Ideal S128x128 .f32) (k j : Fin 128) :
    transpose S128x128 [1, 0] W transposes_S128x128_S128x128_1_0 (ix2 k j) = W (ix2 j k) :=
  transpose_ix2_apply W transposes_S128x128_S128x128_1_0 k j

/-- The column of reciprocal degrees at (r, 0) is the vector at r. -/
theorem col_at (d : FVec Ideal S100000 .f32) (r : Fin 100000) :
    shapeCast S100000x1 d shapeCasts_S100000_S100000x1 (ix2 r (0 : Fin 1)) = d (ix1 r) :=
  Cert.Lib.RowOps.shapeCast_a_a1_apply d shapeCasts_S100000_S100000x1 r (0 : Fin 1)

/-- A bias laid out as a row, at (0, j), is the vector at j. -/
theorem row_at (b : FVec Ideal S128 .f32) (j : Fin 128) :
    shapeCast S1x128 b shapeCasts_S128_S1x128 (ix2 (0 : Fin 1) j) = b (ix1 j) :=
  shapeCast_a_1a_apply b shapeCasts_S128_S1x128 (0 : Fin 1) j

variable (m : (ℓ : Loc nD τ sig) → Buf (Elt Ideal) ℓ) (c : Dev nD)

/-- The program's arguments as launched: the features, then per layer the weights and the bias. -/
abbrev aX : FVec Ideal SN .f32 := m ((c : Thread nD τ).loc main_arg0)
abbrev aWp : FVec Ideal SW .f32 := m ((c : Thread nD τ).loc main_arg2)
abbrev aW1l : FVec Ideal SW .f32 := m ((c : Thread nD τ).loc main_arg3)
abbrev aB1 : FVec Ideal SB .f32 := m ((c : Thread nD τ).loc main_arg4)
abbrev aW1r : FVec Ideal SW .f32 := m ((c : Thread nD τ).loc main_arg5)
abbrev aW2l : FVec Ideal SW .f32 := m ((c : Thread nD τ).loc main_arg6)
abbrev aB2 : FVec Ideal SB .f32 := m ((c : Thread nD τ).loc main_arg7)
abbrev aW2r : FVec Ideal SW .f32 := m ((c : Thread nD τ).loc main_arg8)
abbrev aW3l : FVec Ideal SW .f32 := m ((c : Thread nD τ).loc main_arg9)
abbrev aB3 : FVec Ideal SB .f32 := m ((c : Thread nD τ).loc main_arg10)
abbrev aW3r : FVec Ideal SW .f32 := m ((c : Thread nD τ).loc main_arg11)

/-- The projection, and the two middle layers, of the specification at the program's arguments. -/
def h0 : FVec Ideal SN .f32 := Cert.Spec.lin (aX m c) (aWp m c)
def h1 : FVec Ideal SN .f32 :=
  Cert.Spec.mid (KNet.aggr (eiOf m c) (h0 m c)) (KNet.dinv (eiOf m c)) (h0 m c) (aW1l m c) (aB1 m c) (aW1r m c) (aX m c)
def h2 : FVec Ideal SN .f32 :=
  Cert.Spec.mid (KNet.aggr (eiOf m c) (h1 m c)) (KNet.dinv (eiOf m c)) (h1 m c) (aW2l m c) (aB2 m c) (aW2r m c) (h1 m c)

/-- After the first call: the projection. -/
theorem layer0 : X4 m c main_v23 = h0 m c := by
  rw [X4_res]
  unfold o4
  refine (final0 (atTc (V3 m)) c).trans ?_
  show Cert.KSpec.linT (V3 m c main_arg0) (V3 m c main_v16) = _
  rw [V3_arg0, V3_v16]
  exact Cert.KSpec.linT_eq _ _ _ (fun k j => tr_at (aWp m c) k j)

/-- After the second call: the first middle layer. -/
theorem layer1 : X6 m c main_v35 = h1 m c := by
  rw [X6_res]
  unfold o6
  refine (final1 (atTc (X5 m)) c).trans ?_
  show Cert.KSpec.midT (X5 m c main_v33) (X5 m c main_v15) (X5 m c main_v23) (X5 m c main_v17) (X5 m c main_v34)
    (X5 m c main_v18) (X5 m c main_arg0) = _
  rw [X5_v33, X5_V3 m c main_v15 (by decide) (by decide), V3_v15, X5_of m c main_v23 (by decide), layer0,
    X5_V3 m c main_v17 (by decide) (by decide), V3_v17, X5_v34, X5_V3 m c main_v18 (by decide) (by decide), V3_v18,
    X5_V3 m c main_arg0 (by decide) (by decide), V3_arg0]
  exact Cert.KSpec.midT_eq _ _ _ _ _ _ _ _ _ _ _ (fun r => col_at (KNet.dinv (eiOf m c)) r) (fun j => row_at (aB1 m c) j)
    (fun k j => tr_at (aW1l m c) k j) (fun k j => tr_at (aW1r m c) k j)

/-- After the third call: the second middle layer, whose residual is the first. -/
theorem layer2 : X8 m c main_v47 = h2 m c := by
  rw [X8_res]
  unfold o8
  refine (final2 (atTc (X7 m)) c).trans ?_
  show Cert.KSpec.midT (X7 m c main_v45) (X7 m c main_v15) (X7 m c main_v35) (X7 m c main_v19) (X7 m c main_v46)
    (X7 m c main_v20) (X7 m c main_v35) = _
  rw [X7_v45, X7_V3 m c main_v15 (by decide) (by decide) (by decide) (by decide), V3_v15, X7_of m c main_v35 (by decide), layer1,
    X7_V3 m c main_v19 (by decide) (by decide) (by decide) (by decide), V3_v19, X7_v46,
    X7_V3 m c main_v20 (by decide) (by decide) (by decide) (by decide), V3_v20]
  exact Cert.KSpec.midT_eq _ _ _ _ _ _ _ _ _ _ _ (fun r => col_at (KNet.dinv (eiOf m c)) r) (fun j => row_at (aB2 m c) j)
    (fun k j => tr_at (aW2l m c) k j) (fun k j => tr_at (aW2r m c) k j)

/-- After the last call: the last layer. -/
theorem layer3 : X10 m c main_v59
    = Cert.Spec.fin (KNet.aggr (eiOf m c) (h2 m c)) (KNet.dinv (eiOf m c)) (h2 m c) (aW3l m c) (aB3 m c) (aW3r m c) := by
  rw [X10_res]
  unfold o10
  refine (final3 (atTc (X9 m)) c).trans ?_
  show Cert.KSpec.finT (X9 m c main_v57) (X9 m c main_v15) (X9 m c main_v47) (X9 m c main_v21) (X9 m c main_v58)
    (X9 m c main_v22) = _
  rw [X9_v57, X9_V3 m c main_v15 (by decide) (by decide) (by decide) (by decide) (by decide) (by decide), V3_v15,
    X9_of m c main_v47 (by decide), layer2,
    X9_V3 m c main_v21 (by decide) (by decide) (by decide) (by decide) (by decide) (by decide), V3_v21, X9_v58,
    X9_V3 m c main_v22 (by decide) (by decide) (by decide) (by decide) (by decide) (by decide), V3_v22]
  exact Cert.KSpec.finT_eq _ _ _ _ _ _ _ _ _ _ (fun r => col_at (KNet.dinv (eiOf m c)) r) (fun j => row_at (aB3 m c) j)
    (fun k j => tr_at (aW3l m c) k j) (fun k j => tr_at (aW3r m c) k j)

/-- The program's result array, after all four calls, is the network of the specification at the program's
    arguments, with the neighbour sums and the reciprocal degrees the host computes from the edge list. -/
theorem kernel_net : X10 (F := Ideal) m c main_v59
    = Cert.Spec.net (KNet.aggr (m ((c : Thread nD τ).loc main_arg1))) (KNet.dinv (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) :=
  (layer3 m c).trans rfl

end Cert.KernelIdeal.Val

end
-- ==== Proof.RefOps.lean ====
/-
  The reference program's building blocks as functions of whole arrays, each read at one entry.

  The edge list has two rows of 800000 node numbers: row 0 the sources, row 1 the destinations. The degree of a
  node is the number of edges that end in it; its reciprocal degree is 1 / max(degree, 1) where the degree is
  positive and 0 elsewhere. The neighbour sum of an array of node features adds, for every edge, the source's row
  (a negative source number counted from the end) into the destination's row. Both are kept as the host operations
  compose them and are never opened: the statements below hold for any neighbour sums and any reciprocal degrees.

  A linear layer is the product with the transposed weight: entry (r, j) is the sum over k of x[r, k] * W[j, k].
  A graph layer is lin(agg * dinv, Wl) + b + lin(h, Wr), the reciprocal degree spread along a row and the bias
  spread down a column. A middle layer clamps at zero from below and adds a residual. The last layer divides each
  row by the larger of its Euclidean norm and a small constant; the norm's sum of squares starts from zero.
-/
import proofs.«157507_j81793357185798_2_alg».proof.Proof.Gen.ReferenceIdeal
import Idealize.ShloMosaic.Lib.Pipeline.Value
import Idealize.ShloMosaic.Lib.ValueIdx
import Idealize.ShloMosaic.PureOps.Ideal.Laws
import proofs.«157507_j81793357185798_2_alg».proof.Proof.Spec
import proofs.«157507_j81793357185798_2_alg».proof.Proof.LibDotSum
import proofs.«157507_j81793357185798_2_alg».proof.Proof.LibRowOps

noncomputable section

open scoped BigOperators

namespace Cert.RefNet

open Cert.ReferenceIdeal Cert.ReferenceIdeal.Gen Idealize.ShloMosaic Idealize.ShloMosaic.ValueIdx
open Cert.Spec (SN SW SB SD)

/-- The edges' sources: row 0 of the edge list. -/
def srcs (ei : IVec S2x800000 32) : IVec S800000 32 :=
  shapeCast S800000 (extractStridedSlice S1x800000 ![0, 0] ei slices_S2x800000_S1x800000_0_0) shapeCasts_S1x800000_S800000

/-- The edges' destinations: row 1 of the edge list. -/
def dsts (ei : IVec S2x800000 32) : IVec S800000 32 :=
  shapeCast S800000 (extractStridedSlice S1x800000 ![1, 0] ei slices_S2x800000_S1x800000_1_0) shapeCasts_S1x800000_S800000

/-- The degrees: a one added into each edge's destination, from zeros. -/
def deg (ei : IVec S2x800000 32) : FVec Ideal SD .f32 :=
  Host.scatterAdd (F := Ideal) scatter_S100000_S800000x1_S800000_n_0_0_1
    (broadcastInDim S100000 ![] bcast_S_S100000 (constant (F := Ideal) S_ .f32 0x00000000#32))
    (broadcastInDim S800000x1 ![0] bcast_S800000_S800000x1_0 (dsts ei))
    (broadcastInDim S800000 ![] bcast_S_S800000 (constant (F := Ideal) S_ .f32 0x3F800000#32))

/-- The reciprocal degrees: 1 / max(degree, 1) where the degree is positive, 0 elsewhere. -/
def dinv (ei : IVec S2x800000 32) : FVec Ideal SD .f32 :=
  select
    (cmpf (F := Ideal) .ogt (deg ei) (broadcastInDim S100000 ![] bcast_S_S100000 (constant (F := Ideal) S_ .f32 0x00000000#32)))
    (Host.divf (F := Ideal) (broadcastInDim S100000 ![] bcast_S_S100000 (constant (F := Ideal) S_ .f32 0x3F800000#32))
      (maximumf (F := Ideal) (deg ei) (broadcastInDim S100000 ![] bcast_S_S100000 (constant (F := Ideal) S_ .f32 0x3F800000#32))))
    (broadcastInDim S100000 ![] bcast_S_S100000 (constant (F := Ideal) S_ .f32 0x00000000#32))

/-- The neighbour sums of `h`: for every edge the source's row of `h` (a negative source number has 100000 added)
    added into the destination's row, from zeros. -/
def aggr (ei : IVec S2x800000 32) (h : FVec Ideal SN .f32) : FVec Ideal SN .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 (dsts ei))
    (Host.gather gather_S100000x128_S800000x1_S800000x128_1_0_n_n_0_1_1128 h
      (broadcastInDim S800000x1 ![0] bcast_S800000_S800000x1_0
        (select (cmpi .slt (srcs ei) (broadcastInDim S800000 ![] bcast_S_S800000 (constantI S_ 32 0#32)))
          (addi (srcs ei) (broadcastInDim S800000 ![] bcast_S_S800000 (constantI S_ 32 100000#32)))
          (srcs ei))))

/-- x · Wᵀ as the host computes it: the product with the transposed weight. -/
def linT (x : FVec Ideal SN .f32) (W : FVec Ideal SW .f32) : FVec Ideal SN .f32 :=
  Host.dotGeneral (F := Ideal) dot_S100000x128_S128x128_S100000x128_1_0_0_1_n_n none x
    (transpose S128x128 [1, 0] W transposes_S128x128_S128x128_1_0)

/-- One graph layer before its nonlinearity. -/
def sageT (A : FVec Ideal SN .f32) (dv : FVec Ideal SD .f32) (h : FVec Ideal SN .f32) (Wl : FVec Ideal SW .f32)
    (b : FVec Ideal SB .f32) (Wr : FVec Ideal SW .f32) : FVec Ideal SN .f32 :=
  addf (F := Ideal)
    (addf (F := Ideal)
      (linT (mulf (F := Ideal) A (broadcastInDim S100000x128 ![0, 1] bcast_S100000x1_S100000x128_0_1
        (broadcastInDim S100000x1 ![0] bcast_S100000_S100000x1_0 dv))) Wl)
      (broadcastInDim S100000x128 ![0, 1] bcast_S1x128_S100000x128_0_1 (broadcastInDim S1x128 ![1] bcast_S128_S1x128_1 b)))
    (linT h Wr)

/-- Clamp at zero from below, add the residual. -/
def midT (S res : FVec Ideal SN .f32) : FVec Ideal SN .f32 :=
  addf (F := Ideal)
    (maximumf (F := Ideal) S (broadcastInDim S100000x128 ![] bcast_S_S100000x128 (constant (F := Ideal) S_ .f32 0x00000000#32)))
    res

/-- Each row divided by the larger of its norm and the small constant. -/
def finT (S : FVec Ideal SN .f32) : FVec Ideal SN .f32 :=
  Host.divf (F := Ideal) S
    (broadcastInDim S100000x128 ![0, 1] bcast_S100000x1_S100000x128_0_1
      (maximumf (F := Ideal)
        (Host.sqrt (F := Ideal) (broadcastInDim S100000x1 ![0] bcast_S100000_S100000x1_0
          (Host.reduceAdd (F := Ideal) (mulf (F := Ideal) S S) (constant (F := Ideal) S_ .f32 0x00000000#32)
            reducesTo_S100000x128_S100000_d1 h_S_)))
        (broadcastInDim S100000x1 ![] bcast_S_S100000x1 (constant (F := Ideal) S_ .f32 0x2B8CBCCC#32))))

/-- The product's left operand is read at the output's row … -/
theorem dot_lhs_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- … and the contracted position; -/
theorem dot_lhs_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
/-- the right operand at the contracted position … -/
theorem dot_rhs_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
/-- … and the output's column. -/
theorem dot_rhs_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The product with the transposed weight at (r, j): the sum over k of x[r, k] * W[j, k]. -/
theorem linT_apply (x : FVec Ideal SN .f32) (W : FVec Ideal SW .f32) (r : Fin 100000) (j : Fin 128) :
    linT x W (ix2 r j) = Cert.Spec.linAt x W r j := by
  unfold linT Cert.Spec.linAt
  refine (DotSum.dotGeneral_eq_sum dot_S100000x128_S128x128_S100000x128_1_0_0_1_n_n 128 rfl rfl x _ (ix2 r j)
    (fun k => ix2 r k) (fun k => ix2 k j) ?_ ?_).trans ?_
  · intro k
    have hk := contrEquiv1_symm_val dot_S100000x128_S128x128_S100000x128_1_0_0_1_n_n 128 rfl rfl k
    exact funext fun a => Fin.ext (by
      match a with
      | ⟨0, _⟩ => exact dot_lhs_0 _ _
      | ⟨1, _⟩ => exact (dot_lhs_1 _ _).trans hk)
  · intro k
    have hk := contrEquiv1_symm_val dot_S100000x128_S128x128_S100000x128_1_0_0_1_n_n 128 rfl rfl k
    exact funext fun a => Fin.ext (by
      match a with
      | ⟨0, _⟩ => exact (dot_rhs_0 _ _).trans hk
      | ⟨1, _⟩ => exact dot_rhs_1 _ _)
  · refine Finset.sum_congr rfl fun k _ => congrArg (x (ix2 r k) * ·) ?_
    exact transpose_apply [1, 0] W transposes_S128x128_S128x128_1_0 (ix2 k j) (ix2 j k) (fun b => match b with
      | ⟨0, _⟩ => rfl
      | ⟨1, _⟩ => rfl)

/-- A graph layer at (r, j). -/
theorem sageT_apply (A : FVec Ideal SN .f32) (dv : FVec Ideal SD .f32) (h : FVec Ideal SN .f32) (Wl : FVec Ideal SW .f32)
    (b : FVec Ideal SB .f32) (Wr : FVec Ideal SW .f32) (r : Fin 100000) (j : Fin 128) :
    sageT A dv h Wl b Wr (ix2 r j) = Cert.Spec.sageAt A dv h Wl b Wr r j := by
  unfold sageT Cert.Spec.sageAt
  show (linT _ Wl (ix2 r j) + broadcastInDim (s := S1x128) S100000x128 ![0, 1] bcast_S1x128_S100000x128_0_1 _ (ix2 r j)) + linT h Wr (ix2 r j) = _
  rw [linT_apply, linT_apply, Cert.Lib.RowOps.bcastInDim_1b_ab, Cert.Lib.RowOps.bcastInDim_b_1b]
  unfold Cert.Spec.linAt
  refine congrArg (· + _) (congrArg (· + _) (Finset.sum_congr rfl fun k _ => congrArg (· * _) ?_))
  show A (ix2 r k) * broadcastInDim (s := S100000x1) S100000x128 ![0, 1] bcast_S100000x1_S100000x128_0_1 _ (ix2 r k) = _
  rw [Cert.Lib.RowOps.bcastInDim_a1_ab, Cert.Lib.RowOps.bcastInDim_a_a1]

/-- A middle layer's clamp and residual at (r, j). -/
theorem midT_apply (S res : FVec Ideal SN .f32) (r : Fin 100000) (j : Fin 128) :
    midT S res (ix2 r j) = max (S (ix2 r j)) Cert.Spec.zeroF + res (ix2 r j) := by
  unfold midT
  show max (S (ix2 r j)) (broadcastInDim (s := S_) S100000x128 ![] bcast_S_S100000x128 _ (ix2 r j)) + res (ix2 r j) = _
  rw [Cert.Lib.RowOps.bcastInDim_scalar]
  rfl

/-- The host's sum along a row from the zero word: the row's sum. -/
theorem rowSumT_apply (X : FVec Ideal SN .f32) (r : Fin 100000) :
    Host.reduceAdd (F := Ideal) X (constant (F := Ideal) S_ .f32 0x00000000#32) reducesTo_S100000x128_S100000_d1 h_S_ (ix1 r)
      = ∑ q : Fin 128, X (ix2 r q) := by
  simp only [Host.reduceAdd, Ideal.hostReduceAdd_def]
  rw [Ideal.hostReduceAdd_single reducesTo_S100000x128_S100000_d1 (by decide)]
  have hz : (constant (F := Ideal) S_ .f32 0x00000000#32) (Shape.Idx.first h_S_) = 0 := Ideal.ofBits_zero_f32
  rw [hz, zero_add]
  exact Finset.sum_congr rfl fun k _ => congrArg X (funext fun a => Fin.ext (by
    match a with
    | ⟨0, _⟩ => rfl
    | ⟨1, _⟩ => rfl))

/-- The host's quotient at an index. -/
theorem hostDiv_apply {s : Shape} {φ : FTy} (a b : FVec Ideal s φ) (i : s.Idx) : Host.divf (F := Ideal) a b i = Ideal.div (a i) (b i) := rfl

/-- The host's square root at an index. -/
theorem hostSqrt_apply {s : Shape} {φ : FTy} (a : FVec Ideal s φ) (i : s.Idx) : Host.sqrt (F := Ideal) a i = Ideal.sqrt (a i) := rfl

/-- The last layer's normalisation at (r, j). -/
theorem finT_apply (S : FVec Ideal SN .f32) (r : Fin 100000) (j : Fin 128) :
    finT S (ix2 r j)
      = Ideal.div (S (ix2 r j)) (max (Ideal.sqrt (∑ q : Fin 128, S (ix2 r q) * S (ix2 r q))) Cert.Spec.epsF) := by
  unfold finT
  rw [hostDiv_apply, Cert.Lib.RowOps.bcastInDim_a1_ab, maximumf_apply, Cert.Lib.RowOps.bcastInDim_scalar,
    hostSqrt_apply, Cert.Lib.RowOps.bcastInDim_a_a1, rowSumT_apply]
  rfl

end Cert.RefNet

end
-- ==== Proof.RefNet.lean ====
/-
  The reference program's result, as a staged composition of the building blocks, is the network of the
  specification.

  The projection is the product with the transposed weight. The first two graph layers are a graph layer of the
  neighbour sums of the previous features, clamped at zero and added to a residual: the input features for the
  first, the first layer's output for the second. The result is the third graph layer with each row divided by the
  larger of its norm and the small constant. Read entry by entry the building blocks are the specification's
  functions, so the composition is the specification's network, with the reference's own neighbour sums and
  reciprocal degrees as its two parameters.
-/
import proofs.«157507_j81793357185798_2_alg».proof.Proof.RefOps

noncomputable section

open scoped BigOperators

namespace Cert.RefNet

open Cert.ReferenceIdeal Cert.ReferenceIdeal.Gen Idealize.ShloMosaic Idealize.ShloMosaic.ValueIdx
open Cert.Spec (SN SW SB SD)

/-- The product with the transposed weight is the specification's linear layer. -/
theorem lin_eq (x : FVec Ideal SN .f32) (W : FVec Ideal SW .f32) : linT x W = Cert.Spec.lin x W := by
  funext i
  obtain ⟨r, j, rfl⟩ : ∃ (r : Fin 100000) (j : Fin 128), i = ix2 r j := ⟨i 0, i 1, eq_ix2 i⟩
  exact linT_apply x W r j

/-- A clamped graph layer with its residual is the specification's middle layer. -/
theorem mid_eq (A : FVec Ideal SN .f32) (dv : FVec Ideal SD .f32) (h : FVec Ideal SN .f32) (Wl : FVec Ideal SW .f32)
    (b : FVec Ideal SB .f32) (Wr : FVec Ideal SW .f32) (res : FVec Ideal SN .f32) :
    midT (sageT A dv h Wl b Wr) res = Cert.Spec.mid A dv h Wl b Wr res := by
  funext i
  obtain ⟨r, j, rfl⟩ : ∃ (r : Fin 100000) (j : Fin 128), i = ix2 r j := ⟨i 0, i 1, eq_ix2 i⟩
  rw [midT_apply, sageT_apply]
  rfl

/-- A normalised graph layer is the specification's last layer. -/
theorem fin_eq (A : FVec Ideal SN .f32) (dv : FVec Ideal SD .f32) (h : FVec Ideal SN .f32) (Wl : FVec Ideal SW .f32)
    (b : FVec Ideal SB .f32) (Wr : FVec Ideal SW .f32) :
    finT (sageT A dv h Wl b Wr) = Cert.Spec.fin A dv h Wl b Wr := by
  funext i
  obtain ⟨r, j, rfl⟩ : ∃ (r : Fin 100000) (j : Fin 128), i = ix2 r j := ⟨i 0, i 1, eq_ix2 i⟩
  rw [finT_apply]
  simp only [sageT_apply]
  rfl

/-- The first layer's output: a graph layer of the projected features, clamped, plus the input features. -/
def h1 (x : FVec Ideal SN .f32) (ei : IVec S2x800000 32) (Wp W1l : FVec Ideal SW .f32) (b1 : FVec Ideal SB .f32)
    (W1r : FVec Ideal SW .f32) : FVec Ideal SN .f32 :=
  midT (sageT (aggr ei (linT x Wp)) (dinv ei) (linT x Wp) W1l b1 W1r) x

/-- The second layer's output: a graph layer of the first layer's output, clamped, plus that output. -/
def h2 (x : FVec Ideal SN .f32) (ei : IVec S2x800000 32) (Wp W1l : FVec Ideal SW .f32) (b1 : FVec Ideal SB .f32)
    (W1r W2l : FVec Ideal SW .f32) (b2 : FVec Ideal SB .f32) (W2r : FVec Ideal SW .f32) : FVec Ideal SN .f32 :=
  midT (sageT (aggr ei (h1 x ei Wp W1l b1 W1r)) (dinv ei) (h1 x ei Wp W1l b1 W1r) W2l b2 W2r) (h1 x ei Wp W1l b1 W1r)

/-- The reference's result: the third graph layer of the second layer's output, each row normalised. -/
def refOut (x : FVec Ideal SN .f32) (ei : IVec S2x800000 32) (Wp W1l : FVec Ideal SW .f32) (b1 : FVec Ideal SB .f32)
    (W1r W2l : FVec Ideal SW .f32) (b2 : FVec Ideal SB .f32) (W2r W3l : FVec Ideal SW .f32) (b3 : FVec Ideal SB .f32)
    (W3r : FVec Ideal SW .f32) : FVec Ideal SN .f32 :=
  finT (sageT (aggr ei (h2 x ei Wp W1l b1 W1r W2l b2 W2r)) (dinv ei) (h2 x ei Wp W1l b1 W1r W2l b2 W2r) W3l b3 W3r)

/-- The reference's result is the specification's network of the argument arrays, with the reference's neighbour
    sums and reciprocal degrees. -/
theorem ref_net (x : FVec Ideal SN .f32) (ei : IVec S2x800000 32) (Wp W1l : FVec Ideal SW .f32) (b1 : FVec Ideal SB .f32)
    (W1r W2l : FVec Ideal SW .f32) (b2 : FVec Ideal SB .f32) (W2r W3l : FVec Ideal SW .f32) (b3 : FVec Ideal SB .f32)
    (W3r : FVec Ideal SW .f32) :
    refOut x ei Wp W1l b1 W1r W2l b2 W2r W3l b3 W3r = Cert.Spec.net (aggr ei) (dinv ei) x Wp W1l b1 W1r W2l b2 W2r W3l b3 W3r := by
  unfold refOut h2 h1
  rw [lin_eq, mid_eq, mid_eq, fin_eq]
  rfl

end Cert.RefNet

end
-- ==== Proof.RefCut.lean ====
/-
  The reference's 115 host operations cut into three stretches. The first 53 compute, from the argument arrays, the
  edges' sources and destinations, the reciprocal degrees, the projected features and the first layer's output; the
  next 28 compute the second layer's output from the first's; the last 34 compute the normalised third layer from the
  second's. The fold of the whole list is the fold of the last stretch over the fold of the second over the fold of
  the first. The neighbour sums are restated with the sources and destinations as arrays, the form a later stretch
  meets them in.
-/
import proofs.«157507_j81793357185798_2_alg».proof.Proof.RefNet
import proofs.«157507_j81793357185798_2_alg».proof.Proof.RefRunOps

-- one declaration at a time: each fold below is a whole simp pass over a stretch of the list
set_option Elab.async false

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo
open Cert.Spec (SN SW SB SD)

/-- Two stretches run one after the other: the second's fold over the first's. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- Setup, projection and first layer: the operations up to the first layer's output. -/
def opsP : List (HloOp τ sig (Elt Ideal)) := (ops (F := Ideal)).take 53
/-- The second layer. -/
def opsQ : List (HloOp τ sig (Elt Ideal)) := ((ops (F := Ideal)).drop 53).take 28
/-- The third layer and the normalisation. -/
def opsR : List (HloOp τ sig (Elt Ideal)) := ((ops (F := Ideal)).drop 53).drop 28

theorem ops_split : (ops (F := Ideal)) = opsP ++ (opsQ ++ opsR) := by
  unfold opsP opsQ opsR
  rw [List.take_append_drop, List.take_append_drop]

/-- The neighbour sums with the sources and destinations given as arrays. -/
def aggrV (s d : IVec S800000 32) (h : FVec Ideal SN .f32) : FVec Ideal SN .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 d)
    (Host.gather gather_S100000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 100000#32)))
          s)))

/-! The operations of the three called functions (the select of the reciprocal degrees, the two clamps) are printed
over references that carry the value's type, with the value moved to the buffer's own type and back. At these literal
buffers that move is the identity, so each such operation is the plain operation at the buffers' own types. -/

theorem opeq_call0_v0 :
    (TRef.unary (TRef.of (T := ⟨S_, .f32⟩) main_cst_4) (TRef.of (T := ⟨S_, .f32⟩) main_call0_v0) id : HloOp τ sig (Elt Ideal))
      = StableHlo.unary main_cst_4 main_call0_v0 (id : (⟨S_, .f32⟩ : BufTy).Contents (Elt Ideal) → (⟨S_, .f32⟩ : BufTy).Contents (Elt Ideal)) := rfl
theorem opeq_call0_v1 :
    (TRef.unary (TRef.of (T := ⟨S_, .f32⟩) main_call0_v0) (TRef.of (T := ⟨S100000, .f32⟩) main_call0_v1) (broadcastInDim S100000 ![] bcast_S_S100000) : HloOp τ sig (Elt Ideal))
      = StableHlo.unary main_call0_v0 main_call0_v1 (broadcastInDim S100000 ![] bcast_S_S100000 : (⟨S_, .f32⟩ : BufTy).Contents (Elt Ideal) → (⟨S100000, .f32⟩ : BufTy).Contents (Elt Ideal)) := rfl
theorem opeq_v14 :
    (TRef.ternary (TRef.of (T := ⟨S100000, .i1⟩) main_v9) (TRef.of (T := ⟨S100000, .f32⟩) main_v13) (TRef.of (T := ⟨S100000, .f32⟩) main_call0_v1) (TRef.of (T := ⟨S100000, .f32⟩) main_v14) select : HloOp τ sig (Elt Ideal))
      = StableHlo.ternary main_v9 main_v13 main_call0_v1 main_v14 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) := rfl
theorem opeq_call1_cst :
    (TRef.nullary (TRef.of (T := ⟨S_, .f32⟩) main_call1_cst) (constant (F := Ideal) S_ .f32 0x00000000#32) : HloOp τ sig (Elt Ideal))
      = StableHlo.nullary main_call1_cst (constant (F := Ideal) S_ .f32 0x00000000#32 : (⟨S_, .f32⟩ : BufTy).Contents (Elt Ideal)) := rfl
theorem opeq_call1_v0 :
    (TRef.unary (TRef.of (T := ⟨S_, .f32⟩) main_call1_cst) (TRef.of (T := ⟨S100000x128, .f32⟩) main_call1_v0) (broadcastInDim S100000x128 ![] bcast_S_S100000x128) : HloOp τ sig (Elt Ideal))
      = StableHlo.unary main_call1_cst main_call1_v0 (broadcastInDim S100000x128 ![] bcast_S_S100000x128 : (⟨S_, .f32⟩ : BufTy).Contents (Elt Ideal) → (⟨S100000x128, .f32⟩ : BufTy).Contents (Elt Ideal)) := rfl
theorem opeq_v38 :
    (TRef.binary (TRef.of (T := ⟨S100000x128, .f32⟩) main_v37) (TRef.of (T := ⟨S100000x128, .f32⟩) main_call1_v0) (TRef.of (T := ⟨S100000x128, .f32⟩) main_v38) (maximumf (F := Ideal) (s := S100000x128) (φ := .f32)) : HloOp τ sig (Elt Ideal))
      = StableHlo.binary main_v37 main_call1_v0 main_v38 (maximumf (F := Ideal) (s := S100000x128) (φ := .f32) : (⟨S100000x128, .f32⟩ : BufTy).Contents (Elt Ideal) → (⟨S100000x128, .f32⟩ : BufTy).Contents (Elt Ideal) → (⟨S100000x128, .f32⟩ : BufTy).Contents (Elt Ideal)) := rfl
theorem opeq_call2_cst :
    (TRef.nullary (TRef.of (T := ⟨S_, .f32⟩) main_call2_cst) (constant (F := Ideal) S_ .f32 0x00000000#32) : HloOp τ sig (Elt Ideal))
      = StableHlo.nullary main_call2_cst (constant (F := Ideal) S_ .f32 0x00000000#32 : (⟨S_, .f32⟩ : BufTy).Contents (Elt Ideal)) := rfl
theorem opeq_call2_v0 :
    (TRef.unary (TRef.of (T := ⟨S_, .f32⟩) main_call2_cst) (TRef.of (T := ⟨S100000x128, .f32⟩) main_call2_v0) (broadcastInDim S100000x128 ![] bcast_S_S100000x128) : HloOp τ sig (Elt Ideal))
      = StableHlo.unary main_call2_cst main_call2_v0 (broadcastInDim S100000x128 ![] bcast_S_S100000x128 : (⟨S_, .f32⟩ : BufTy).Contents (Elt Ideal) → (⟨S100000x128, .f32⟩ : BufTy).Contents (Elt Ideal)) := rfl
theorem opeq_v61 :
    (TRef.binary (TRef.of (T := ⟨S100000x128, .f32⟩) main_v60) (TRef.of (T := ⟨S100000x128, .f32⟩) main_call2_v0) (TRef.of (T := ⟨S100000x128, .f32⟩) main_v61) (maximumf (F := Ideal) (s := S100000x128) (φ := .f32)) : HloOp τ sig (Elt Ideal))
      = StableHlo.binary main_v60 main_call2_v0 main_v61 (maximumf (F := Ideal) (s := S100000x128) (φ := .f32) : (⟨S100000x128, .f32⟩ : BufTy).Contents (Elt Ideal) → (⟨S100000x128, .f32⟩ : BufTy).Contents (Elt Ideal) → (⟨S100000x128, .f32⟩ : BufTy).Contents (Elt Ideal)) := rfl

theorem aggr_eq (ei : IVec S2x800000 32) (h : FVec Ideal SN .f32) : aggr ei h = aggrV (srcs ei) (dsts ei) h := rfl

end Cert.RefNet

end
-- ==== Proof.RefFoldP.lean ====
/-
  The first stretch of the reference's operations, over any contents of the buffers: it leaves the edges' sources and
  destinations, the reciprocal degrees and the first layer's output, each as a building block of the argument arrays,
  and does not write the later layers' weights and biases.
-/
import proofs.«157507_j81793357185798_2_alg».proof.Proof.RefCut

-- one declaration at a time: each fold below is a whole simp pass over a stretch of the list
set_option Elab.async false

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo
open Cert.Spec (SN SW SB SD)

set_option maxHeartbeats 8000000 in
/-- The first layer's output. -/
theorem foldP_v39 (V : Valuation τ sig (Elt Ideal)) :
    after opsP V (Proc.devRef .tc main_v39) = h1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [opsP, ops, List.take_succ_cons, List.take_zero]
  rw [opeq_call0_v0, opeq_call0_v1, opeq_v14, opeq_call1_cst, opeq_call1_v0, opeq_v38]
  after_results_simp <;> rfl

set_option maxHeartbeats 8000000 in
/-- The edges' sources. -/
theorem foldP_v1 (V : Valuation τ sig (Elt Ideal)) :
    after opsP V (Proc.devRef .tc main_v1) = srcs (V (Proc.devRef .tc main_arg1)) := by
  simp only [opsP, ops, List.take_succ_cons, List.take_zero]
  after_results_simp <;> rfl

set_option maxHeartbeats 8000000 in
/-- The edges' destinations. -/
theorem foldP_v3 (V : Valuation τ sig (Elt Ideal)) :
    after opsP V (Proc.devRef .tc main_v3) = dsts (V (Proc.devRef .tc main_arg1)) := by
  simp only [opsP, ops, List.take_succ_cons, List.take_zero]
  after_results_simp <;> rfl

set_option maxHeartbeats 8000000 in
/-- The reciprocal degrees. -/
theorem foldP_v14 (V : Valuation τ sig (Elt Ideal)) :
    after opsP V (Proc.devRef .tc main_v14) = dinv (V (Proc.devRef .tc main_arg1)) := by
  simp only [opsP, ops, List.take_succ_cons, List.take_zero]
  rw [opeq_call0_v0, opeq_call0_v1, opeq_v14, opeq_call1_cst, opeq_call1_v0, opeq_v38]
  after_results_simp <;> rfl

set_option maxHeartbeats 8000000 in
/-- The first stretch does not write the argument array 6. -/
theorem foldP_arg6 (V : Valuation τ sig (Elt Ideal)) :
    after opsP V (Proc.devRef .tc main_arg6) = V (Proc.devRef .tc main_arg6) := by
  simp only [opsP, ops, List.take_succ_cons, List.take_zero]
  after_results_simp <;> rfl

set_option maxHeartbeats 8000000 in
/-- The first stretch does not write the argument array 7. -/
theorem foldP_arg7 (V : Valuation τ sig (Elt Ideal)) :
    after opsP V (Proc.devRef .tc main_arg7) = V (Proc.devRef .tc main_arg7) := by
  simp only [opsP, ops, List.take_succ_cons, List.take_zero]
  after_results_simp <;> rfl

set_option maxHeartbeats 8000000 in
/-- The first stretch does not write the argument array 8. -/
theorem foldP_arg8 (V : Valuation τ sig (Elt Ideal)) :
    after opsP V (Proc.devRef .tc main_arg8) = V (Proc.devRef .tc main_arg8) := by
  simp only [opsP, ops, List.take_succ_cons, List.take_zero]
  after_results_simp <;> rfl

set_option maxHeartbeats 8000000 in
/-- The first stretch does not write the argument array 9. -/
theorem foldP_arg9 (V : Valuation τ sig (Elt Ideal)) :
    after opsP V (Proc.devRef .tc main_arg9) = V (Proc.devRef .tc main_arg9) := by
  simp only [opsP, ops, List.take_succ_cons, List.take_zero]
  after_results_simp <;> rfl

set_option maxHeartbeats 8000000 in
/-- The first stretch does not write the argument array 10. -/
theorem foldP_arg10 (V : Valuation τ sig (Elt Ideal)) :
    after opsP V (Proc.devRef .tc main_arg10) = V (Proc.devRef .tc main_arg10) := by
  simp only [opsP, ops, List.take_succ_cons, List.take_zero]
  after_results_simp <;> rfl

set_option maxHeartbeats 8000000 in
/-- The first stretch does not write the argument array 11. -/
theorem foldP_arg11 (V : Valuation τ sig (Elt Ideal)) :
    after opsP V (Proc.devRef .tc main_arg11) = V (Proc.devRef .tc main_arg11) := by
  simp only [opsP, ops, List.take_succ_cons, List.take_zero]
  after_results_simp <;> rfl

end Cert.RefNet

end
-- ==== Proof.RefFoldQ.lean ====
/-
  The second stretch of the reference's operations, over any contents of the buffers: the second layer's output as a
  clamped graph layer of the first layer's output with that output as residual; the sources, destinations, reciprocal
  degrees and the third layer's weights and bias are not written.
-/
import proofs.«157507_j81793357185798_2_alg».proof.Proof.RefCut

-- one declaration at a time: each fold below is a whole simp pass over a stretch of the list
set_option Elab.async false

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo
open Cert.Spec (SN SW SB SD)

set_option maxHeartbeats 8000000 in
/-- The second layer's output. -/
theorem foldQ_v62 (V : Valuation τ sig (Elt Ideal)) :
    after opsQ V (Proc.devRef .tc main_v62)
        = midT (sageT (aggrV (V (Proc.devRef .tc main_v1)) (V (Proc.devRef .tc main_v3)) (V (Proc.devRef .tc main_v39))) (V (Proc.devRef .tc main_v14)) (V (Proc.devRef .tc main_v39))
            (V (Proc.devRef .tc main_arg6)) (V (Proc.devRef .tc main_arg7)) (V (Proc.devRef .tc main_arg8))) (V (Proc.devRef .tc main_v39)) := by
  simp only [opsQ, ops, List.take_succ_cons, List.take_zero, List.drop_succ_cons, List.drop_zero]
  rw [opeq_call2_cst, opeq_call2_v0, opeq_v61]
  after_results_simp <;> rfl

set_option maxHeartbeats 8000000 in
/-- The second stretch does not write the sources. -/
theorem foldQ_v1 (V : Valuation τ sig (Elt Ideal)) :
    after opsQ V (Proc.devRef .tc main_v1) = V (Proc.devRef .tc main_v1) := by
  simp only [opsQ, ops, List.take_succ_cons, List.take_zero, List.drop_succ_cons, List.drop_zero]
  after_results_simp <;> rfl

set_option maxHeartbeats 8000000 in
/-- The second stretch does not write the destinations. -/
theorem foldQ_v3 (V : Valuation τ sig (Elt Ideal)) :
    after opsQ V (Proc.devRef .tc main_v3) = V (Proc.devRef .tc main_v3) := by
  simp only [opsQ, ops, List.take_succ_cons, List.take_zero, List.drop_succ_cons, List.drop_zero]
  after_results_simp <;> rfl

set_option maxHeartbeats 8000000 in
/-- The second stretch does not write the reciprocal degrees. -/
theorem foldQ_v14 (V : Valuation τ sig (Elt Ideal)) :
    after opsQ V (Proc.devRef .tc main_v14) = V (Proc.devRef .tc main_v14) := by
  simp only [opsQ, ops, List.take_succ_cons, List.take_zero, List.drop_succ_cons, List.drop_zero]
  after_results_simp <;> rfl

set_option maxHeartbeats 8000000 in
/-- The second stretch does not write the argument array 9. -/
theorem foldQ_arg9 (V : Valuation τ sig (Elt Ideal)) :
    after opsQ V (Proc.devRef .tc main_arg9) = V (Proc.devRef .tc main_arg9) := by
  simp only [opsQ, ops, List.take_succ_cons, List.take_zero, List.drop_succ_cons, List.drop_zero]
  after_results_simp <;> rfl

set_option maxHeartbeats 8000000 in
/-- The second stretch does not write the argument array 10. -/
theorem foldQ_arg10 (V : Valuation τ sig (Elt Ideal)) :
    after opsQ V (Proc.devRef .tc main_arg10) = V (Proc.devRef .tc main_arg10) := by
  simp only [opsQ, ops, List.take_succ_cons, List.take_zero, List.drop_succ_cons, List.drop_zero]
  after_results_simp <;> rfl

set_option maxHeartbeats 8000000 in
/-- The second stretch does not write the argument array 11. -/
theorem foldQ_arg11 (V : Valuation τ sig (Elt Ideal)) :
    after opsQ V (Proc.devRef .tc main_arg11) = V (Proc.devRef .tc main_arg11) := by
  simp only [opsQ, ops, List.take_succ_cons, List.take_zero, List.drop_succ_cons, List.drop_zero]
  after_results_simp <;> rfl

end Cert.RefNet

end
-- ==== Proof.RefFoldR.lean ====
/-
  The third stretch of the reference's operations, over any contents of the buffers: the result as the third graph
  layer of the second layer's output, each row divided by the larger of its norm and the small constant.
-/
import proofs.«157507_j81793357185798_2_alg».proof.Proof.RefCut

-- one declaration at a time: each fold below is a whole simp pass over a stretch of the list
set_option Elab.async false

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo
open Cert.Spec (SN SW SB SD)

set_option maxHeartbeats 8000000 in
/-- The result. -/
theorem foldR_v91 (V : Valuation τ sig (Elt Ideal)) :
    after opsR V (Proc.devRef .tc main_v91)
        = finT (sageT (aggrV (V (Proc.devRef .tc main_v1)) (V (Proc.devRef .tc main_v3)) (V (Proc.devRef .tc main_v62))) (V (Proc.devRef .tc main_v14)) (V (Proc.devRef .tc main_v62))
            (V (Proc.devRef .tc main_arg9)) (V (Proc.devRef .tc main_arg10)) (V (Proc.devRef .tc main_arg11))) := by
  simp only [opsR, ops, List.drop_succ_cons, List.drop_zero]
  after_results_simp <;> rfl

end Cert.RefNet

end
-- ==== Proof.RefFold.lean ====
/-
  The fold of the reference's whole list of operations at the result buffer: the last stretch's fold over the
  second's over the first's, each stretch's output read as a building block of what the stretch before left, is the
  staged composition of the twelve argument arrays.
-/
import proofs.«157507_j81793357185798_2_alg».proof.Proof.RefFoldP
import proofs.«157507_j81793357185798_2_alg».proof.Proof.RefFoldQ
import proofs.«157507_j81793357185798_2_alg».proof.Proof.RefFoldR

-- one declaration at a time: each fold below is a whole simp pass over a stretch of the list
set_option Elab.async false

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo
open Cert.Spec (SN SW SB SD)

/-- The whole list's fold at the result buffer: the staged composition of the argument arrays. -/
theorem fold_v91 (V : Valuation τ sig (Elt Ideal)) :
    after (ops (F := Ideal)) V (Proc.devRef .tc main_v91)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have e : after (ops (F := Ideal)) V = after (opsP ++ (opsQ ++ opsR)) V := congrArg (fun l => after l V) ops_split
  rw [e, after_app, after_app, foldR_v91, foldQ_v62, foldQ_v1, foldQ_v3, foldQ_v14, foldQ_arg9, foldQ_arg10, foldQ_arg11,
    foldP_v39, foldP_v1, foldP_v3, foldP_v14, foldP_arg6, foldP_arg7, foldP_arg8, foldP_arg9, foldP_arg10, foldP_arg11]
  rfl

end Cert.RefNet

end
-- ==== Proof.RefRun.lean ====
/-
  The reference program's run. Its @main is a straight line of 115 host operations, so every weakly fair execution
  ends, without a fault, with each buffer at the fold of the operations' results over the contents at launch. At the
  result buffer that fold is the staged composition of the building blocks — the projection, two clamped graph
  layers with their residuals, the normalised third layer — applied to the twelve argument arrays (the fold read one
  layer at a time); no operation writes an argument array, so each ends as it began.
-/
import proofs.«157507_j81793357185798_2_alg».proof.Defs
import proofs.«157507_j81793357185798_2_alg».proof.Proof.Gen.Pre_finite_inputs
import proofs.«157507_j81793357185798_2_alg».proof.Proof.RefFold

noncomputable section

namespace Cert.RefNet

open Cert.ReferenceIdeal Cert.ReferenceIdeal.Gen Cert.ReferenceIdeal.ValueP Idealize.ShloMosaic Idealize.ShloMosaic.TcCoe
  Idealize.SL.Sem Idealize.ShloMosaic.StableHlo

set_option maxHeartbeats 46000000 in
/-- On every device, from any memory with zero counters: every weakly fair execution of the reference's @main
    terminates with the result buffer at the staged composition of the argument arrays and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v91).trans (fold_v91 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

/-- The reference runs to the end without a fault and leaves its argument arrays as they were: the run above with
    the result's conjunct dropped. -/
theorem frame_ri : Cert.frame_ReferenceIdeal := fun m ρ _ =>
  (θ_run Cert.ReferenceIdeal.defs _ _).mono (fun _ h c => (h c).2) (ref_run m ρ)

end Cert.RefNet

end
-- ==== Proof.Bridge.lean ====
/-
  The two programs compute the reciprocal degrees and the neighbour sums by the same host operations on the edge
  list, with the same dimension records: as functions of whole arrays the two are one.
-/
import proofs.«157507_j81793357185798_2_alg».proof.Proof.KernelIdeal.KNet
import proofs.«157507_j81793357185798_2_alg».proof.Proof.RefOps

noncomputable section

namespace Cert.Bridge

open Idealize.ShloMosaic

/-- The reciprocal degrees are one function of the edge list. -/
theorem dinv_eq (ei : IVec Cert.KernelIdeal.S2x800000 32) : Cert.KernelIdeal.KNet.dinv ei = Cert.RefNet.dinv ei := rfl

/-- The neighbour sums are one function of the edge list and the features. -/
theorem aggr_eq (ei : IVec Cert.KernelIdeal.S2x800000 32) : Cert.KernelIdeal.KNet.aggr ei = Cert.RefNet.aggr ei := rfl

end Cert.Bridge

end
-- ==== Proof.lean ====
/-
  A three-layer graph network on 100000 nodes with 128 features: a projection x · Wpᵀ, then three layers each
  (agg · dinv) · Wlᵀ + b + h · Wrᵀ, where agg sums the source rows of h into their destination rows along the
  800000 edges and dinv is the reciprocal degree; the first two layers are followed by max(·, 0) and a residual,
  the last by dividing each row by max(‖row‖₂, ε). The kernel's program computes the four dense steps in four
  pallas_calls, twenty row blocks of 5000 each, on weights the host transposed beforehand, and the edge sums on
  the host between them; the reference computes everything on the host with whole-array products.

  Frames: each program terminates on every weakly fair execution, faults nowhere, and leaves its twelve argument
  arrays as launched. For the kernel's program (at the word-level instance and at the ideal one) this is the run of
  its four regions chained through the buffers that live across them; the third region reads one array through two
  windows and holds it half and half. For the reference it is its host operations run in sequence.

  Values, on the extended reals: block t of each region's result is the layer's arithmetic on rows 5000t … 5000t+4999
  of its inputs, so the whole result is the layer applied to the whole arrays; a product with a pre-transposed
  weight is the sum over k of x[r,k] · W[j,k], which is what the reference's contraction computes; the reciprocal
  degrees and the edge sums are the same host operations in both programs. Both results are therefore one
  function of the argument arrays, index by index; no law used needs the inputs to be finite.
-/
import proofs.«157507_j81793357185798_2_alg».proof.Defs
import proofs.«157507_j81793357185798_2_alg».proof.Proof.Gen.Kernel
import proofs.«157507_j81793357185798_2_alg».proof.Proof.Gen.KernelIdeal
import proofs.«157507_j81793357185798_2_alg».proof.Proof.Gen.ReferenceIdeal
import proofs.«157507_j81793357185798_2_alg».proof.Proof.Gen.Pre_finite_inputs
import proofs.«157507_j81793357185798_2_alg».proof.Proof.Kernel.Frame
import proofs.«157507_j81793357185798_2_alg».proof.Proof.KernelIdeal.Frame
import proofs.«157507_j81793357185798_2_alg».proof.Proof.KernelIdeal.Net
import proofs.«157507_j81793357185798_2_alg».proof.Proof.RefNet
import proofs.«157507_j81793357185798_2_alg».proof.Proof.RefRun
import proofs.«157507_j81793357185798_2_alg».proof.Proof.Bridge

noncomputable section

namespace Cert.Proof

open Idealize.ShloMosaic Idealize.ShloMosaic.TcCoe Idealize.SL.Sem

/-- The word-level program's frame. -/
theorem frame_k : Cert.frame_Kernel := fun m ρ _ => Cert.Kernel.Fr.frame m ρ

/-- The idealized program's frame. -/
theorem frame_ki : Cert.frame_KernelIdeal := fun m ρ _ => Cert.KernelIdeal.Fr.frame m ρ

/-- The idealization rewrote nothing. -/
theorem preserves : Cert.preserves_Kernel_KernelIdeal := trivial

/-- Both programs end with the network's value of the argument arrays in their result buffers. -/
theorem algebraic : Cert.algebraic_KernelIdeal_ReferenceIdeal := by
  intro m ρ m' ρ' _ hagree
  refine ⟨fun c => Cert.KernelIdeal.Fr.X10 (F := Ideal) m c Cert.KernelIdeal.main_v59, Cert.KernelIdeal.Fr.run_named (F := Ideal) m ρ, ?_⟩
  refine (θ_run (Cert.ReferenceIdeal.defs (F := Ideal)) _ _).mono (fun r h c => ⟨(h c).1.trans ?_, (h c).2⟩) (Cert.RefNet.ref_run m' ρ')
  show _ = Cert.KernelIdeal.Fr.X10 (F := Ideal) m c Cert.KernelIdeal.main_v59
  rw [Cert.RefNet.ref_net, Cert.KernelIdeal.Val.kernel_net, Cert.Bridge.dinv_eq, Cert.Bridge.aggr_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefNet.frame_ri, preserves, algebraic⟩

end Cert.Proof

end
